-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S32x2048 : Shape := ⟨2, ![32, 2048]⟩
abbrev S512x32 : Shape := ⟨2, ![512, 32]⟩
abbrev S81920x4 : Shape := ⟨2, ![81920, 4]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S512x32 : S_.BroadcastsInDim S512x32 (![] : Fin 0 → Fin S512x32.rank)
  reducesTo_S512x32_S_d0_1 : S512x32.ReducesTo [0, 1] S_
  bcast_S_S81920x4 : S_.BroadcastsInDim S81920x4 (![] : Fin 0 → Fin S81920x4.rank)
  reducesTo_S81920x4_S_d0_1 : S81920x4.ReducesTo [0, 1] S_

variable [Facts]

def fn_part1 {F : FTy → Type} [FloatOps F] (main_v13 : IVec S_ 1) (main_v16 : IVec S81920x4 1) : IVec S_ 1 :=
  let main_c_5 : IVec S_ 1 := constantI S_ 1 1#1
  let main_v17 : IVec S_ 1 := (fun x v => Host.reduce IntOp.andi x v reducesTo_S81920x4_S_d0_1 h_S_) main_v16 main_c_5
  let main_v18 : IVec S_ 1 := andi main_v13 main_v17
  main_v18

def fn {F : FTy → Type} [FloatOps F] (main_arg0 : FVec F S16384x2048 .f32) (main_arg1 : FVec F S32x2048 .f32) (main_arg2 : FVec F S512x32 .f32) (main_arg3 : FVec F S81920x4 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S81920x4 .f32 := Host.absf main_arg3
  let main_cst_4 : FVec F S_ .f32 := constant S_ .f32 0x7F800000#32
  let main_v15 : FVec F S81920x4 .f32 := broadcastInDim S81920x4 ![] bcast_S_S81920x4 main_cst_4
  let main_v16 : IVec S81920x4 1 := cmpf .olt main_v14 main_v15
  fn_part1 (F := F) main_v13 main_v16
-- ==== Kernel.lean ====
abbrev S16384x2048 : Shape := ⟨2, ![16384, 2048]⟩
abbrev S32x2048 : Shape := ⟨2, ![32, 2048]⟩
abbrev S512x32 : Shape := ⟨2, ![512, 32]⟩
abbrev S81920x4 : Shape := ⟨2, ![81920, 4]⟩
abbrev S16384x512 : Shape := ⟨2, ![16384, 512]⟩
abbrev S2x2048x32 : Shape := ⟨3, ![2, 2048, 32]⟩
abbrev S2x32x512 : Shape := ⟨3, ![2, 32, 512]⟩
abbrev S2x1x2048 : Shape := ⟨3, ![2, 1, 2048]⟩
abbrev S2x1x32 : Shape := ⟨3, ![2, 1, 32]⟩
abbrev S2x1x512 : Shape := ⟨3, ![2, 1, 512]⟩
abbrev S2048x2048 : Shape := ⟨2, ![2048, 2048]⟩
abbrev S2048x512 : Shape := ⟨2, ![2048, 512]⟩
abbrev S1x2048x32 : Shape := ⟨3, ![1, 2048, 32]⟩
abbrev S1x32x512 : Shape := ⟨3, ![1, 32, 512]⟩
abbrev S1x1x2048 : Shape := ⟨3, ![1, 1, 2048]⟩
abbrev S1x1x32 : Shape := ⟨3, ![1, 1, 32]⟩
abbrev S1x1x512 : Shape := ⟨3, ![1, 1, 512]⟩
abbrev S2048x32 : Shape := ⟨2, ![2048, 32]⟩
abbrev S32x512 : Shape := ⟨2, ![32, 512]⟩
abbrev S1x2048 : Shape := ⟨2, ![1, 2048]⟩
abbrev S1x32 : Shape := ⟨2, ![1, 32]⟩
abbrev S1x512 : Shape := ⟨2, ![1, 512]⟩
abbrev S2048 : Shape := ⟨1, ![2048]⟩
abbrev S32 : Shape := ⟨1, ![32]⟩
abbrev S512 : Shape := ⟨1, ![512]⟩
abbrev S_ : Shape := ⟨0, ![]⟩
abbrev S65536x4 : Shape := ⟨2, ![65536, 4]⟩
abbrev S2048x32x4 : Shape := ⟨3, ![2048, 32, 4]⟩
abbrev S16384x4 : Shape := ⟨2, ![16384, 4]⟩
abbrev S32x512x4 : Shape := ⟨3, ![32, 512, 4]⟩
abbrev S2048x1 : Shape := ⟨2, ![2048, 1]⟩
abbrev S32x1 : Shape := ⟨2, ![32, 1]⟩
abbrev S2048x32x1 : Shape := ⟨3, ![2048, 32, 1]⟩
abbrev S32x512x1 : Shape := ⟨3, ![32, 512, 1]⟩
abbrev S512x1 : Shape := ⟨2, ![512, 1]⟩

abbrev nBuf : Space → Nat
  | .hbm => 82
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S32x2048, .f32⟩
  | .hbm, ⟨2, _⟩ => ⟨S512x32, .f32⟩
  | .hbm, ⟨3, _⟩ => ⟨S81920x4, .f32⟩
  | .hbm, ⟨4, _⟩ => ⟨S16384x512, .f32⟩
  | .hbm, ⟨5, _⟩ => ⟨S2x2048x32, .f32⟩
  | .hbm, ⟨6, _⟩ => ⟨S2x32x512, .f32⟩
  | .hbm, ⟨7, _⟩ => ⟨S2x1x2048, .f32⟩
  | .hbm, ⟨8, _⟩ => ⟨S2x1x32, .f32⟩
  | .hbm, ⟨9, _⟩ => ⟨S2x1x512, .f32⟩
  | .hbm, ⟨10, _⟩ => ⟨S_, .f32⟩
  | .hbm, ⟨11, _⟩ => ⟨S2048x32, .f32⟩
  | .hbm, ⟨12, _⟩ => ⟨S_, .f32⟩
  | .hbm, ⟨13, _⟩ => ⟨S32x512, .f32⟩
  | .hbm, ⟨14, _⟩ => ⟨S_, .f32⟩
  | .hbm, ⟨15, _⟩ => ⟨S1x2048, .f32⟩
  | .hbm, ⟨16, _⟩ => ⟨S_, .f32⟩
  | .hbm, ⟨17, _⟩ => ⟨S1x32, .f32⟩
  | .hbm, ⟨18, _⟩ => ⟨S_, .f32⟩
  | .hbm, ⟨19, _⟩ => ⟨S1x512, .f32⟩
  | .hbm, ⟨20, _⟩ => ⟨S65536x4, .f32⟩
  | .hbm, ⟨21, _⟩ => ⟨S2048x32x4, .f32⟩
  | .hbm, ⟨22, _⟩ => ⟨S16384x4, .f32⟩
  | .hbm, ⟨23, _⟩ => ⟨S32x512x4, .f32⟩
  | .hbm, ⟨24, _⟩ => ⟨S2048x1, .f32⟩
  | .hbm, ⟨25, _⟩ => ⟨S32x1, .f32⟩
  | .hbm, ⟨26, _⟩ => ⟨S2048x32x1, .f32⟩
  | .hbm, ⟨27, _⟩ => ⟨S2048x32, .f32⟩
  | .hbm, ⟨28, _⟩ => ⟨S_, .f32⟩
  | .hbm, ⟨29, _⟩ => ⟨S2048x32, .f32⟩
  | .hbm, ⟨30, _⟩ => ⟨S2048x32, .f32⟩
  | .hbm, ⟨31, _⟩ => ⟨S2048x32x1, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32x1, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32x1, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S32x512x1, .f32⟩
  | .hbm, ⟨46, _⟩ => ⟨S32x512, .f32⟩
  | .hbm, ⟨47, _⟩ => ⟨S_, .f32⟩
  | .hbm, ⟨48, _⟩ => ⟨S32x512, .f32⟩
  | .hbm, ⟨49, _⟩ => ⟨S32x512, .f32⟩
  | .hbm, ⟨50, _⟩ => ⟨S32x512x1, .f32⟩
  | .hbm, ⟨51, _⟩ => ⟨S32x512, .f32⟩
  | .hbm, ⟨52, _⟩ => ⟨S32x512, .f32⟩
  | .hbm, ⟨53, _⟩ => ⟨S32x512, .f32⟩
  | .hbm, ⟨54, _⟩ => ⟨S32x512x1, .f32⟩
  | .hbm, ⟨55, _⟩ => ⟨S32x512, .f32⟩
  | .hbm, ⟨56, _⟩ => ⟨S32x512, .f32⟩
  | .hbm, ⟨57, _⟩ => ⟨S32x512, .f32⟩
  | .hbm, ⟨58, _⟩ => ⟨S32x512, .f32⟩
  | .hbm, ⟨59, _⟩ => ⟨S32x512x1, .f32⟩
  | .hbm, ⟨60, _⟩ => ⟨S32x512, .f32⟩
  | .hbm, ⟨61, _⟩ => ⟨S32x512, .f32⟩
  | .hbm, ⟨62, _⟩ => ⟨S32x512, .f32⟩
  | .hbm, ⟨63, _⟩ => ⟨S32x512, .f32⟩
  | .hbm, ⟨64, _⟩ => ⟨S32x2048, .f32⟩
  | .hbm, ⟨65, _⟩ => ⟨S32x2048, .f32⟩
  | .hbm, ⟨66, _⟩ => ⟨S512x32, .f32⟩
  | .hbm, ⟨67, _⟩ => ⟨S512x32, .f32⟩
  | .hbm, ⟨68, _⟩ => ⟨S32x2048, .f32⟩
  | .hbm, ⟨69, _⟩ => ⟨S_, .f32⟩
  | .hbm, ⟨70, _⟩ => ⟨S32, .f32⟩
  | .hbm, ⟨71, _⟩ => ⟨S32x1, .f32⟩
  | .hbm, ⟨72, _⟩ => ⟨S32x1, .f32⟩
  | .hbm, ⟨73, _⟩ => ⟨S32x2048, .f32⟩
  | .hbm, ⟨74, _⟩ => ⟨S32x2048, .f32⟩
  | .hbm, ⟨75, _⟩ => ⟨S512x32, .f32⟩
  | .hbm, ⟨76, _⟩ => ⟨S_, .f32⟩
  | .hbm, ⟨77, _⟩ => ⟨S512, .f32⟩
  | .hbm, ⟨78, _⟩ => ⟨S512x1, .f32⟩
  | .hbm, ⟨79, _⟩ => ⟨S512x1, .f32⟩
  | .hbm, ⟨80, _⟩ => ⟨S512x32, .f32⟩
  | .hbm, ⟨81, _⟩ => ⟨S512x32, .f32⟩
  | .local _ .vmem, ⟨0, _⟩ => ⟨S2048x2048, .f32⟩
  | .local _ .vmem, ⟨1, _⟩ => ⟨S2048x2048, .f32⟩
  | .local _ .vmem, ⟨2, _⟩ => ⟨S32x2048, .f32⟩
  | .local _ .vmem, ⟨3, _⟩ => ⟨S512x32, .f32⟩
  | .local _ .vmem, ⟨4, _⟩ => ⟨S2048x512, .f32⟩
  | .local _ .vmem, ⟨5, _⟩ => ⟨S2048x512, .f32⟩
  | .local _ .vmem, ⟨6, _⟩ => ⟨S1x2048x32, .f32⟩
  | .local _ .vmem, ⟨7, _⟩ => ⟨S1x2048x32, .f32⟩
  | .local _ .vmem, ⟨8, _⟩ => ⟨S1x32x512, .f32⟩
  | .local _ .vmem, ⟨9, _⟩ => ⟨S1x32x512, .f32⟩
  | .local _ .vmem, ⟨10, _⟩ => ⟨S1x1x2048, .f32⟩
  | .local _ .vmem, ⟨11, _⟩ => ⟨S1x1x2048, .f32⟩
  | .local _ .vmem, ⟨12, _⟩ => ⟨S1x1x32, .f32⟩
  | .local _ .vmem, ⟨13, _⟩ => ⟨S1x1x32, .f32⟩
  | .local _ .vmem, ⟨14, _⟩ => ⟨S1x1x512, .f32⟩
  | .local _ .vmem, ⟨15, _⟩ => ⟨S1x1x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_v0 : Ref sig .tc := ⟨.hbm, 68, rfl⟩
abbrev main_call0_cst : Ref sig .tc := ⟨.hbm, 69, rfl⟩
abbrev main_call0_v1 : Ref sig .tc := ⟨.hbm, 70, rfl⟩
abbrev main_call0_v2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_v0 : Ref sig .tc := ⟨.hbm, 75, rfl⟩
abbrev main_call1_cst : Ref sig .tc := ⟨.hbm, 76, rfl⟩
abbrev main_call1_v1 : Ref sig .tc := ⟨.hbm, 77, rfl⟩
abbrev main_call1_v2 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  shapeCasts_S2048x32_S1x2048x32 : S2048x32.ShapeCasts S1x2048x32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2048x2048_S2048x2048_0_0 : ∀ a, (![0, 0] : Fin 2 → Nat) a + S2048x2048.size a ≤ S2048x2048.size a
  h_S2048x2048 : 0 < S2048x2048.numel
  inb_S32x2048_S32x2048_0_0 : ∀ a, (![0, 0] : Fin 2 → Nat) a + S32x2048.size a ≤ S32x2048.size a
  h_S32x2048 : 0 < S32x2048.numel
  inb_S512x32_S512x32_0_0 : ∀ a, (![0, 0] : Fin 2 → Nat) a + S512x32.size a ≤ S512x32.size a
  h_S512x32 : 0 < S512x32.numel
  transposes_S32x2048_p1_0_S2048x32 : S32x2048.Transposes [1, 0] S2048x32
  transposes_S512x32_p1_0_S32x512 : S512x32.Transposes [1, 0] S32x512
  inb_S2048x512_S2048x512_0_0 : ∀ a, (![0, 0] : Fin 2 → Nat) a + S2048x512.size a ≤ S2048x512.size a
  h_S2048x512 : 0 < S2048x512.numel
  transposes_S2048x2048_p1_0_S2048x2048 : S2048x2048.Transposes [1, 0] S2048x2048
  transposes_S2048x32_p1_0_S32x2048 : S2048x32.Transposes [1, 0] S32x2048
  reduces_S2048x2048_S2048 : S2048x2048.Reduces [0] S2048
  shapeCasts_S2048_S1x2048 : S2048.ShapeCasts S1x2048
  reduces_S2048x32_S32 : S2048x32.Reduces [0] S32
  shapeCasts_S32_S1x32 : S32.ShapeCasts S1x32
  reduces_S2048x512_S512 : S2048x512.Reduces [0] S512
  shapeCasts_S512_S1x512 : S512.ShapeCasts S1x512
  reducesTo_S2x2048x32_S2048x32_d0 : S2x2048x32.ReducesTo [0] S2048x32
  h_S_ : 0 < S_.numel
  reducesTo_S2x32x512_S32x512_d0 : S2x32x512.ReducesTo [0] S32x512
  reducesTo_S2x1x2048_S1x2048_d0 : S2x1x2048.ReducesTo [0] S1x2048
  reducesTo_S2x1x32_S1x32_d0 : S2x1x32.ReducesTo [0] S1x32
  reducesTo_S2x1x512_S1x512_d0 : S2x1x512.ReducesTo [0] S1x512
  slices_S81920x4_S65536x4_0_0 : S81920x4.Slices ![0, 0] S65536x4
  shapeCasts_S65536x4_S2048x32x4 : S65536x4.ShapeCasts S2048x32x4
  slices_S81920x4_S16384x4_65536_0 : S81920x4.Slices ![65536, 0] S16384x4
  shapeCasts_S16384x4_S32x512x4 : S16384x4.ShapeCasts S32x512x4
  shapeCasts_S1x2048_S2048x1 : S1x2048.ShapeCasts S2048x1
  shapeCasts_S1x32_S32x1 : S1x32.ShapeCasts S32x1
  slices_S2048x32x4_S2048x32x1_0_0_3 : S2048x32x4.Slices ![0, 0, 3] S2048x32x1
  shapeCasts_S2048x32x1_S2048x32 : S2048x32x1.ShapeCasts S2048x32
  bcast_S_S2048x32 : S_.BroadcastsInDim S2048x32 (![] : Fin 0 → Fin S2048x32.rank)
  slices_S2048x32x4_S2048x32x1_0_0_0 : S2048x32x4.Slices ![0, 0, 0] S2048x32x1
  slices_S2048x32x4_S2048x32x1_0_0_1 : S2048x32x4.Slices ![0, 0, 1] S2048x32x1
  bcast_S2048x1_S2048x32_0_1 : S2048x1.BroadcastsInDim S2048x32 (![0, 1] : Fin 2 → Fin S2048x32.rank)
  slices_S2048x32x4_S2048x32x1_0_0_2 : S2048x32x4.Slices ![0, 0, 2] S2048x32x1
  bcast_S1x32_S2048x32_0_1 : S1x32.BroadcastsInDim S2048x32 (![0, 1] : Fin 2 → Fin S2048x32.rank)
  slices_S32x512x4_S32x512x1_0_0_3 : S32x512x4.Slices ![0, 0, 3] S32x512x1
  shapeCasts_S32x512x1_S32x512 : S32x512x1.ShapeCasts S32x512
  bcast_S_S32x512 : S_.BroadcastsInDim S32x512 (![] : Fin 0 → Fin S32x512.rank)
  slices_S32x512x4_S32x512x1_0_0_0 : S32x512x4.Slices ![0, 0, 0] S32x512x1
  slices_S32x512x4_S32x512x1_0_0_1 : S32x512x4.Slices ![0, 0, 1] S32x512x1
  bcast_S32x1_S32x512_0_1 : S32x1.BroadcastsInDim S32x512 (![0, 1] : Fin 2 → Fin S32x512.rank)
  slices_S32x512x4_S32x512x1_0_0_2 : S32x512x4.Slices ![0, 0, 2] S32x512x1
  bcast_S1x512_S32x512_0_1 : S1x512.BroadcastsInDim S32x512 (![0, 1] : Fin 2 → Fin S32x512.rank)
  transposes_S2048x32_S32x2048_1_0 : S2048x32.Transposes [1, 0] S32x2048
  transposes_S32x512_S512x32_1_0 : S32x512.Transposes [1, 0] S512x32
  reducesTo_S32x2048_S32_d1 : S32x2048.ReducesTo [1] S32
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  reducesTo_S512x32_S512_d1 : S512x32.ReducesTo [1] S512
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  dot_S2048x2048_S2048x32_S2048x32_1_0_0_1_n_n_wf : DotDims.WF S2048x2048 S2048x32 S2048x32 [1] [0] [0] [1] [] []
  dot_S2048x32_S32x512_S2048x512_1_0_0_1_n_n_wf : DotDims.WF S2048x32 S32x512 S2048x512 [1] [0] [0] [1] [] []
  dot_S32x2048_S2048x512_S32x512_1_0_0_1_n_n_wf : DotDims.WF S32x2048 S2048x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x32.size a ≤ S2x2048x32.size a
  hwx0_4 : ∀ i : grid0.Coords, EltTy.bits .f32 = 32 ∨ (Rect.block (s := S2x2048x32) S1x2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S2x32x512.size a
  hwx0_5 : ∀ i : grid0.Coords, EltTy.bits .f32 = 32 ∨ (Rect.block (s := S2x32x512) S1x32x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S2x1x2048.size a
  hwx0_6 : ∀ i : grid0.Coords, EltTy.bits .f32 = 32 ∨ (Rect.block (s := S2x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x32.size a ≤ S2x1x32.size a
  hwx0_7 : ∀ i : grid0.Coords, EltTy.bits .f32 = 32 ∨ (Rect.block (s := S2x1x32) S1x1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S2x1x512.size a
  hwx0_8 : ∀ i : grid0.Coords, EltTy.bits .f32 = 32 ∨ (Rect.block (s := S2x1x512) S1x1x512.size (cc0_transform_8 i) (hinb0_8 i)).WholeWords (EltTy.packing .f32)

variable [Facts₀]

def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x32x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1x1x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S32x2048 : Shape := ⟨2, ![32, 2048]⟩
abbrev S512x32 : Shape := ⟨2, ![512, 32]⟩
abbrev S81920x4 : Shape := ⟨2, ![81920, 4]⟩
abbrev S2048x32 : Shape := ⟨2, ![2048, 32]⟩
abbrev S16384x32 : Shape := ⟨2, ![16384, 32]⟩
abbrev S_ : Shape := ⟨0, ![]⟩
abbrev S32x512 : Shape := ⟨2, ![32, 512]⟩
abbrev S16384x512 : Shape := ⟨2, ![16384, 512]⟩
abbrev S65536x4 : Shape := ⟨2, ![65536, 4]⟩
abbrev S2048x32x4 : Shape := ⟨3, ![2048, 32, 4]⟩
abbrev S16384x4 : Shape := ⟨2, ![16384, 4]⟩
abbrev S32x512x4 : Shape := ⟨3, ![32, 512, 4]⟩
abbrev S2048x32x1 : Shape := ⟨3, ![2048, 32, 1]⟩
abbrev S2048 : Shape := ⟨1, ![2048]⟩
abbrev S2048x1 : Shape := ⟨2, ![2048, 1]⟩
abbrev S32 : Shape := ⟨1, ![32]⟩
abbrev S1x32 : Shape := ⟨2, ![1, 32]⟩
abbrev S32x512x1 : Shape := ⟨3, ![32, 512, 1]⟩
abbrev S32x1 : Shape := ⟨2, ![32, 1]⟩
abbrev S512 : Shape := ⟨1, ![512]⟩
abbrev S1x512 : Shape := ⟨2, ![1, 512]⟩
abbrev S512x1 : Shape := ⟨2, ![512, 1]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32x2048, .f32⟩
  | .hbm, ⟨2, _⟩ => ⟨S512x32, .f32⟩
  | .hbm, ⟨3, _⟩ => ⟨S81920x4, .f32⟩
  | .hbm, ⟨4, _⟩ => ⟨S2048x32, .f32⟩
  | .hbm, ⟨5, _⟩ => ⟨S16384x32, .f32⟩
  | .hbm, ⟨6, _⟩ => ⟨S_, .f32⟩
  | .hbm, ⟨7, _⟩ => ⟨S16384x32, .f32⟩
  | .hbm, ⟨8, _⟩ => ⟨S16384x32, .f32⟩
  | .hbm, ⟨9, _⟩ => ⟨S32x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S65536x4, .f32⟩
  | .hbm, ⟨23, _⟩ => ⟨S2048x32x4, .f32⟩
  | .hbm, ⟨24, _⟩ => ⟨S16384x4, .f32⟩
  | .hbm, ⟨25, _⟩ => ⟨S32x512x4, .f32⟩
  | .hbm, ⟨26, _⟩ => ⟨S2048x32, .f32⟩
  | .hbm, ⟨27, _⟩ => ⟨S2048x32x1, .f32⟩
  | .hbm, ⟨28, _⟩ => ⟨S2048x32, .f32⟩
  | .hbm, ⟨29, _⟩ => ⟨S_, .f32⟩
  | .hbm, ⟨30, _⟩ => ⟨S2048x32, .f32⟩
  | .hbm, ⟨31, _⟩ => ⟨S2048x32, .f32⟩
  | .hbm, ⟨32, _⟩ => ⟨S2048x32x1, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32x1, .f32⟩
  | .hbm, ⟨37, _⟩ => ⟨S2048x32, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32x1, .f32⟩
  | .hbm, ⟨45, _⟩ => ⟨S2048x32, .f32⟩
  | .hbm, ⟨46, _⟩ => ⟨S_, .f32⟩
  | .hbm, ⟨47, _⟩ => ⟨S32, .f32⟩
  | .hbm, ⟨48, _⟩ => ⟨S1x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S32x512, .f32⟩
  | .hbm, ⟨53, _⟩ => ⟨S32x512x1, .f32⟩
  | .hbm, ⟨54, _⟩ => ⟨S32x512, .f32⟩
  | .hbm, ⟨55, _⟩ => ⟨S_, .f32⟩
  | .hbm, ⟨56, _⟩ => ⟨S32x512, .f32⟩
  | .hbm, ⟨57, _⟩ => ⟨S32x512, .f32⟩
  | .hbm, ⟨58, _⟩ => ⟨S32x512x1, .f32⟩
  | .hbm, ⟨59, _⟩ => ⟨S32x512, .f32⟩
  | .hbm, ⟨60, _⟩ => ⟨S32x512, .f32⟩
  | .hbm, ⟨61, _⟩ => ⟨S32x512, .f32⟩
  | .hbm, ⟨62, _⟩ => ⟨S32x512x1, .f32⟩
  | .hbm, ⟨63, _⟩ => ⟨S32x512, .f32⟩
  | .hbm, ⟨64, _⟩ => ⟨S_, .f32⟩
  | .hbm, ⟨65, _⟩ => ⟨S32, .f32⟩
  | .hbm, ⟨66, _⟩ => ⟨S32x1, .f32⟩
  | .hbm, ⟨67, _⟩ => ⟨S32x512, .f32⟩
  | .hbm, ⟨68, _⟩ => ⟨S32x512, .f32⟩
  | .hbm, ⟨69, _⟩ => ⟨S32x512, .f32⟩
  | .hbm, ⟨70, _⟩ => ⟨S32x512x1, .f32⟩
  | .hbm, ⟨71, _⟩ => ⟨S32x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S32x512, .f32⟩
  | .hbm, ⟨76, _⟩ => ⟨S32x512, .f32⟩
  | .hbm, ⟨77, _⟩ => ⟨S32x512, .f32⟩
  | .hbm, ⟨78, _⟩ => ⟨S32x2048, .f32⟩
  | .hbm, ⟨79, _⟩ => ⟨S32x2048, .f32⟩
  | .hbm, ⟨80, _⟩ => ⟨S512x32, .f32⟩
  | .hbm, ⟨81, _⟩ => ⟨S512x32, .f32⟩
  | .hbm, ⟨82, _⟩ => ⟨S32x2048, .f32⟩
  | .hbm, ⟨83, _⟩ => ⟨S_, .f32⟩
  | .hbm, ⟨84, _⟩ => ⟨S32, .f32⟩
  | .hbm, ⟨85, _⟩ => ⟨S32x1, .f32⟩
  | .hbm, ⟨86, _⟩ => ⟨S32x1, .f32⟩
  | .hbm, ⟨87, _⟩ => ⟨S32x2048, .f32⟩
  | .hbm, ⟨88, _⟩ => ⟨S32x2048, .f32⟩
  | .hbm, ⟨89, _⟩ => ⟨S512x32, .f32⟩
  | .hbm, ⟨90, _⟩ => ⟨S_, .f32⟩
  | .hbm, ⟨91, _⟩ => ⟨S512, .f32⟩
  | .hbm, ⟨92, _⟩ => ⟨S512x1, .f32⟩
  | .hbm, ⟨93, _⟩ => ⟨S512x1, .f32⟩
  | .hbm, ⟨94, _⟩ => ⟨S512x32, .f32⟩
  | .hbm, ⟨95, _⟩ => ⟨S512x32, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_call1_v2 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]

class Facts₀ : Prop where
  transposes_S32x2048_S2048x32_1_0 : S32x2048.Transposes [1, 0] S2048x32
  bcast_S_S16384x32 : S_.BroadcastsInDim S16384x32 (![] : Fin 0 → Fin S16384x32.rank)
  transposes_S512x32_S32x512_1_0 : S512x32.Transposes [1, 0] S32x512
  bcast_S_S16384x512 : S_.BroadcastsInDim S16384x512 (![] : Fin 0 → Fin S16384x512.rank)
  slices_S81920x4_S65536x4_0_0 : S81920x4.Slices ![0, 0] S65536x4
  shapeCasts_S65536x4_S2048x32x4 : S65536x4.ShapeCasts S2048x32x4
  slices_S81920x4_S16384x4_65536_0 : S81920x4.Slices ![65536, 0] S16384x4
  shapeCasts_S16384x4_S32x512x4 : S16384x4.ShapeCasts S32x512x4
  slices_S2048x32x4_S2048x32x1_0_0_3 : S2048x32x4.Slices ![0, 0, 3] S2048x32x1
  shapeCasts_S2048x32x1_S2048x32 : S2048x32x1.ShapeCasts S2048x32
  bcast_S_S2048x32 : S_.BroadcastsInDim S2048x32 (![] : Fin 0 → Fin S2048x32.rank)
  slices_S2048x32x4_S2048x32x1_0_0_0 : S2048x32x4.Slices ![0, 0, 0] S2048x32x1
  slices_S2048x32x4_S2048x32x1_0_0_1 : S2048x32x4.Slices ![0, 0, 1] S2048x32x1
  reducesTo_S16384x2048_S2048_d0 : S16384x2048.ReducesTo [0] S2048
  h_S_ : 0 < S_.numel
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  slices_S2048x32x4_S2048x32x1_0_0_2 : S2048x32x4.Slices ![0, 0, 2] S2048x32x1
  reducesTo_S16384x32_S32_d0 : S16384x32.ReducesTo [0] S32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  slices_S32x512x4_S32x512x1_0_0_3 : S32x512x4.Slices ![0, 0, 3] S32x512x1
  shapeCasts_S32x512x1_S32x512 : S32x512x1.ShapeCasts S32x512
  bcast_S_S32x512 : S_.BroadcastsInDim S32x512 (![] : Fin 0 → Fin S32x512.rank)
  slices_S32x512x4_S32x512x1_0_0_0 : S32x512x4.Slices ![0, 0, 0] S32x512x1
  slices_S32x512x4_S32x512x1_0_0_1 : S32x512x4.Slices ![0, 0, 1] S32x512x1
  bcast_S32_S32x1_0 : S32.BroadcastsInDim S32x1 (![0] : Fin 1 → Fin S32x1.rank)
  bcast_S32x1_S32x512_0_1 : S32x1.BroadcastsInDim S32x512 (![0, 1] : Fin 2 → Fin S32x512.rank)
  slices_S32x512x4_S32x512x1_0_0_2 : S32x512x4.Slices ![0, 0, 2] S32x512x1
  reducesTo_S16384x512_S512_d0 : S16384x512.ReducesTo [0] S512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  transposes_S2048x32_S32x2048_1_0 : S2048x32.Transposes [1, 0] S32x2048
  transposes_S32x512_S512x32_1_0 : S32x512.Transposes [1, 0] S512x32
  reducesTo_S32x2048_S32_d1 : S32x2048.ReducesTo [1] S32
  bcast_S32x1_S32x2048_0_1 : S32x1.BroadcastsInDim S32x2048 (![0, 1] : Fin 2 → Fin S32x2048.rank)
  reducesTo_S512x32_S512_d1 : S512x32.ReducesTo [1] S512
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  dot_S16384x2048_S2048x32_S16384x32_1_0_0_1_n_n_wf : DotDims.WF S16384x2048 S2048x32 S16384x32 [1] [0] [0] [1] [] []
  dot_S16384x32_S32x512_S16384x512_1_0_0_1_n_n_wf : DotDims.WF S16384x32 S32x512 S16384x512 [1] [0] [0] [1] [] []
  dot_S16384x2048_S16384x32_S2048x32_0_0_1_1_n_n_wf : DotDims.WF S16384x2048 S16384x32 S2048x32 [0] [0] [1] [1] [] []
  dot_S16384x32_S16384x512_S32x512_0_0_1_1_n_n_wf : DotDims.WF S16384x32 S16384x512 S32x512 [0] [0] [1] [1] [] []

variable [Facts₀]

def dot_S16384x2048_S2048x32_S16384x32_1_0_0_1_n_n : DotDims S16384x2048 S2048x32 S16384x32 where
  lhsContracting := [1]
  rhsContracting := [0]
  lhsNonContracting := [0]
  rhsNonContracting := [1]
  lhsBatch := []
  rhsBatch := []
  wf := dot_S16384x2048_S2048x32_S16384x32_1_0_0_1_n_n_wf
def dot_S16384x32_S32x512_S16384x512_1_0_0_1_n_n : DotDims S16384x32 S32x512 S16384x512 where
  lhsContracting := [1]
  rhsContracting := [0]
  lhsNonContracting := [0]
  rhsNonContracting := [1]
  lhsBatch := []
  rhsBatch := []
  wf := dot_S16384x32_S32x512_S16384x512_1_0_0_1_n_n_wf
def dot_S16384x2048_S16384x32_S2048x32_0_0_1_1_n_n : DotDims S16384x2048 S16384x32 S2048x32 where
  lhsContracting := [0]
  rhsContracting := [0]
  lhsNonContracting := [1]
  rhsNonContracting := [1]
  lhsBatch := []
  rhsBatch := []
  wf := dot_S16384x2048_S16384x32_S2048x32_0_0_1_1_n_n_wf
def dot_S16384x32_S16384x512_S32x512_0_0_1_1_n_n : DotDims S16384x32 S16384x512 S32x512 where
  lhsContracting := [0]
  rhsContracting := [0]
  lhsNonContracting := [1]
  rhsNonContracting := [1]
  lhsBatch := []
  rhsBatch := []
  wf := dot_S16384x32_S16384x512_S32x512_0_0_1_1_n_n_wf

class Facts : Prop extends Facts₀ where

variable [Facts]
-- ==== Proof.KI.Kit.lean ====
/-
  The launch side of the Hebbian kernel's run, shared by the two control cases of its body.

  @main is one pipelined region (grid 2 × 4: core c, tile j; point t = 4c + j) followed by host lines that combine
  the per-core partial statistics. Here: the buffer contents as the region finds them, the region followed by the
  later lines, what those lines may touch (they allocate nothing and write none of the region's nine arrays), each
  window's block at a point, the condition "first tile of a core" (t % 4 = 0) under which the body resets its
  accumulators, and the staging buffers the body is called with.
-/
import proofs.«180996_j60825326846529_2_alg».proof.Proof.Gen.KernelIdeal.Launch
import proofs.«180996_j60825326846529_2_alg».proof.Proof.Gen.KernelIdeal.Skeleton
import proofs.«180996_j60825326846529_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 8000000 in
/-- No line of this stretch writes one of the region's arrays: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_fresh : (hostOps1_1 : List (HloOp τ sig (Elt F))).Forall fun op => op.fresh = ∅ := by
  simp only [List.Forall]; repeat' constructor

/-- No line of this stretch writes one of the region's arrays: each writes its own result buffer only. -/
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_fresh : (hostOps1_2 : List (HloOp τ sig (Elt F))).Forall fun op => op.fresh = ∅ := by
  simp only [List.Forall]; repeat' constructor

/-- No line of this stretch writes one of the region's arrays: each writes its own result buffer only. -/
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_fresh : (hostOps1_3 : List (HloOp τ sig (Elt F))).Forall fun op => op.fresh = ∅ := by
  simp only [List.Forall]; repeat' constructor

/-- No line of this stretch writes one of the region's arrays: each writes its own result buffer only. -/
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_fresh : (hostOps1_4 : List (HloOp τ sig (Elt F))).Forall fun op => op.fresh = ∅ := by
  simp only [List.Forall]; repeat' constructor

/-- No line of this stretch writes one of the region's arrays: each writes its own result buffer only. -/
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the region's arrays and the buffers that bypass it only. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the region. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the tile coordinate is zero. -/
abbrev cond0_0 (i : grid0.Coords) : Prop := (Scalar.cmpi .ne (Scalar.extui (Scalar.cmpi .eq (BitVec.ofNat 32 (i 1).val) 0#32)) 0#32) = 1#1
/-- It holds at the first tile of each core — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers the body is called with -/

/-- One staging buffer of output window 3, through which its contents are stated. -/
abbrev VO0_3 : View sig .tc .vmem S2048x512 .f32 := (Memref.whole cc0_stg3_0 : Memref sig .tc .vmem S2048x512 .f32).view
/-- One staging buffer of output window 4, through which its contents are stated. -/
abbrev VO0_4 : View sig .tc .vmem S1x2048x32 .f32 := (Memref.whole cc0_stg4_0 : Memref sig .tc .vmem S1x2048x32 .f32).view
/-- One staging buffer of output window 5, through which its contents are stated. -/
abbrev VO0_5 : View sig .tc .vmem S1x32x512 .f32 := (Memref.whole cc0_stg5_0 : Memref sig .tc .vmem S1x32x512 .f32).view
/-- One staging buffer of output window 6, through which its contents are stated. -/
abbrev VO0_6 : View sig .tc .vmem S1x1x2048 .f32 := (Memref.whole cc0_stg6_0 : Memref sig .tc .vmem S1x1x2048 .f32).view
/-- One staging buffer of output window 7, through which its contents are stated. -/
abbrev VO0_7 : View sig .tc .vmem S1x1x32 .f32 := (Memref.whole cc0_stg7_0 : Memref sig .tc .vmem S1x1x32 .f32).view
/-- One staging buffer of output window 8, through which its contents are stated. -/
abbrev VO0_8 : View sig .tc .vmem S1x1x512 .f32 := (Memref.whole cc0_stg8_0 : Memref sig .tc .vmem S1x1x512 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)

end Cert.KernelIdeal.Fr

end
-- ==== Proof.KI.RunA.lean ====
/-
  The body of the Hebbian kernel run once, whole, in the case "first tile of a core: the accumulators are reset before they are added to":
  on whole staging buffers holding the three input blocks, the body runs to its end
  without a fault, leaves the inputs as they were and each of the six output buffers with a list of stored pieces
  written into it. The lists are found by running the body symbolically; they are this definition's witness.
-/
import proofs.«180996_j60825326846529_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    Σ' (L3 : List (View.Piece (Elt F) S2048x512 .f32)) (L4 : List (View.Piece (Elt F) S1x2048x32 .f32)) (L5 : List (View.Piece (Elt F) S1x32x512 .f32)) (L6 : List (View.Piece (Elt F) S1x1x2048 .f32)) (L7 : List (View.Piece (Elt F) S1x1x32 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__hebbian_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__hebbian_kernel_eq_skeleton]; unfold cc0__hebbian_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.KernelIdeal.Fr

end
-- ==== Proof.KI.RunB.lean ====
/-
  The body of the Hebbian kernel run once, whole, in the case "a later tile of a core: the accumulators hold what the tile before left":
  on whole staging buffers holding the three input blocks and the five accumulators' running contents, the body runs to its end
  without a fault, leaves the inputs as they were and each of the six output buffers with a list of stored pieces
  written into it. The lists are found by running the body symbolically; they are this definition's witness.
-/
import proofs.«180996_j60825326846529_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    Σ' (L3 : List (View.Piece (Elt F) S2048x512 .f32)) (L4 : List (View.Piece (Elt F) S1x2048x32 .f32)) (L5 : List (View.Piece (Elt F) S1x32x512 .f32)) (L6 : List (View.Piece (Elt F) S1x1x2048 .f32)) (L7 : List (View.Piece (Elt F) S1x1x32 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__hebbian_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__hebbian_kernel_eq_skeleton]; unfold cc0__hebbian_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.KernelIdeal.Fr

end
-- ==== Proof.KI.Outs.lean ====
/-
  The Hebbian kernel's region, point by point.

  A point t = 4c + j runs the body on tile j of core c. Every output buffer is stored whole by the body, so what
  each holds after the point is the read-back of the stored pieces. At the first tile of a core (t % 4 = 0) the
  accumulators are reset before they are added to; at a later tile they start from what the tile before left: the
  five accumulators are written back only after a core's last tile (t % 4 = 3), so between tiles of one core their
  staging buffers keep their contents. `outsAt0` is this recursion; the region's proof data state the inputs'
  buffers at their blocks and the outputs' at `outsAt0`; the body obligation is the case's run at each point; the
  run of @main is the region followed by the later host lines, and the four argument arrays end as launched.
-/
import proofs.«180996_j60825326846529_2_alg».proof.Proof.KI.RunA
import proofs.«180996_j60825326846529_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stored pieces for output window 3 tile its block, so they cover it. -/
theorem cover0_A_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S2048x512.Idx) :
    ∃ pc ∈ (kernelRun0_A c i arg2 harg2 arg3 harg3 arg4 harg4 arg5 harg5 arg6 harg6 arg7 harg7 arg8 harg8 arg9 harg9 arg10 harg10 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 x0 x1 x2).1 S2048x512.size (by sl_kernel_rfl) y

/-- What case A leaves in output window 3's staging buffer: its pieces read back. -/
def out0_A_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S2048x512 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 x0 x1 x2).1)

/-- Case A's stored pieces for output window 4 tile its block, so they cover it. -/
theorem cover0_A_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x2048x32.Idx) :
    ∃ pc ∈ (kernelRun0_A c i arg2 harg2 arg3 harg3 arg4 harg4 arg5 harg5 arg6 harg6 arg7 harg7 arg8 harg8 arg9 harg9 arg10 harg10 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.1 S1x2048x32.size (by sl_kernel_rfl) y

/-- What case A leaves in output window 4's staging buffer: its pieces read back. -/
def out0_A_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x2048x32 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 x0 x1 x2).2.1)

/-- Case A's stored pieces for output window 5 tile its block, so they cover it. -/
theorem cover0_A_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x32x512.Idx) :
    ∃ pc ∈ (kernelRun0_A c i arg2 harg2 arg3 harg3 arg4 harg4 arg5 harg5 arg6 harg6 arg7 harg7 arg8 harg8 arg9 harg9 arg10 harg10 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.1 S1x32x512.size (by sl_kernel_rfl) y

/-- What case A leaves in output window 5's staging buffer: its pieces read back. -/
def out0_A_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x32x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 x0 x1 x2).2.2.1)

/-- Case A's stored pieces for output window 6 tile its block, so they cover it. -/
theorem cover0_A_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x2048.Idx) :
    ∃ pc ∈ (kernelRun0_A c i arg2 harg2 arg3 harg3 arg4 harg4 arg5 harg5 arg6 harg6 arg7 harg7 arg8 harg8 arg9 harg9 arg10 harg10 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.1 S1x1x2048.size (by sl_kernel_rfl) y

/-- What case A leaves in output window 6's staging buffer: its pieces read back. -/
def out0_A_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2).2.2.2.1)

/-- Case A's stored pieces for output window 7 tile its block, so they cover it. -/
theorem cover0_A_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x32.Idx) :
    ∃ pc ∈ (kernelRun0_A c i arg2 harg2 arg3 harg3 arg4 harg4 arg5 harg5 arg6 harg6 arg7 harg7 arg8 harg8 arg9 harg9 arg10 harg10 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.2.1 S1x1x32.size (by sl_kernel_rfl) y

/-- What case A leaves in output window 7's staging buffer: its pieces read back. -/
def out0_A_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x32 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2).2.2.2.2.1)

/-- Case A's stored pieces for output window 8 tile its block, so they cover it. -/
theorem cover0_A_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x512.Idx) :
    ∃ pc ∈ (kernelRun0_A c i arg2 harg2 arg3 harg3 arg4 harg4 arg5 harg5 arg6 harg6 arg7 harg7 arg8 harg8 arg9 harg9 arg10 harg10 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.2.2.1 S1x1x512.size (by sl_kernel_rfl) y

/-- What case A leaves in output window 8's staging buffer: its pieces read back. -/
def out0_A_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2).2.2.2.2.2.1)

/-- Case B's stored pieces for output window 3 tile its block, so they cover it. -/
theorem cover0_B_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S2048x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).1 S2048x512.size (by sl_kernel_rfl) y

/-- What case B leaves in output window 3's staging buffer: its pieces read back. -/
def out0_B_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S2048x512 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 x0 x1 x2 xo4 xo5 xo6 xo7 xo8).1)

/-- Case B's stored pieces for output window 4 tile its block, so they cover it. -/
theorem cover0_B_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x2048x32.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.1 S1x2048x32.size (by sl_kernel_rfl) y

/-- What case B leaves in output window 4's staging buffer: its pieces read back. -/
def out0_B_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x2048x32 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 x0 x1 x2 xo4 xo5 xo6 xo7 xo8).2.1)

/-- Case B's stored pieces for output window 5 tile its block, so they cover it. -/
theorem cover0_B_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x32x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.1 S1x32x512.size (by sl_kernel_rfl) y

/-- What case B leaves in output window 5's staging buffer: its pieces read back. -/
def out0_B_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x32x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 x0 x1 x2 xo4 xo5 xo6 xo7 xo8).2.2.1)

/-- Case B's stored pieces for output window 6 tile its block, so they cover it. -/
theorem cover0_B_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x2048.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.1 S1x1x2048.size (by sl_kernel_rfl) y

/-- What case B leaves in output window 6's staging buffer: its pieces read back. -/
def out0_B_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.1)

/-- Case B's stored pieces for output window 7 tile its block, so they cover it. -/
theorem cover0_B_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x32.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1 S1x1x32.size (by sl_kernel_rfl) y

/-- What case B leaves in output window 7's staging buffer: its pieces read back. -/
def out0_B_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x32 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1)

/-- Case B's stored pieces for output window 8 tile its block, so they cover it. -/
theorem cover0_B_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1 S1x1x512.size (by sl_kernel_rfl) y

/-- What case B leaves in output window 8's staging buffer: its pieces read back. -/
def out0_B_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1)

/-! ## What the outputs hold after each point -/

/-- The accumulation: the six output buffers after the body at position `n`. -/
def outsAt0 (c : Dev nD) : (n : ℕ) → n < cfg0.N → Vec F S2048x512 .f32 × Vec F S1x2048x32 .f32 × Vec F S1x32x512 .f32 × Vec F S1x1x2048 .f32 × Vec F S1x1x32 .f32 × Vec F S1x1x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a first tile: that case's contents. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a later tile: that case's contents, over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` each input's buffer at its block
    and the outputs' at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
    | ⟨7, _⟩ => (outsAt0 m c t.val t.isLt).2.2.2.2.1
    | ⟨8, _⟩ => (outsAt0 m c t.val t.isLt).2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]
theorem after0_7 (c : Dev nD) (t : Fin cfg0.N) : (dats m 0 c).after 7 t = (outsAt0 m c t.val t.isLt).2.2.2.2.1 := by dsimp only [dats]
theorem after0_8 (c : Dev nD) (t : Fin cfg0.N) : (dats m 0 c).after 8 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile accumulator window 4's buffer holds what the body left at the point before: it was not written back between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile accumulator window 5's buffer holds what the body left at the point before: it was not written back between. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later tile accumulator window 6's buffer holds what the body left at the point before: it was not written back between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]
/-- At a later tile accumulator window 7's buffer holds what the body left at the point before: it was not written back between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]
/-- At a later tile accumulator window 8's buffer holds what the body left at the point before: it was not written back between. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.2.2 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

end Cert.KernelIdeal.Fr

end
-- ==== Proof.KI.BodyDefs.lean ====
/-
  What the body of the Hebbian kernel is called with at a point, and what it returns: the region invariant, what
  the core owes, and each of the nine windows' current staging buffers at the proof data's contents before and
  after the point.
-/
import proofs.«180996_j60825326846529_2_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

end Cert.KernelIdeal.Fr

end
-- ==== Proof.KI.BodyA.lean ====
/-
  The body obligation at a core's first tile: the reset case's run applies from any accumulator contents, and each
  output buffer ends at the read-back of the pieces that run stored.
-/
import proofs.«180996_j60825326846529_2_alg».proof.Proof.KI.BodyDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 8 := lt_of_lt_of_eq t.isLt (show cfg0.N = 8 from N_0)
  rw [outsAt0_A m c t h0]
  dsimp only
  unfold out0_A_3 out0_A_4 out0_A_5 out0_A_6 out0_A_7 out0_A_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ ((hcond0_0 t).mpr h0) (iblk m c 0 t) (iblk m c 1 t) (iblk m c 2 t)).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H5]
  · unfold owns; iexists _; isplitr
    swap; · iexact H5
    ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H6]
  · unfold owns; iexists _; isplitr
    swap; · iexact H6
    ipureintro; exact View.read_writes_of_cover _ _ _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H7]
  · unfold owns; iexists _; isplitr
    swap; · iexact H7
    ipureintro; exact View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  unfold owns; iexists _; isplitr
  swap; · iexact H8
  ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))

end Cert.KernelIdeal.Fr

end
-- ==== Proof.KI.BodyB.lean ====
/-
  The body obligation at a later tile of a core: the accumulators' buffers hold what the tile before left (they were
  not written back between), the accumulating case's run applies, and each output buffer ends at the read-back of
  the pieces that run stored.
-/
import proofs.«180996_j60825326846529_2_alg».proof.Proof.KI.BodyDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body_B (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 8 := lt_of_lt_of_eq t.isLt (show cfg0.N = 8 from N_0)
  rw [outsAt0_B m c t h0]
  dsimp only
  simp only [before0_4_B m c t h0, before0_5_B m c t h0, before0_6_B m c t h0, before0_7_B m c t h0, before0_8_B m c t h0]
  unfold out0_B_3 out0_B_4 out0_B_5 out0_B_6 out0_B_7 out0_B_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ (fun h => h0 ((hcond0_0 t).mp h)) (iblk m c 0 t) (iblk m c 1 t) (iblk m c 2 t) _ _ _ _ _).2.2.2.2.2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H4]
  · unfold owns; iexists _; isplitr
    swap; · iexact H4
    ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H5]
  · unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H6]
  · unfold owns; iexists _; isplitr
    swap; · iexact H6
    ipureintro; exact View.read_writes_of_cover _ _ _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H7]
  · unfold owns; iexists _; isplitr
    swap; · iexact H7
    ipureintro; exact View.read_writes_of_cover _ _ _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  unfold owns; iexists _; isplitr
  swap; · iexact H8
  ipureintro; exact View.read_writes_of_cover _ _ _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

end Cert.KernelIdeal.Fr

end
-- ==== Proof.KI.Body.lean ====
/-
  The body obligation of the Hebbian kernel's region, at every point: the first-tile case or the later-tile case.
-/
import proofs.«180996_j60825326846529_2_alg».proof.Proof.KI.BodyA
import proofs.«180996_j60825326846529_2_alg».proof.Proof.KI.BodyB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_body_A m c t h0
  · exact sound_body_B m c t h0

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Frame.lean ====
/-
  The run of @main and the frame claim: the region, with the body obligation discharged, followed by the later
  host lines; every array of the region ends at what the proof data give, every other buffer as the later lines
  leave it, and the four argument arrays end as launched.
-/
import proofs.«180996_j60825326846529_2_alg».proof.Proof.KI.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- No later host line writes the coefficient array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 8000000 in
set_option backward.isDefEq.respectTransparency.types false in
/-- From any memory with zero counters every weakly fair execution of @main terminates, every array of the region
    ends at what the proof data give and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The frame: @main runs to the end and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c))),
     ((h c).2 main_arg3 (Pipeline.mem_restRefs_of main_arg3 (by decide) (by decide))).trans (W_main_arg3 m (dats m) c)⟩) (run_main m ρ)

end Cert.KernelIdeal.Fr

end
-- ==== Proof.KI.Pieces.lean ====
/-
  What each case of the body leaves in each output buffer, as a function of the blocks it loaded.

  Every output buffer is stored whole, last, with one payload of the skeleton: the out tile is the payload of the
  forward pass on the three input blocks, and each accumulator's payload adds the tile's statistic to what the
  accumulator held — the zero block at a core's first tile (stored just before and read back), the contents the
  tile before left at a later one.
-/
import proofs.«180996_j60825326846529_2_alg».proof.Proof.KI.Outs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem out0_A_3_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_3 c i arg2 harg2 arg3 harg3 arg4 harg4 arg5 harg5 arg6 harg6 arg7 harg7 arg8 harg8 arg9 harg9 arg10 harg10 hc0 x0 x1 x2 = k0_pay11 x0 x1 x2 := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz2]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_A_4_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_4 c i arg2 harg2 arg3 harg3 arg4 harg4 arg5 harg5 arg6 harg6 arg7 harg7 arg8 harg8 arg9 harg9 arg10 harg10 hc0 x0 x1 x2 = k0_pay12 x0 x1 (k0_pay5 (F := F)) := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_A_5_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_5 c i arg2 harg2 arg3 harg3 arg4 harg4 arg5 harg5 arg6 harg6 arg7 harg7 arg8 harg8 arg9 harg9 arg10 harg10 hc0 x0 x1 x2 = k0_pay1 (k0_pay13 x0 x1 x2 (k0_pay6 (F := F))) := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_A_6_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_6 c i arg2 harg2 arg3 harg3 arg4 harg4 arg5 harg5 arg6 harg6 arg7 harg7 arg8 harg8 arg9 harg9 arg10 harg10 hc0 x0 x1 x2 = k0_pay2 x0 (k0_pay7 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_A_7_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_7 c i arg2 harg2 arg3 harg3 arg4 harg4 arg5 harg5 arg6 harg6 arg7 harg7 arg8 harg8 arg9 harg9 arg10 harg10 hc0 x0 x1 x2 = k0_pay3 (k0_pay10 x0 x1) (k0_pay8 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_A_8_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    out0_A_8 c i arg2 harg2 arg3 harg3 arg4 harg4 arg5 harg5 arg6 harg6 arg7 harg7 arg8 harg8 arg9 harg9 arg10 harg10 hc0 x0 x1 x2 = k0_pay4 (k0_pay11 x0 x1 x2) (k0_pay9 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_3_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_3 c i arg2 harg2 arg3 harg3 arg4 harg4 arg5 harg5 arg6 harg6 arg7 harg7 arg8 harg8 arg9 harg9 arg10 harg10 hc0 x0 x1 x2 xo4 xo5 xo6 xo7 xo8 = k0_pay11 x0 x1 x2 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz2]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_4_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_4 c i arg2 harg2 arg3 harg3 arg4 harg4 arg5 harg5 arg6 harg6 arg7 harg7 arg8 harg8 arg9 harg9 arg10 harg10 hc0 x0 x1 x2 xo4 xo5 xo6 xo7 xo8 = k0_pay12 x0 x1 xo4 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_5_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_5 c i arg2 harg2 arg3 harg3 arg4 harg4 arg5 harg5 arg6 harg6 arg7 harg7 arg8 harg8 arg9 harg9 arg10 harg10 hc0 x0 x1 x2 xo4 xo5 xo6 xo7 xo8 = k0_pay1 (k0_pay13 x0 x1 x2 xo5) := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_6_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_6 c i arg2 harg2 arg3 harg3 arg4 harg4 arg5 harg5 arg6 harg6 arg7 harg7 arg8 harg8 arg9 harg9 arg10 harg10 hc0 x0 x1 x2 xo4 xo5 xo6 xo7 xo8 = k0_pay2 x0 xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_7_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_7 c i arg2 harg2 arg3 harg3 arg4 harg4 arg5 harg5 arg6 harg6 arg7 harg7 arg8 harg8 arg9 harg9 arg10 harg10 hc0 x0 x1 x2 xo4 xo5 xo6 xo7 xo8 = k0_pay3 (k0_pay10 x0 x1) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

theorem out0_B_8_eq (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    out0_B_8 c i arg2 harg2 arg3 harg3 arg4 harg4 arg5 harg5 arg6 harg6 arg7 harg7 arg8 harg8 arg9 harg9 arg10 harg10 hc0 x0 x1 x2 xo4 xo5 xo6 xo7 xo8 = k0_pay4 (k0_pay11 x0 x1 x2) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 xo4 xo5 xo6 xo7 xo8)]
  unfold kernelRun0_B
  dsimp only
  sl_unfold_words
  rw [View.canon_cons_unit_zero hz3]
  simp only [View.readAt_eq_ld, harg2.read_unread, harg3.read_unread, harg4.read_unread, harg6.read_unread, harg7.read_unread,
    harg8.read_unread, harg9.read_unread, harg10.read_unread, View.readCov_unit_zero (S := S1x2048x32) _ hz3, View.readCov_unit_zero (S := S1x32x512) _ hz3, View.readCov_unit_zero (S := S1x1x2048) _ hz3, View.readCov_unit_zero (S := S1x1x32) _ hz3, View.readCov_unit_zero (S := S1x1x512) _ hz3,
    View.ld_unit_zero (S := S2048x2048) hz2, View.ld_unit_zero (S := S32x2048) hz2, View.ld_unit_zero (S := S512x32) hz2,
    View.ld_unit_zero (S := S1x2048x32) hz3, View.ld_unit_zero (S := S1x32x512) hz3, View.ld_unit_zero (S := S1x1x2048) hz3,
    View.ld_unit_zero (S := S1x1x32) hz3, View.ld_unit_zero (S := S1x1x512) hz3]
  try rfl

end Cert.KernelIdeal.Fr

end
-- ==== Proof.KI.Blocks.lean ====
/-
  The input windows' blocks read off their arrays.

  The batch window's block at grid point t is rows 2048·t … 2048·t + 2047 of the batch, all 2048 columns: the printed
  index map sends point t = 4·core + tile to block row t and block column 0, decided over the eight points. The two
  weight windows hold their whole arrays at every point.
-/
import proofs.«180996_j60825326846529_2_alg».proof.Proof.KI.Kit
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- A grid point is one of eight. -/
theorem pt_lt (t : Fin cfg0.N) : t.val < 8 := Nat.lt_of_lt_of_eq t.isLt N_0

/-- The batch window's index map over the grid: block row t, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The weight windows' index maps over the grid: block (0, 0). -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The batch window's block at point t, at row r and column k, is the batch at row 2048·t + r, column k. -/
theorem iblk0_apply (c : Dev nD) (t : Fin cfg0.N) (r : Fin 2048) (k : Fin 2048) :
    iblk m c 0 t (ix2 r k)
      = V m c main_arg0 (ix2 (⟨t.val * 2048 + r.val, by have := pt_lt t; have := r.isLt; omega⟩ : Fin 16384) k) := by
  obtain ⟨e0, e1⟩ := idx0 t
  unfold iblk
  show V m c main_arg0 (((cfg0.win 0).blk t).view.emb (ix2 r k)) = _
  refine congrArg (V m c main_arg0) ?_
  funext a; apply Fin.ext
  match a with
  | ⟨0, _⟩ => show win0_0.index t (0 : Fin 2) * 2048 + 1 * r.val = t.val * 2048 + r.val; omega
  | ⟨1, _⟩ => show win0_0.index t (1 : Fin 2) * 2048 + 1 * k.val = k.val; omega

/-- The first weight window's block is the whole first weight matrix at every point. -/
theorem iblk1_eq (c : Dev nD) (t : Fin cfg0.N) :
    (iblk m c 1 t : S32x2048.Idx → Elt F .f32) = V m c main_arg1 := by
  obtain ⟨e0, e1⟩ := idx1 t
  funext j
  unfold iblk
  show V m c main_arg1 (((cfg0.win 1).blk t).view.emb j) = V m c main_arg1 j
  refine congrArg (V m c main_arg1) ?_
  funext a; apply Fin.ext
  match a with
  | ⟨0, _⟩ => show win0_1.index t (0 : Fin 2) * 32 + 1 * (j 0).val = (j 0).val; omega
  | ⟨1, _⟩ => show win0_1.index t (1 : Fin 2) * 2048 + 1 * (j 1).val = (j 1).val; omega

/-- The second weight window's block is the whole second weight matrix at every point. -/
theorem iblk2_eq (c : Dev nD) (t : Fin cfg0.N) :
    (iblk m c 2 t : S512x32.Idx → Elt F .f32) = V m c main_arg2 := by
  obtain ⟨e0, e1⟩ := idx2 t
  funext j
  unfold iblk
  show V m c main_arg2 (((cfg0.win 2).blk t).view.emb j) = V m c main_arg2 j
  refine congrArg (V m c main_arg2) ?_
  funext a; apply Fin.ext
  match a with
  | ⟨0, _⟩ => show win0_2.index t (0 : Fin 2) * 512 + 1 * (j 0).val = (j 0).val; omega
  | ⟨1, _⟩ => show win0_2.index t (1 : Fin 2) * 32 + 1 * (j 1).val = (j 1).val; omega

end Cert.KernelIdeal.Fr

end
-- ==== Proof.PayDots.lean ====
/-
  The three matrix products of the layer's body, each read at one entry.

  At the extended reals a product accumulated into the zero matrix has, at entry (i, j), the value
  Σ_k l(i,k)·r(k,j): the contraction runs over the one shared axis, so the sum over the contraction
  shape's indices is re-indexed by that axis's coordinate k, and the two operand indices at (i, j) and k
  are (i, k) and (k, j).
-/
import proofs.«180996_j60825326846529_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

theorem dot_rows_l0 (i : S2048x32.Idx) (q : dot_S2048x2048_S2048x32_S2048x32_1_0_0_1_n_n.contr.Idx) : (dot_S2048x2048_S2048x32_S2048x32_1_0_0_1_n_n.lhsIdx i q 0).val = (i 0).val := by
  unfold DotDims.lhsIdx
  rw [dif_neg (show ¬(0 : Fin S2048x2048.rank) ∈ dot_S2048x2048_S2048x32_S2048x32_1_0_0_1_n_n.lhsBatch by decide),
    dif_pos (show (0 : Fin S2048x2048.rank) ∈ dot_S2048x2048_S2048x32_S2048x32_1_0_0_1_n_n.lhsNonContracting by decide)]
  rfl
theorem dot_rows_l1 (i : S2048x32.Idx) (q : dot_S2048x2048_S2048x32_S2048x32_1_0_0_1_n_n.contr.Idx) : (dot_S2048x2048_S2048x32_S2048x32_1_0_0_1_n_n.lhsIdx i q 1).val = (q ⟨0, by decide⟩).val :=
  dot_S2048x2048_S2048x32_S2048x32_1_0_0_1_n_n.lhsIdx_val_of_single rfl i q
theorem dot_rows_r0 (i : S2048x32.Idx) (q : dot_S2048x2048_S2048x32_S2048x32_1_0_0_1_n_n.contr.Idx) : (dot_S2048x2048_S2048x32_S2048x32_1_0_0_1_n_n.rhsIdx i q 0).val = (q ⟨0, by decide⟩).val :=
  dot_S2048x2048_S2048x32_S2048x32_1_0_0_1_n_n.rhsIdx_val_of_single rfl i q
theorem dot_rows_r1 (i : S2048x32.Idx) (q : dot_S2048x2048_S2048x32_S2048x32_1_0_0_1_n_n.contr.Idx) : (dot_S2048x2048_S2048x32_S2048x32_1_0_0_1_n_n.rhsIdx i q 1).val = (i 1).val := by
  unfold DotDims.rhsIdx
  rw [dif_neg (show ¬(1 : Fin S2048x32.rank) ∈ dot_S2048x2048_S2048x32_S2048x32_1_0_0_1_n_n.rhsBatch by decide),
    dif_pos (show (1 : Fin S2048x32.rank) ∈ dot_S2048x2048_S2048x32_S2048x32_1_0_0_1_n_n.rhsNonContracting by decide)]
  rfl

/-- The matrix product (2048×2048)·(2048×32) accumulated into zero: entry (i, j) is Σ_k l(i,k)·r(k,j). -/
theorem dot_rows_apply (l : FVec Ideal S2048x2048 .f32) (r : FVec Ideal S2048x32 .f32) (i : Fin 2048) (j : Fin 32) :
    matmul dot_S2048x2048_S2048x32_S2048x32_1_0_0_1_n_n (some .fp32) l r (constant S2048x32 .f32 0x00000000#32) (ix2 i j)
      = ∑ k : Fin 2048, l (ix2 i k) * r (ix2 k j) := by
  refine (Ideal.matmul_constant_zero_apply dot_S2048x2048_S2048x32_S2048x32_1_0_0_1_n_n (some .fp32) l r (ix2 i j)).trans ?_
  rw [← Equiv.sum_comp (contrEquiv1 dot_S2048x2048_S2048x32_S2048x32_1_0_0_1_n_n 2048 rfl rfl).symm]
  refine Finset.sum_congr rfl fun k _ => ?_
  have hk := contrEquiv1_symm_val dot_S2048x2048_S2048x32_S2048x32_1_0_0_1_n_n 2048 rfl rfl k
  have el : dot_S2048x2048_S2048x32_S2048x32_1_0_0_1_n_n.lhsIdx (ix2 i j) ((contrEquiv1 dot_S2048x2048_S2048x32_S2048x32_1_0_0_1_n_n 2048 rfl rfl).symm k) = ix2 i k :=
    funext fun a => Fin.ext (by
      match a with
      | ⟨0, _⟩ => exact dot_rows_l0 _ _
      | ⟨1, _⟩ => exact (dot_rows_l1 _ _).trans hk)
  have er : dot_S2048x2048_S2048x32_S2048x32_1_0_0_1_n_n.rhsIdx (ix2 i j) ((contrEquiv1 dot_S2048x2048_S2048x32_S2048x32_1_0_0_1_n_n 2048 rfl rfl).symm k) = ix2 k j :=
    funext fun a => Fin.ext (by
      match a with
      | ⟨0, _⟩ => exact (dot_rows_r0 _ _).trans hk
      | ⟨1, _⟩ => exact dot_rows_r1 _ _)
  rw [el, er]

theorem dot_hidden_l0 (i : S2048x512.Idx) (q : dot_S2048x32_S32x512_S2048x512_1_0_0_1_n_n.contr.Idx) : (dot_S2048x32_S32x512_S2048x512_1_0_0_1_n_n.lhsIdx i q 0).val = (i 0).val := by
  unfold DotDims.lhsIdx
  rw [dif_neg (show ¬(0 : Fin S2048x32.rank) ∈ dot_S2048x32_S32x512_S2048x512_1_0_0_1_n_n.lhsBatch by decide),
    dif_pos (show (0 : Fin S2048x32.rank) ∈ dot_S2048x32_S32x512_S2048x512_1_0_0_1_n_n.lhsNonContracting by decide)]
  rfl
theorem dot_hidden_l1 (i : S2048x512.Idx) (q : dot_S2048x32_S32x512_S2048x512_1_0_0_1_n_n.contr.Idx) : (dot_S2048x32_S32x512_S2048x512_1_0_0_1_n_n.lhsIdx i q 1).val = (q ⟨0, by decide⟩).val :=
  dot_S2048x32_S32x512_S2048x512_1_0_0_1_n_n.lhsIdx_val_of_single rfl i q
theorem dot_hidden_r0 (i : S2048x512.Idx) (q : dot_S2048x32_S32x512_S2048x512_1_0_0_1_n_n.contr.Idx) : (dot_S2048x32_S32x512_S2048x512_1_0_0_1_n_n.rhsIdx i q 0).val = (q ⟨0, by decide⟩).val :=
  dot_S2048x32_S32x512_S2048x512_1_0_0_1_n_n.rhsIdx_val_of_single rfl i q
theorem dot_hidden_r1 (i : S2048x512.Idx) (q : dot_S2048x32_S32x512_S2048x512_1_0_0_1_n_n.contr.Idx) : (dot_S2048x32_S32x512_S2048x512_1_0_0_1_n_n.rhsIdx i q 1).val = (i 1).val := by
  unfold DotDims.rhsIdx
  rw [dif_neg (show ¬(1 : Fin S32x512.rank) ∈ dot_S2048x32_S32x512_S2048x512_1_0_0_1_n_n.rhsBatch by decide),
    dif_pos (show (1 : Fin S32x512.rank) ∈ dot_S2048x32_S32x512_S2048x512_1_0_0_1_n_n.rhsNonContracting by decide)]
  rfl

/-- The matrix product (2048×32)·(32×512) accumulated into zero: entry (i, j) is Σ_k l(i,k)·r(k,j). -/
theorem dot_hidden_apply (l : FVec Ideal S2048x32 .f32) (r : FVec Ideal S32x512 .f32) (i : Fin 2048) (j : Fin 512) :
    matmul dot_S2048x32_S32x512_S2048x512_1_0_0_1_n_n (some .fp32) l r (constant S2048x512 .f32 0x00000000#32) (ix2 i j)
      = ∑ k : Fin 32, l (ix2 i k) * r (ix2 k j) := by
  refine (Ideal.matmul_constant_zero_apply dot_S2048x32_S32x512_S2048x512_1_0_0_1_n_n (some .fp32) l r (ix2 i j)).trans ?_
  rw [← Equiv.sum_comp (contrEquiv1 dot_S2048x32_S32x512_S2048x512_1_0_0_1_n_n 32 rfl rfl).symm]
  refine Finset.sum_congr rfl fun k _ => ?_
  have hk := contrEquiv1_symm_val dot_S2048x32_S32x512_S2048x512_1_0_0_1_n_n 32 rfl rfl k
  have el : dot_S2048x32_S32x512_S2048x512_1_0_0_1_n_n.lhsIdx (ix2 i j) ((contrEquiv1 dot_S2048x32_S32x512_S2048x512_1_0_0_1_n_n 32 rfl rfl).symm k) = ix2 i k :=
    funext fun a => Fin.ext (by
      match a with
      | ⟨0, _⟩ => exact dot_hidden_l0 _ _
      | ⟨1, _⟩ => exact (dot_hidden_l1 _ _).trans hk)
  have er : dot_S2048x32_S32x512_S2048x512_1_0_0_1_n_n.rhsIdx (ix2 i j) ((contrEquiv1 dot_S2048x32_S32x512_S2048x512_1_0_0_1_n_n 32 rfl rfl).symm k) = ix2 k j :=
    funext fun a => Fin.ext (by
      match a with
      | ⟨0, _⟩ => exact (dot_hidden_r0 _ _).trans hk
      | ⟨1, _⟩ => exact dot_hidden_r1 _ _)
  rw [el, er]

theorem dot_stat_l0 (i : S32x512.Idx) (q : dot_S32x2048_S2048x512_S32x512_1_0_0_1_n_n.contr.Idx) : (dot_S32x2048_S2048x512_S32x512_1_0_0_1_n_n.lhsIdx i q 0).val = (i 0).val := by
  unfold DotDims.lhsIdx
  rw [dif_neg (show ¬(0 : Fin S32x2048.rank) ∈ dot_S32x2048_S2048x512_S32x512_1_0_0_1_n_n.lhsBatch by decide),
    dif_pos (show (0 : Fin S32x2048.rank) ∈ dot_S32x2048_S2048x512_S32x512_1_0_0_1_n_n.lhsNonContracting by decide)]
  rfl
theorem dot_stat_l1 (i : S32x512.Idx) (q : dot_S32x2048_S2048x512_S32x512_1_0_0_1_n_n.contr.Idx) : (dot_S32x2048_S2048x512_S32x512_1_0_0_1_n_n.lhsIdx i q 1).val = (q ⟨0, by decide⟩).val :=
  dot_S32x2048_S2048x512_S32x512_1_0_0_1_n_n.lhsIdx_val_of_single rfl i q
theorem dot_stat_r0 (i : S32x512.Idx) (q : dot_S32x2048_S2048x512_S32x512_1_0_0_1_n_n.contr.Idx) : (dot_S32x2048_S2048x512_S32x512_1_0_0_1_n_n.rhsIdx i q 0).val = (q ⟨0, by decide⟩).val :=
  dot_S32x2048_S2048x512_S32x512_1_0_0_1_n_n.rhsIdx_val_of_single rfl i q
theorem dot_stat_r1 (i : S32x512.Idx) (q : dot_S32x2048_S2048x512_S32x512_1_0_0_1_n_n.contr.Idx) : (dot_S32x2048_S2048x512_S32x512_1_0_0_1_n_n.rhsIdx i q 1).val = (i 1).val := by
  unfold DotDims.rhsIdx
  rw [dif_neg (show ¬(1 : Fin S2048x512.rank) ∈ dot_S32x2048_S2048x512_S32x512_1_0_0_1_n_n.rhsBatch by decide),
    dif_pos (show (1 : Fin S2048x512.rank) ∈ dot_S32x2048_S2048x512_S32x512_1_0_0_1_n_n.rhsNonContracting by decide)]
  rfl

/-- The matrix product (32×2048)·(2048×512) accumulated into zero: entry (i, j) is Σ_k l(i,k)·r(k,j). -/
theorem dot_stat_apply (l : FVec Ideal S32x2048 .f32) (r : FVec Ideal S2048x512 .f32) (i : Fin 32) (j : Fin 512) :
    matmul dot_S32x2048_S2048x512_S32x512_1_0_0_1_n_n (some .fp32) l r (constant S32x512 .f32 0x00000000#32) (ix2 i j)
      = ∑ k : Fin 2048, l (ix2 i k) * r (ix2 k j) := by
  refine (Ideal.matmul_constant_zero_apply dot_S32x2048_S2048x512_S32x512_1_0_0_1_n_n (some .fp32) l r (ix2 i j)).trans ?_
  rw [← Equiv.sum_comp (contrEquiv1 dot_S32x2048_S2048x512_S32x512_1_0_0_1_n_n 2048 rfl rfl).symm]
  refine Finset.sum_congr rfl fun k _ => ?_
  have hk := contrEquiv1_symm_val dot_S32x2048_S2048x512_S32x512_1_0_0_1_n_n 2048 rfl rfl k
  have el : dot_S32x2048_S2048x512_S32x512_1_0_0_1_n_n.lhsIdx (ix2 i j) ((contrEquiv1 dot_S32x2048_S2048x512_S32x512_1_0_0_1_n_n 2048 rfl rfl).symm k) = ix2 i k :=
    funext fun a => Fin.ext (by
      match a with
      | ⟨0, _⟩ => exact dot_stat_l0 _ _
      | ⟨1, _⟩ => exact (dot_stat_l1 _ _).trans hk)
  have er : dot_S32x2048_S2048x512_S32x512_1_0_0_1_n_n.rhsIdx (ix2 i j) ((contrEquiv1 dot_S32x2048_S2048x512_S32x512_1_0_0_1_n_n 2048 rfl rfl).symm k) = ix2 k j :=
    funext fun a => Fin.ext (by
      match a with
      | ⟨0, _⟩ => exact (dot_stat_r0 _ _).trans hk
      | ⟨1, _⟩ => exact dot_stat_r1 _ _)
  rw [el, er]

end Cert.KernelIdeal.Pay

end
-- ==== Proof.Spec.lean ====
/-
  The mathematics of the Hebbian layer, stated once over plain coordinate functions on the extended reals.

  For a batch x : 16384 × 2048, weights w1 : 32 × 2048 and w2 : 512 × 32:
    act(b,h)  = max(Σ_k x(b,k)·w1(h,k), 0)
    out(b,o)  = logistic(Σ_h act(b,h)·w2(o,h)) − 0.4          (0.4 as its f32 word)
  and the batch statistics the ABCD rule consumes:
    corr1(i,h) = Σ_b x(b,i)·act(b,h),   corr2(h,o) = Σ_b act(b,h)·out(b,o),
    xsum(i) = Σ_b x(b,i),   asum(h) = Σ_b act(b,h),   osum(o) = Σ_b out(b,o).
  Sums over the extended reals are sums in a commutative monoid, so any tiling of the batch gives the same value.
-/
import Idealize.ShloMosaic.PureOps.Ideal
import Idealize.ShloMosaic.Lib.ValueIdx

noncomputable section

namespace Cert.Heb

open Idealize.ShloMosaic

/-- The f32 word of 0.4 read at the ideal instance. -/
abbrev c04 : EReal := Ideal.ofBits .f32 0x3ECCCCCD#32

/-- Hidden activations: relu of the first projection. -/
def act (x : Fin 16384 → Fin 2048 → EReal) (w1 : Fin 32 → Fin 2048 → EReal) (b : Fin 16384) (h : Fin 32) : EReal :=
  max (∑ k : Fin 2048, x b k * w1 h k) 0

/-- Outputs: logistic of the second projection, shifted by 0.4. -/
def outv (x : Fin 16384 → Fin 2048 → EReal) (w1 : Fin 32 → Fin 2048 → EReal) (w2 : Fin 512 → Fin 32 → EReal)
    (b : Fin 16384) (o : Fin 512) : EReal :=
  Ideal.logistic (∑ h : Fin 32, act x w1 b h * w2 o h) - c04

/-- Input–hidden correlation summed over the batch. -/
def corr1 (x : Fin 16384 → Fin 2048 → EReal) (w1 : Fin 32 → Fin 2048 → EReal) (i : Fin 2048) (h : Fin 32) : EReal :=
  ∑ b : Fin 16384, x b i * act x w1 b h

/-- Hidden–output correlation summed over the batch. -/
def corr2 (x : Fin 16384 → Fin 2048 → EReal) (w1 : Fin 32 → Fin 2048 → EReal) (w2 : Fin 512 → Fin 32 → EReal)
    (h : Fin 32) (o : Fin 512) : EReal :=
  ∑ b : Fin 16384, act x w1 b h * outv x w1 w2 b o

/-- Column sums of the batch. -/
def xsum (x : Fin 16384 → Fin 2048 → EReal) (i : Fin 2048) : EReal := ∑ b : Fin 16384, x b i

/-- Column sums of the activations. -/
def asum (x : Fin 16384 → Fin 2048 → EReal) (w1 : Fin 32 → Fin 2048 → EReal) (h : Fin 32) : EReal :=
  ∑ b : Fin 16384, act x w1 b h

/-- Column sums of the outputs. -/
def osum (x : Fin 16384 → Fin 2048 → EReal) (w1 : Fin 32 → Fin 2048 → EReal) (w2 : Fin 512 → Fin 32 → EReal)
    (o : Fin 512) : EReal :=
  ∑ b : Fin 16384, outv x w1 w2 b o

end Cert.Heb

end
-- ==== Proof.PayAct.lean ====
/-
  The hidden activations and the outputs of one tile of rows, read at one entry.

  For a tile x of 2048 rows, act(r,h) = max(Σ_k x(r,k)·w1(h,k), 0): the first projection multiplies x by the
  transpose of w1, whose entry (k,h) is w1(h,k), and the relu compares with the zero word, which is 0.
  out(r,o) = logistic(Σ_h act(r,h)·w2(o,h)) − c, c the f32 word of 0.4: the second projection multiplies the
  activations by the transpose of w2.
-/
import proofs.«180996_j60825326846529_2_alg».proof.Proof.PayDots
import proofs.«180996_j60825326846529_2_alg».proof.Proof.Spec

noncomputable section

namespace Cert.KernelIdeal.Pay

open Cert.KernelIdeal Cert.KernelIdeal.Gen Idealize.ShloMosaic Idealize.ShloMosaic.ValueIdx

/-- Hidden activations of a tile: relu of the tile times w1 transposed. -/
theorem pay10_apply (v3 : Vec Ideal S2048x2048 .f32) (v4 : Vec Ideal S32x2048 .f32) (r : Fin 2048) (h : Fin 32) :
    k0_pay10 v3 v4 (ix2 r h) = max (∑ k : Fin 2048, v3 (ix2 r k) * v4 (ix2 h k)) 0 := by
  unfold k0_pay10
  refine (maximumf_apply _ _ (ix2 r h)).trans ?_
  refine congrArg₂ max ?_ Ideal.ofBits_zero_f32
  refine (dot_rows_apply v3 _ r h).trans ?_
  refine Finset.sum_congr rfl fun k _ => ?_
  exact congrArg (v3 (ix2 r k) * ·) (transpose_ix2_apply v4 transposes_S32x2048_p1_0_S2048x32 k h)

/-- Outputs of a tile: logistic of the activations times w2 transposed, shifted by the word of 0.4. -/
theorem pay11_apply (v3 : Vec Ideal S2048x2048 .f32) (v4 : Vec Ideal S32x2048 .f32) (v5 : Vec Ideal S512x32 .f32)
    (r : Fin 2048) (o : Fin 512) :
    k0_pay11 v3 v4 v5 (ix2 r o)
      = Ideal.logistic (∑ h : Fin 32, k0_pay10 v3 v4 (ix2 r h) * v5 (ix2 o h)) - Cert.Heb.c04 := by
  unfold k0_pay11
  refine (subf_apply _ _ (ix2 r o)).trans ?_
  refine congrArg (· - Cert.Heb.c04) ?_
  refine congrArg Ideal.logistic ?_
  refine (dot_hidden_apply (k0_pay10 v3 v4) _ r o).trans ?_
  refine Finset.sum_congr rfl fun h _ => ?_
  exact congrArg (k0_pay10 v3 v4 (ix2 r h) * ·) (transpose_ix2_apply v5 transposes_S512x32_p1_0_S32x512 h o)

end Cert.KernelIdeal.Pay

end
-- ==== Proof.PayCorr.lean ====
/-
  The two correlation accumulators after one tile of rows, read at one entry.

  corr1: the accumulator holds, per (i,h), the sum over the rows seen so far of x(r,i)·act(r,h); one tile adds
  Σ_r x(r,i)·act(r,h) over its 2048 rows — the transpose of the tile times the activations.
  corr2: likewise Σ_r act(r,h)·out(r,o) — the transpose of the activations times the outputs.
  Both accumulators carry a leading axis of extent one (the core), dropped before the sum and put back after.
-/
import proofs.«180996_j60825326846529_2_alg».proof.Proof.PayAct

noncomputable section

namespace Cert.KernelIdeal.Pay

open Cert.KernelIdeal Cert.KernelIdeal.Gen Idealize.ShloMosaic Idealize.ShloMosaic.ValueIdx

/-- Input–hidden correlation: previous contents plus the tile's Σ_r x(r,i)·act(r,h). -/
theorem pay12_apply (v3 : Vec Ideal S2048x2048 .f32) (v4 : Vec Ideal S32x2048 .f32) (v16 : Vec Ideal S1x2048x32 .f32)
    (i : Fin 2048) (h : Fin 32) :
    k0_pay12 v3 v4 v16 (ix3 (0 : Fin 1) i h)
      = v16 (ix3 (0 : Fin 1) i h) + ∑ r : Fin 2048, v3 (ix2 r i) * k0_pay10 v3 v4 (ix2 r h) := by
  unfold k0_pay12
  refine (shapeCast_ab_1ab_apply _ shapeCasts_S2048x32_S1x2048x32 (0 : Fin 1) i h).trans ?_
  refine (addf_apply _ _ (ix2 i h)).trans ?_
  refine congrArg₂ (· + ·) ?_ ?_
  · exact shapeCast_1ab_ab_apply v16 shapeCasts_S1x2048x32_S2048x32 i h
  · refine (dot_rows_apply _ (k0_pay10 v3 v4) i h).trans ?_
    refine Finset.sum_congr rfl fun r _ => ?_
    exact congrArg (· * k0_pay10 v3 v4 (ix2 r h))
      (transpose_ix2_apply v3 transposes_S2048x2048_p1_0_S2048x2048 i r)

/-- Hidden–output correlation: previous contents plus the tile's Σ_r act(r,h)·out(r,o). -/
theorem pay13_apply (v3 : Vec Ideal S2048x2048 .f32) (v4 : Vec Ideal S32x2048 .f32) (v5 : Vec Ideal S512x32 .f32)
    (v24 : Vec Ideal S1x32x512 .f32) (h : Fin 32) (o : Fin 512) :
    k0_pay1 (k0_pay13 v3 v4 v5 v24) (ix3 (0 : Fin 1) h o)
      = v24 (ix3 (0 : Fin 1) h o) + ∑ r : Fin 2048, k0_pay10 v3 v4 (ix2 r h) * k0_pay11 v3 v4 v5 (ix2 r o) := by
  unfold k0_pay1
  refine (shapeCast_ab_1ab_apply _ shapeCasts_S32x512_S1x32x512 (0 : Fin 1) h o).trans ?_
  unfold k0_pay13
  refine (addf_apply _ _ (ix2 h o)).trans ?_
  refine congrArg₂ (· + ·) ?_ ?_
  · exact shapeCast_1ab_ab_apply v24 shapeCasts_S1x32x512_S32x512 h o
  · refine (dot_stat_apply _ (k0_pay11 v3 v4 v5) h o).trans ?_
    refine Finset.sum_congr rfl fun r _ => ?_
    exact congrArg (· * k0_pay11 v3 v4 v5 (ix2 r o))
      (transpose_ix2_apply (k0_pay10 v3 v4) transposes_S2048x32_p1_0_S32x2048 h r)

end Cert.KernelIdeal.Pay

end
-- ==== Proof.PaySums.lean ====
/-
  The three column-sum accumulators after one tile of rows, and the cleared accumulators.

  A sum over the first axis of a 2048-row matrix is, at column i, Σ_r m(r,i). Each accumulator is a row vector
  carried with two leading axes of extent one; the tile's column sums are added to its previous contents entry
  by entry. At the first tile of a core every accumulator is overwritten by the zero word, which reads as 0.
-/
import proofs.«180996_j60825326846529_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The sum over the rows of a 2048-row matrix, at column i. -/
theorem colsum_apply {b : Nat} (src : FVec Ideal ⟨2, ![2048, b]⟩ .f32)
    (hr : (⟨2, ![2048, b]⟩ : Shape).Reduces [0] ⟨1, ![b]⟩) (hφ : FKind.Formats .f32)
    (hacc : (0x00000000#32 : BitVec 32) = FKind.add.neutral .f32 hφ) (i : Fin b) :
    multiReduction .add [0] ⟨1, ![b]⟩ src 0x00000000#32 hr hφ hacc (ix1 i) = ∑ r : Fin 2048, src (ix2 r i) := by
  refine (Ideal.multiReduction_add_single src 0x00000000#32 hr hφ hacc (ix1 i)).trans ?_
  refine Finset.sum_congr rfl fun r _ => congrArg src ?_
  exact funext fun a => Fin.ext (by match a with | ⟨0, _⟩ => rfl | ⟨1, _⟩ => rfl)

/-- A row accumulator [1,1,b] plus the column sums of a 2048-row matrix, at entry i. -/
theorem acc_colsum {b : Nat} (src : FVec Ideal ⟨2, ![2048, b]⟩ .f32) (prev : FVec Ideal ⟨3, ![1, 1, b]⟩ .f32)
    (h1 : (⟨3, ![1, 1, b]⟩ : Shape).ShapeCasts ⟨2, ![1, b]⟩)
    (hr : (⟨2, ![2048, b]⟩ : Shape).Reduces [0] ⟨1, ![b]⟩) (hφ : FKind.Formats .f32)
    (hacc : (0x00000000#32 : BitVec 32) = FKind.add.neutral .f32 hφ)
    (h2 : (⟨1, ![b]⟩ : Shape).ShapeCasts ⟨2, ![1, b]⟩)
    (h3 : (⟨2, ![1, b]⟩ : Shape).ShapeCasts ⟨3, ![1, 1, b]⟩) (i : Fin b) :
    shapeCast ⟨3, ![1, 1, b]⟩
        (addf (shapeCast ⟨2, ![1, b]⟩ prev h1)
          (shapeCast ⟨2, ![1, b]⟩ (multiReduction .add [0] ⟨1, ![b]⟩ src 0x00000000#32 hr hφ hacc) h2)) h3
        (ix3 (0 : Fin 1) (0 : Fin 1) i)
      = prev (ix3 (0 : Fin 1) (0 : Fin 1) i) + ∑ r : Fin 2048, src (ix2 r i) := by
  refine (shapeCast_ab_1ab_apply _ h3 (0 : Fin 1) (0 : Fin 1) i).trans ?_
  refine (addf_apply _ _ (ix2 (0 : Fin 1) i)).trans ?_
  refine congrArg₂ (· + ·) ?_ ?_
  · exact shapeCast_1ab_ab_apply prev h1 (0 : Fin 1) i
  · refine (shapeCast_a_1a_apply _ h2 (0 : Fin 1) i).trans ?_
    exact colsum_apply src hr hφ hacc i

/-- Column sums of the batch: previous contents plus the tile's Σ_r x(r,i). -/
theorem pay2_apply (v3 : Vec Ideal S2048x2048 .f32) (v32 : Vec Ideal S1x1x2048 .f32) (i : Fin 2048) :
    k0_pay2 v3 v32 (ix3 (0 : Fin 1) (0 : Fin 1) i)
      = v32 (ix3 (0 : Fin 1) (0 : Fin 1) i) + ∑ r : Fin 2048, v3 (ix2 r i) := by
  unfold k0_pay2
  exact acc_colsum v3 v32 shapeCasts_S1x1x2048_S1x2048 reduces_S2048x2048_S2048 (.inl rfl) rfl shapeCasts_S2048_S1x2048 shapeCasts_S1x2048_S1x1x2048 i

/-- Column sums of the activations: previous contents plus the tile's Σ_r a(r,h). -/
theorem pay3_apply (v9 : FVec Ideal S2048x32 .f32) (v40 : Vec Ideal S1x1x32 .f32) (i : Fin 32) :
    k0_pay3 v9 v40 (ix3 (0 : Fin 1) (0 : Fin 1) i)
      = v40 (ix3 (0 : Fin 1) (0 : Fin 1) i) + ∑ r : Fin 2048, v9 (ix2 r i) := by
  unfold k0_pay3
  exact acc_colsum v9 v40 shapeCasts_S1x1x32_S1x32 reduces_S2048x32_S32 (.inl rfl) rfl shapeCasts_S32_S1x32 shapeCasts_S1x32_S1x1x32 i

/-- Column sums of the outputs: previous contents plus the tile's Σ_r o(r,j). -/
theorem pay4_apply (v14 : FVec Ideal S2048x512 .f32) (v48 : Vec Ideal S1x1x512 .f32) (i : Fin 512) :
    k0_pay4 v14 v48 (ix3 (0 : Fin 1) (0 : Fin 1) i)
      = v48 (ix3 (0 : Fin 1) (0 : Fin 1) i) + ∑ r : Fin 2048, v14 (ix2 r i) := by
  unfold k0_pay4
  exact acc_colsum v14 v48 shapeCasts_S1x1x512_S1x512 reduces_S2048x512_S512 (.inl rfl) rfl shapeCasts_S512_S1x512 shapeCasts_S1x512_S1x1x512 i

/-- At the first tile of a core the input–hidden correlation accumulator is cleared: every entry is the zero word, which is 0. -/
theorem pay5_apply (j : S1x2048x32.Idx) : k0_pay5 (F := Ideal) j = 0 := by
  unfold k0_pay5
  exact Ideal.ofBits_zero_f32

/-- At the first tile of a core the hidden–output correlation accumulator is cleared: every entry is the zero word, which is 0. -/
theorem pay6_apply (j : S1x32x512.Idx) : k0_pay6 (F := Ideal) j = 0 := by
  unfold k0_pay6
  exact Ideal.ofBits_zero_f32

/-- At the first tile of a core the batch column-sum accumulator is cleared: every entry is the zero word, which is 0. -/
theorem pay7_apply (j : S1x1x2048.Idx) : k0_pay7 (F := Ideal) j = 0 := by
  unfold k0_pay7
  exact Ideal.ofBits_zero_f32

/-- At the first tile of a core the activation column-sum accumulator is cleared: every entry is the zero word, which is 0. -/
theorem pay8_apply (j : S1x1x32.Idx) : k0_pay8 (F := Ideal) j = 0 := by
  unfold k0_pay8
  exact Ideal.ofBits_zero_f32

/-- At the first tile of a core the output column-sum accumulator is cleared: every entry is the zero word, which is 0. -/
theorem pay9_apply (j : S1x1x512.Idx) : k0_pay9 (F := Ideal) j = 0 := by
  unfold k0_pay9
  exact Ideal.ofBits_zero_f32

end Cert.KernelIdeal.Pay

end
-- ==== Proof.TileSum.lean ====
/-
  The batch sum as the sum over the eight tiles of 2048 rows, arranged as the two cores' running totals.

  A function on the batch is extended by zero to the naturals; the sum over a range of T·B naturals is the sum over
  the T tiles of the sums over the B positions of a tile; and the sum over the batch is the first core's total over
  tiles 0–3 plus the second core's over tiles 4–7, each started from zero. Sums in a commutative monoid: no finiteness.
-/
import proofs.«180996_j60825326846529_2_alg».proof.Proof.Spec

noncomputable section

namespace Cert.Heb

open Finset

/-- A sum over the first T·B naturals, tile by tile. -/
theorem sum_range_tiles {M : Type*} [AddCommMonoid M] (g : ℕ → M) (B : ℕ) (T : ℕ) :
    ∑ n ∈ range (T * B), g n = ∑ t ∈ range T, ∑ r ∈ range B, g (t * B + r) := by
  induction T with
  | zero => simp
  | succ T ih => rw [Nat.succ_mul, sum_range_add, ih, sum_range_succ]

/-- A function on the batch extended by zero. -/
def ext (F : Fin 16384 → EReal) (n : ℕ) : EReal := if h : n < 16384 then F ⟨n, h⟩ else 0

theorem ext_val (F : Fin 16384 → EReal) (b : Fin 16384) : ext F b.val = F b := by
  unfold ext; rw [dif_pos b.isLt]

theorem ext_of_lt (F : Fin 16384 → EReal) (n : ℕ) (h : n < 16384) : ext F n = F ⟨n, h⟩ := by
  unfold ext; rw [dif_pos h]

/-- The sum over the batch is the sum of the extension over the first 16384 naturals. -/
theorem sum_eq_sum_ext (F : Fin 16384 → EReal) : ∑ b : Fin 16384, F b = ∑ n ∈ range 16384, ext F n := by
  rw [← Fin.sum_univ_eq_sum_range]
  exact Finset.sum_congr rfl fun b _ => (ext_val F b).symm

/-- The sum over the batch, tile by tile. -/
theorem sum_eq_tiles (F : Fin 16384 → EReal) :
    ∑ b : Fin 16384, F b = ∑ t ∈ range 8, ∑ r : Fin 2048, ext F (t * 2048 + r.val) := by
  rw [sum_eq_sum_ext, show (16384 : ℕ) = 8 * 2048 from rfl, sum_range_tiles]
  exact Finset.sum_congr rfl fun t _ => (Fin.sum_univ_eq_sum_range (fun r => ext F (t * 2048 + r)) 2048).symm

/-- The two cores' totals, each over its four tiles from zero, add up to the sum over the batch. -/
theorem tile_sum (F : Fin 16384 → EReal) :
    (0 + ∑ s ∈ range 4, ∑ r : Fin 2048, ext F ((4 * 0 + s) * 2048 + r.val))
      + (0 + ∑ s ∈ range 4, ∑ r : Fin 2048, ext F ((4 * 1 + s) * 2048 + r.val))
      = ∑ b : Fin 16384, F b := by
  rw [sum_eq_tiles, show (8 : ℕ) = 4 + 4 from rfl, sum_range_add, zero_add, zero_add]
  simp only [Nat.mul_zero, Nat.zero_add, Nat.mul_one]

/-- One tile's sum of the extension is the sum over that tile's rows. -/
theorem tile_rows (F : Fin 16384 → EReal) (n : ℕ) (hn : n < 8) :
    ∑ r : Fin 2048, ext F (n * 2048 + r.val)
      = ∑ r : Fin 2048, F ⟨n * 2048 + r.val, by have := r.isLt; omega⟩ :=
  Finset.sum_congr rfl fun r _ => ext_of_lt F _ _

end Cert.Heb

end
-- ==== Proof.FoldSum.lean ====
/-
  The batch sum as the two cores fold it.

  Row r of tile n is row 2048·n + r of the batch, so the sum over the batch is the sum over the eight tiles of the
  sums over a tile's rows. A core resets its running total at its first tile and adds one tile's contribution at each
  of its four tiles; the first core ends at tiles 0–3 added to zero in order, the second at tiles 4–7, and the two
  totals add up to the sum over all eight tiles.
-/
import proofs.«180996_j60825326846529_2_alg».proof.Proof.TileSum

noncomputable section

namespace Cert.Heb

open Finset

/-- Row r of tile n as a row of the batch. -/
def tileRow (n : Fin 8) (r : Fin 2048) : Fin 16384 :=
  ⟨n.val * 2048 + r.val, by have := n.isLt; have := r.isLt; omega⟩

/-- The sum over the batch is the sum over the tiles of the sums over a tile's rows. -/
theorem batch_tiles (F : Fin 16384 → EReal) :
    ∑ b : Fin 16384, F b = ∑ n : Fin 8, ∑ r : Fin 2048, F (tileRow n r) := by
  rw [sum_eq_tiles, ← Fin.sum_univ_eq_sum_range (fun t => ∑ r : Fin 2048, ext F (t * 2048 + r.val)) 8]
  exact Finset.sum_congr rfl fun n _ => Finset.sum_congr rfl fun r _ => ext_of_lt F _ (tileRow n r).isLt

/-- The two cores' totals, each four tiles added to zero in order, add up to the sum over the eight tiles. -/
theorem cores_sum (T : Fin 8 → EReal) :
    ((((0 + T 0) + T 1) + T 2) + T 3) + ((((0 + T 4) + T 5) + T 6) + T 7) = ∑ n : Fin 8, T n := by
  simp only [Fin.sum_univ_eight, zero_add, add_assoc]

/-- A running total that is reset at tiles 0 and 4 and otherwise adds the tile's contribution ends, at tiles 3 and 7,
    at its core's four contributions added to zero in order. -/
theorem fold4 {ι : Type} (acc : (n : ℕ) → n < 8 → ι → EReal) (T : Fin 8 → ι → EReal)
    (hreset : ∀ (n : ℕ) (hn : n < 8), n % 4 = 0 → ∀ i, acc n hn i = 0 + T ⟨n, hn⟩ i)
    (hstep : ∀ (n : ℕ) (hn : n + 1 < 8), ¬(n + 1) % 4 = 0 →
      ∀ i, acc (n + 1) hn i = acc n (Nat.lt_of_succ_lt hn) i + T ⟨n + 1, hn⟩ i) :
    (∀ i, acc 3 (by omega) i = (((0 + T 0 i) + T 1 i) + T 2 i) + T 3 i)
      ∧ (∀ i, acc 7 (by omega) i = (((0 + T 4 i) + T 5 i) + T 6 i) + T 7 i) := by
  refine ⟨fun i => ?_, fun i => ?_⟩
  · have h0 := hreset 0 (by omega) (by decide) i
    have h1 := hstep 0 (by omega) (by decide) i
    have h2 := hstep 1 (by omega) (by decide) i
    have h3 := hstep 2 (by omega) (by decide) i
    exact h3.trans (congrArg (· + T 3 i) (h2.trans (congrArg (· + T 2 i) (h1.trans (congrArg (· + T 1 i) h0)))))
  · have h0 := hreset 4 (by omega) (by decide) i
    have h1 := hstep 4 (by omega) (by decide) i
    have h2 := hstep 5 (by omega) (by decide) i
    have h3 := hstep 6 (by omega) (by decide) i
    exact h3.trans (congrArg (· + T 7 i) (h2.trans (congrArg (· + T 6 i) (h1.trans (congrArg (· + T 5 i) h0)))))

/-- The two cores' totals of the tiles' row sums add up to the sum over the batch. -/
theorem cores_batch (F : Fin 16384 → EReal) :
    ((((0 + ∑ r : Fin 2048, F (tileRow 0 r)) + ∑ r : Fin 2048, F (tileRow 1 r)) + ∑ r : Fin 2048, F (tileRow 2 r))
        + ∑ r : Fin 2048, F (tileRow 3 r))
      + ((((0 + ∑ r : Fin 2048, F (tileRow 4 r)) + ∑ r : Fin 2048, F (tileRow 5 r)) + ∑ r : Fin 2048, F (tileRow 6 r))
        + ∑ r : Fin 2048, F (tileRow 7 r))
      = ∑ b : Fin 16384, F b :=
  (cores_sum fun n => ∑ r : Fin 2048, F (tileRow n r)).trans (batch_tiles F).symm

end Cert.Heb

end
-- ==== Proof.PayTile.lean ====
/-
  One tile of rows against the whole batch.

  Tile n of the grid holds rows 2048·n … 2048·n + 2047 of the batch: entry (r,k) of the tile is entry
  (tileRow n r, k) of the batch. So everything the body computes from a tile is the layer's specification at those
  rows: the tile's activations and outputs are act and out at row tileRow n r, and each accumulator gains the
  sum, over the tile's rows, of the specification's summand.
-/
import proofs.«180996_j60825326846529_2_alg».proof.Proof.PayAct
import proofs.«180996_j60825326846529_2_alg».proof.Proof.PayCorr
import proofs.«180996_j60825326846529_2_alg».proof.Proof.PaySums
import proofs.«180996_j60825326846529_2_alg».proof.Proof.FoldSum

noncomputable section

namespace Cert.KernelIdeal.Pay

open Cert.KernelIdeal Cert.KernelIdeal.Gen Idealize.ShloMosaic Idealize.ShloMosaic.ValueIdx

/-- The batch as a function of its two coordinates. -/
abbrev xfn (X : FVec Ideal S16384x2048 .f32) : Fin 16384 → Fin 2048 → EReal := fun b k => X (ix2 b k)
/-- The first weight matrix as a function of its two coordinates. -/
abbrev w1fn (W1 : Vec Ideal S32x2048 .f32) : Fin 32 → Fin 2048 → EReal := fun h k => W1 (ix2 h k)
/-- The second weight matrix as a function of its two coordinates. -/
abbrev w2fn (W2 : Vec Ideal S512x32 .f32) : Fin 512 → Fin 32 → EReal := fun o h => W2 (ix2 o h)

/-- A tile's activations are the specification's at the tile's rows. -/
theorem tile_act (X : FVec Ideal S16384x2048 .f32) (W1 : Vec Ideal S32x2048 .f32) (n : Fin 8)
    (v3 : Vec Ideal S2048x2048 .f32) (hB : ∀ (r k : Fin 2048), v3 (ix2 r k) = X (ix2 (Cert.Heb.tileRow n r) k))
    (r : Fin 2048) (h : Fin 32) :
    k0_pay10 v3 W1 (ix2 r h) = Cert.Heb.act (xfn X) (w1fn W1) (Cert.Heb.tileRow n r) h := by
  refine (pay10_apply v3 W1 r h).trans ?_
  unfold Cert.Heb.act
  refine congrArg (max · 0) (Finset.sum_congr rfl fun k _ => ?_)
  exact congrArg (· * W1 (ix2 h k)) (hB r k)

/-- A tile's outputs are the specification's at the tile's rows. -/
theorem tile_out (X : FVec Ideal S16384x2048 .f32) (W1 : Vec Ideal S32x2048 .f32) (W2 : Vec Ideal S512x32 .f32) (n : Fin 8)
    (v3 : Vec Ideal S2048x2048 .f32) (hB : ∀ (r k : Fin 2048), v3 (ix2 r k) = X (ix2 (Cert.Heb.tileRow n r) k))
    (r : Fin 2048) (o : Fin 512) :
    k0_pay11 v3 W1 W2 (ix2 r o) = Cert.Heb.outv (xfn X) (w1fn W1) (w2fn W2) (Cert.Heb.tileRow n r) o := by
  refine (pay11_apply v3 W1 W2 r o).trans ?_
  unfold Cert.Heb.outv
  refine congrArg (fun s => Ideal.logistic s - Cert.Heb.c04) (Finset.sum_congr rfl fun h _ => ?_)
  exact congrArg (· * W2 (ix2 o h)) (tile_act X W1 n v3 hB r h)

/-- The input–hidden accumulator gains the tile's share of the specification's correlation. -/
theorem tile_corr1 (X : FVec Ideal S16384x2048 .f32) (W1 : Vec Ideal S32x2048 .f32) (n : Fin 8)
    (v3 : Vec Ideal S2048x2048 .f32) (hB : ∀ (r k : Fin 2048), v3 (ix2 r k) = X (ix2 (Cert.Heb.tileRow n r) k))
    (v16 : Vec Ideal S1x2048x32 .f32) (i : Fin 2048) (h : Fin 32) :
    k0_pay12 v3 W1 v16 (ix3 (0 : Fin 1) i h)
      = v16 (ix3 (0 : Fin 1) i h)
        + ∑ r : Fin 2048, xfn X (Cert.Heb.tileRow n r) i * Cert.Heb.act (xfn X) (w1fn W1) (Cert.Heb.tileRow n r) h := by
  refine (pay12_apply v3 W1 v16 i h).trans ?_
  refine congrArg (v16 (ix3 (0 : Fin 1) i h) + ·) (Finset.sum_congr rfl fun r _ => ?_)
  exact congrArg₂ (· * ·) (hB r i) (tile_act X W1 n v3 hB r h)

/-- The hidden–output accumulator gains the tile's share of the specification's correlation. -/
theorem tile_corr2 (X : FVec Ideal S16384x2048 .f32) (W1 : Vec Ideal S32x2048 .f32) (W2 : Vec Ideal S512x32 .f32) (n : Fin 8)
    (v3 : Vec Ideal S2048x2048 .f32) (hB : ∀ (r k : Fin 2048), v3 (ix2 r k) = X (ix2 (Cert.Heb.tileRow n r) k))
    (v24 : Vec Ideal S1x32x512 .f32) (h : Fin 32) (o : Fin 512) :
    k0_pay1 (k0_pay13 v3 W1 W2 v24) (ix3 (0 : Fin 1) h o)
      = v24 (ix3 (0 : Fin 1) h o)
        + ∑ r : Fin 2048, Cert.Heb.act (xfn X) (w1fn W1) (Cert.Heb.tileRow n r) h
            * Cert.Heb.outv (xfn X) (w1fn W1) (w2fn W2) (Cert.Heb.tileRow n r) o := by
  refine (pay13_apply v3 W1 W2 v24 h o).trans ?_
  refine congrArg (v24 (ix3 (0 : Fin 1) h o) + ·) (Finset.sum_congr rfl fun r _ => ?_)
  exact congrArg₂ (· * ·) (tile_act X W1 n v3 hB r h) (tile_out X W1 W2 n v3 hB r o)

/-- The batch column-sum accumulator gains the tile's rows. -/
theorem tile_xsum (X : FVec Ideal S16384x2048 .f32) (n : Fin 8)
    (v3 : Vec Ideal S2048x2048 .f32) (hB : ∀ (r k : Fin 2048), v3 (ix2 r k) = X (ix2 (Cert.Heb.tileRow n r) k))
    (v32 : Vec Ideal S1x1x2048 .f32) (i : Fin 2048) :
    k0_pay2 v3 v32 (ix3 (0 : Fin 1) (0 : Fin 1) i)
      = v32 (ix3 (0 : Fin 1) (0 : Fin 1) i) + ∑ r : Fin 2048, xfn X (Cert.Heb.tileRow n r) i := by
  refine (pay2_apply v3 v32 i).trans ?_
  exact congrArg (v32 (ix3 (0 : Fin 1) (0 : Fin 1) i) + ·) (Finset.sum_congr rfl fun r _ => hB r i)

/-- The activation column-sum accumulator gains the tile's activations. -/
theorem tile_asum (X : FVec Ideal S16384x2048 .f32) (W1 : Vec Ideal S32x2048 .f32) (n : Fin 8)
    (v3 : Vec Ideal S2048x2048 .f32) (hB : ∀ (r k : Fin 2048), v3 (ix2 r k) = X (ix2 (Cert.Heb.tileRow n r) k))
    (v40 : Vec Ideal S1x1x32 .f32) (h : Fin 32) :
    k0_pay3 (k0_pay10 v3 W1) v40 (ix3 (0 : Fin 1) (0 : Fin 1) h)
      = v40 (ix3 (0 : Fin 1) (0 : Fin 1) h)
        + ∑ r : Fin 2048, Cert.Heb.act (xfn X) (w1fn W1) (Cert.Heb.tileRow n r) h := by
  refine (pay3_apply (k0_pay10 v3 W1) v40 h).trans ?_
  exact congrArg (v40 (ix3 (0 : Fin 1) (0 : Fin 1) h) + ·)
    (Finset.sum_congr rfl fun r _ => tile_act X W1 n v3 hB r h)

/-- The output column-sum accumulator gains the tile's outputs. -/
theorem tile_osum (X : FVec Ideal S16384x2048 .f32) (W1 : Vec Ideal S32x2048 .f32) (W2 : Vec Ideal S512x32 .f32) (n : Fin 8)
    (v3 : Vec Ideal S2048x2048 .f32) (hB : ∀ (r k : Fin 2048), v3 (ix2 r k) = X (ix2 (Cert.Heb.tileRow n r) k))
    (v48 : Vec Ideal S1x1x512 .f32) (o : Fin 512) :
    k0_pay4 (k0_pay11 v3 W1 W2) v48 (ix3 (0 : Fin 1) (0 : Fin 1) o)
      = v48 (ix3 (0 : Fin 1) (0 : Fin 1) o)
        + ∑ r : Fin 2048, Cert.Heb.outv (xfn X) (w1fn W1) (w2fn W2) (Cert.Heb.tileRow n r) o := by
  refine (pay4_apply (k0_pay11 v3 W1 W2) v48 o).trans ?_
  exact congrArg (v48 (ix3 (0 : Fin 1) (0 : Fin 1) o) + ·)
    (Finset.sum_congr rfl fun r _ => tile_out X W1 W2 n v3 hB r o)

end Cert.KernelIdeal.Pay

end
-- ==== Proof.KI.ValBase.lean ====
/-
  The setting of the region's values at the ideal instance: the argument arrays as launched and their coordinate
  functions; a grid point read as a tile number; the x block at point t is tile t's rows of X, and the two weight
  windows are the whole weight arrays.
-/
import proofs.«180996_j60825326846529_2_alg».proof.Proof.KI.Pieces
import proofs.«180996_j60825326846529_2_alg».proof.Proof.KI.Blocks
import proofs.«180996_j60825326846529_2_alg».proof.Proof.PayTile
import proofs.«180996_j60825326846529_2_alg».proof.Proof.FoldSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- The argument arrays as the region finds them. -/
abbrev aX : FVec Ideal S16384x2048 .f32 := V m c main_arg0
abbrev aW1 : FVec Ideal S32x2048 .f32 := V m c main_arg1
abbrev aW2 : FVec Ideal S512x32 .f32 := V m c main_arg2
/-- Their coordinate functions. -/
abbrev cx : Fin 16384 → Fin 2048 → EReal := xfn (aX m c)
abbrev cw1 : Fin 32 → Fin 2048 → EReal := w1fn (aW1 m c)
abbrev cw2 : Fin 512 → Fin 32 → EReal := w2fn (aW2 m c)

theorem lt8 {n : ℕ} (hn : n < 8) : n < cfg0.N := lt_of_lt_of_eq hn (show (8 : ℕ) = cfg0.N from N_0.symm)

/-- The x block at point n is tile n's rows of X. -/
theorem blk0_rows (n : ℕ) (hn : n < 8) (r k : Fin 2048) :
    iblk m c 0 ⟨n, lt8 hn⟩ (ix2 r k) = aX m c (ix2 (Cert.Heb.tileRow ⟨n, hn⟩ r) k) :=
  iblk0_apply m c ⟨n, lt8 hn⟩ r k

end Cert.KernelIdeal.Fr

end
-- ==== Proof.KI.Val3.lean ====
/-
  The output array at the ideal instance. Every grid point writes its tile of outputs back: the block at point t holds
  the specification's outputs at the tile's 2048 rows, all 512 columns; the eight blocks tile the array, so after the
  run it holds the specification's outputs at every index.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- What a point leaves in the output window's buffer: the outputs payload of the point's three input blocks, at a
    core's first tile and at a later one alike. -/
theorem outs3_eq (t : Fin cfg0.N) :
    (outsAt0 m c t.val t.isLt).1 = k0_pay11 (iblk m c 0 t) (iblk m c 1 t) (iblk m c 2 t) := by
  by_cases h0 : t.val % 4 = 0
  · rw [outsAt0_A m c t h0]
    dsimp only
    rw [out0_A_3_eq]
  · rw [outsAt0_B m c t h0]
    dsimp only
    rw [out0_B_3_eq]

/-- The output array after the run: the specification's outputs. -/
def G3 (j : S16384x512.Idx) : EReal :=
  Cert.Heb.outv (cx m c) (cw1 m c) (cw2 m c) ⟨(j 0).val, (j 0).isLt⟩ ⟨(j 1).val, (j 1).isLt⟩

/-- The window's block index at a point: block row t, block column 0. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- What point t writes back is block t of `G3`. -/
theorem flushed3_eq (t : Fin cfg0.N) :
    (dats m 0 c).flushed 3 t = ((cfg0.win 3).blk t).view.read (Elt Ideal) (G3 m c) := by
  show (cfg0.win 3).cut (grid0.coords t) ((dats m 0 c).after 3 t) = _
  rw [after0_3, outs3_eq]
  have hN := pt_lt t
  obtain ⟨e0, e1⟩ := idx3 t
  funext y
  show k0_pay11 (iblk m c 0 t) (iblk m c 1 t) (iblk m c 2 t) y = G3 m c (((cfg0.win 3).blk t).view.emb y)
  have hy0 : (y 0).val < 2048 := (y 0).isLt
  have hy1 : (y 1).val < 512 := (y 1).isLt
  have hemb : ((cfg0.win 3).blk t).view.emb y
      = ix2 (⟨t.val * 2048 + (y 0).val, by omega⟩ : Fin 16384) (⟨(y 1).val, hy1⟩ : Fin 512) := by
    funext a; apply Fin.ext
    match a with
    | ⟨0, _⟩ => show win0_3.index t (0 : Fin 2) * 2048 + 1 * (y 0).val = t.val * 2048 + (y 0).val; omega
    | ⟨1, _⟩ => show win0_3.index t (1 : Fin 2) * 512 + 1 * (y 1).val = (y 1).val; omega
  have hy : y = ix2 (⟨(y 0).val, hy0⟩ : Fin 2048) (⟨(y 1).val, hy1⟩ : Fin 512) := by
    funext a; apply Fin.ext
    match a with
    | ⟨0, _⟩ => rfl
    | ⟨1, _⟩ => rfl
  rw [hemb, iblk1_eq m c t, iblk2_eq m c t]
  refine (congrArg _ hy).trans ?_
  exact tile_out (aX m c) (aW1 m c) (aW2 m c) ⟨t.val, pt_lt t⟩ (iblk m c 0 t) (fun r k => iblk0_apply m c t r k)
    ⟨(y 0).val, hy0⟩ ⟨(y 1).val, hy1⟩

/-- An index of the output array is in point t's block iff each coordinate is in the block's range. -/
theorem mem_blk3 (t : Fin cfg0.N) (i : S16384x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v0_0).slice (win0_3.rect t)).set ↔ _
  rw [View.set_slice_whole, Rect.mem_set_unit]
  exact Iff.rfl

/-- Every index of the output array lies in the block of the point of its tile, and every point writes back. -/
theorem cover3 (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  refine ⟨⟨(i 0).val / 2048, lt8 (by omega)⟩, flush0_3 _, ?_⟩
  rw [mem_blk3]
  obtain ⟨e0, e1⟩ := idx3 ⟨(i 0).val / 2048, lt8 (by omega)⟩
  dsimp only at e0
  intro a
  match a with
  | ⟨0, _⟩ => show win0_3.index _ (0 : Fin 2) * 2048 ≤ (i 0).val ∧ (i 0).val < win0_3.index _ (0 : Fin 2) * 2048 + 2048; omega
  | ⟨1, _⟩ => show win0_3.index _ (1 : Fin 2) * 512 ≤ (i 1).val ∧ (i 1).val < win0_3.index _ (1 : Fin 2) * 512 + 512; omega

/-- The output array after the run. -/
theorem final3 : (dats m 0 c).arrAt 3 cfg0.N = G3 m c :=
  (dats m 0 c).arrAt_eq_of_cover 3 (G3 m c) (fun t _ => flushed3_eq m c t) (cover3)

end Cert.KernelIdeal.Fr

end
-- ==== Proof.KI.Val4.lean ====
/-
  The first correlation accumulator at the ideal instance. After point n its buffer holds what it held before (zero at a core's first
  tile) plus tile n's statistic — the input–hidden correlation at (i, h), summed over the tile's 2048 rows; after a core's last tile it holds the four tile
  statistics of the core added from zero in order, and that is what is written back to the core's slab of the
  partial array.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- Tile n's statistic. -/
def T4 (n : Fin 8) (p : Fin 2048 × Fin 32) : EReal :=
  ∑ r : Fin 2048, cx m c (Cert.Heb.tileRow n r) p.1 * Cert.Heb.act (cx m c) (cw1 m c) (Cert.Heb.tileRow n r) p.2

/-- The accumulator's buffer after point n, read at the statistic's index. -/
def acc4 (n : ℕ) (hn : n < 8) (p : Fin 2048 × Fin 32) : EReal :=
  (outsAt0 m c n (lt8 hn)).2.1 (ix3 (0 : Fin 1) p.1 p.2)

theorem acc4_reset (n : ℕ) (hn : n < 8) (h0 : n % 4 = 0) (p : Fin 2048 × Fin 32) :
    acc4 m c n hn p = 0 + T4 m c ⟨n, hn⟩ p := by
  unfold acc4 T4
  have e := outsAt0_A m c ⟨n, lt8 hn⟩ h0
  rw [show outsAt0 m c n (lt8 hn) = outsAt0 m c (⟨n, lt8 hn⟩ : Fin cfg0.N).val (⟨n, lt8 hn⟩ : Fin cfg0.N).isLt from rfl, e]
  dsimp only
  rw [out0_A_4_eq, iblk1_eq m c ⟨n, lt8 hn⟩]
  refine (tile_corr1 (aX m c) (aW1 m c) ⟨n, hn⟩ (iblk m c 0 ⟨n, lt8 hn⟩) (blk0_rows m c n hn) (k0_pay5 (F := Ideal)) p.1 p.2).trans ?_
  rw [pay5_apply]

theorem acc4_step (n : ℕ) (hn : n + 1 < 8) (h0 : ¬(n + 1) % 4 = 0) (p : Fin 2048 × Fin 32) :
    acc4 m c (n + 1) hn p = acc4 m c n (Nat.lt_of_succ_lt hn) p + T4 m c ⟨n + 1, hn⟩ p := by
  unfold acc4 T4
  have e := outsAt0_B m c ⟨n + 1, lt8 hn⟩ h0
  rw [show outsAt0 m c (n + 1) (lt8 hn) = outsAt0 m c (⟨n + 1, lt8 hn⟩ : Fin cfg0.N).val (⟨n + 1, lt8 hn⟩ : Fin cfg0.N).isLt from rfl, e]
  dsimp only
  rw [out0_B_4_eq, iblk1_eq m c ⟨n + 1, lt8 hn⟩]
  exact tile_corr1 (aX m c) (aW1 m c) ⟨n + 1, hn⟩ (iblk m c 0 ⟨n + 1, lt8 hn⟩) (blk0_rows m c (n + 1) hn) _ p.1 p.2

/-- After a core's last tile: the four tile statistics added from zero, in order. -/
theorem acc4_last : (∀ p, acc4 m c 3 (by omega) p = (((0 + T4 m c 0 p) + T4 m c 1 p) + T4 m c 2 p) + T4 m c 3 p)
    ∧ (∀ p, acc4 m c 7 (by omega) p = (((0 + T4 m c 4 p) + T4 m c 5 p) + T4 m c 6 p) + T4 m c 7 p) :=
  Cert.Heb.fold4 (acc4 m c) (T4 m c) (acc4_reset m c) (acc4_step m c)

/-! ## The partial array after the run -/

/-- The partial array: core q's slab holds core q's four tile statistics added from zero. -/
def G4 (j : S2x2048x32.Idx) : EReal :=
  if (j 0).val = 0 then (fun p => (((0 + T4 m c 0 p) + T4 m c 1 p) + T4 m c 2 p) + T4 m c 3 p) (⟨(j 1).val, (j 1).isLt⟩, ⟨(j 2).val, (j 2).isLt⟩) else (fun p => (((0 + T4 m c 4 p) + T4 m c 5 p) + T4 m c 6 p) + T4 m c 7 p) (⟨(j 1).val, (j 1).isLt⟩, ⟨(j 2).val, (j 2).isLt⟩)

/-- The window's block index at a point: the core number, and zero on the other axes. -/
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, _)

attribute [local irreducible] outsAt0 in
/-- What a core's last tile writes back is the core's slab of `G4`. -/
theorem flushed4_eq (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  have h3 : t.val % 4 = 3 := (flush0_4 t).mp hf
  have hN := pt_lt t
  obtain ⟨e0, e1, e2⟩ := idx4 t
  funext y
  show (outsAt0 m c t.val t.isLt).2.1 y = G4 m c (((cfg0.win 4).blk t).view.emb y)
  have hy0 : (y 0).val < 1 := (y 0).isLt
  have hy1 : (y 1).val < 2048 := (y 1).isLt
  have hy2 : (y 2).val < 32 := (y 2).isLt
  have hy : y = ix3 (0 : Fin 1) (⟨(y 1).val, hy1⟩ : Fin 2048) (⟨(y 2).val, hy2⟩ : Fin 32) := by
    funext a; apply Fin.ext
    match a with
    | ⟨0, _⟩ => show (y 0).val = 0; omega
    | ⟨1, _⟩ => rfl
    | ⟨2, _⟩ => rfl
  obtain ⟨n, hn⟩ := t
  have hcases : n = 3 ∨ n = 7 := by dsimp only at h3 hN; omega
  rcases hcases with rfl | rfl
  · dsimp only at e0 e1 e2
    have hemb : ((cfg0.win 4).blk ⟨3, hn⟩).view.emb y = ix3 (0 : Fin 2) (⟨(y 1).val, hy1⟩ : Fin 2048) (⟨(y 2).val, hy2⟩ : Fin 32) := by
      funext a; apply Fin.ext
      match a with
      | ⟨0, _⟩ => show win0_4.index ⟨3, hn⟩ (0 : Fin 3) * 1 + 1 * (y 0).val = 0; omega
      | ⟨1, _⟩ => show win0_4.index ⟨3, hn⟩ (1 : Fin 3) * 2048 + 1 * (y 1).val = (y 1).val; omega
      | ⟨2, _⟩ => show win0_4.index ⟨3, hn⟩ (2 : Fin 3) * 32 + 1 * (y 2).val = (y 2).val; omega
    rw [hemb]
    refine (congrArg _ hy).trans ?_
    refine ((acc4_last m c).1 ((⟨(y 1).val, hy1⟩ : Fin 2048), (⟨(y 2).val, hy2⟩ : Fin 32))).trans ?_
    unfold G4
    rw [if_pos (show (0 : Fin 2).val = 0 from rfl)]
  · dsimp only at e0 e1 e2
    have hemb : ((cfg0.win 4).blk ⟨7, hn⟩).view.emb y = ix3 (1 : Fin 2) (⟨(y 1).val, hy1⟩ : Fin 2048) (⟨(y 2).val, hy2⟩ : Fin 32) := by
      funext a; apply Fin.ext
      match a with
      | ⟨0, _⟩ => show win0_4.index ⟨7, hn⟩ (0 : Fin 3) * 1 + 1 * (y 0).val = 1; omega
      | ⟨1, _⟩ => show win0_4.index ⟨7, hn⟩ (1 : Fin 3) * 2048 + 1 * (y 1).val = (y 1).val; omega
      | ⟨2, _⟩ => show win0_4.index ⟨7, hn⟩ (2 : Fin 3) * 32 + 1 * (y 2).val = (y 2).val; omega
    rw [hemb]
    refine (congrArg _ hy).trans ?_
    refine ((acc4_last m c).2 ((⟨(y 1).val, hy1⟩ : Fin 2048), (⟨(y 2).val, hy2⟩ : Fin 32))).trans ?_
    unfold G4
    rw [if_neg (show ¬((1 : Fin 2).val = 0) from by decide)]

/-- An index of the partial array is in point t's block iff each coordinate is in the block's range. -/
theorem mem_blk4 (t : Fin cfg0.N) (i : S2x2048x32.Idx) :
    i ∈ ((cfg0.win 4).blk t).view.set ↔ ∀ a : Fin 3, win0_4.index t a * S1x2048x32.size a ≤ (i a).val ∧ (i a).val < win0_4.index t a * S1x2048x32.size a + S1x2048x32.size a := by
  show i ∈ ((View.whole main_v0_1).slice (win0_4.rect t)).set ↔ _
  rw [View.set_slice_whole, Rect.mem_set_unit]
  exact Iff.rfl

/-- Every index of the partial array lies in the block some core's last tile writes back. -/
theorem cover4 (i : S2x2048x32.Idx) : ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 32 := (i 2).isLt
  refine ⟨⟨4 * (i 0).val + 3, lt8 (by omega)⟩, (flush0_4 _).mpr (by dsimp only; omega), ?_⟩
  rw [mem_blk4]
  obtain ⟨e0, e1, e2⟩ := idx4 ⟨4 * (i 0).val + 3, lt8 (by omega)⟩
  dsimp only at e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 2048 ≤ (i 1).val ∧ (i 1).val < win0_4.index _ (1 : Fin 3) * 2048 + 2048; omega
  | ⟨2, _⟩ => show win0_4.index _ (2 : Fin 3) * 32 ≤ (i 2).val ∧ (i 2).val < win0_4.index _ (2 : Fin 3) * 32 + 32; omega

/-- The partial array after the run. -/
theorem final4 : (dats m 0 c).arrAt 4 cfg0.N = G4 m c :=
  (dats m 0 c).arrAt_eq_of_cover 4 (G4 m c) (fun t hf => flushed4_eq m c t hf) (cover4)

end Cert.KernelIdeal.Fr

end
-- ==== Proof.KI.Val5.lean ====
/-
  The second correlation accumulator at the ideal instance. After point n its buffer holds what it held before (zero at a core's first
  tile) plus tile n's statistic — the hidden–output correlation at (h, o), summed over the tile's 2048 rows; after a core's last tile it holds the four tile
  statistics of the core added from zero in order, and that is what is written back to the core's slab of the
  partial array.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- Tile n's statistic. -/
def T5 (n : Fin 8) (p : Fin 32 × Fin 512) : EReal :=
  ∑ r : Fin 2048, Cert.Heb.act (cx m c) (cw1 m c) (Cert.Heb.tileRow n r) p.1 * Cert.Heb.outv (cx m c) (cw1 m c) (cw2 m c) (Cert.Heb.tileRow n r) p.2

/-- The accumulator's buffer after point n, read at the statistic's index. -/
def acc5 (n : ℕ) (hn : n < 8) (p : Fin 32 × Fin 512) : EReal :=
  (outsAt0 m c n (lt8 hn)).2.2.1 (ix3 (0 : Fin 1) p.1 p.2)

theorem acc5_reset (n : ℕ) (hn : n < 8) (h0 : n % 4 = 0) (p : Fin 32 × Fin 512) :
    acc5 m c n hn p = 0 + T5 m c ⟨n, hn⟩ p := by
  unfold acc5 T5
  have e := outsAt0_A m c ⟨n, lt8 hn⟩ h0
  rw [show outsAt0 m c n (lt8 hn) = outsAt0 m c (⟨n, lt8 hn⟩ : Fin cfg0.N).val (⟨n, lt8 hn⟩ : Fin cfg0.N).isLt from rfl, e]
  dsimp only
  rw [out0_A_5_eq, iblk1_eq m c ⟨n, lt8 hn⟩, iblk2_eq m c ⟨n, lt8 hn⟩]
  refine (tile_corr2 (aX m c) (aW1 m c) (aW2 m c) ⟨n, hn⟩ (iblk m c 0 ⟨n, lt8 hn⟩) (blk0_rows m c n hn) (k0_pay6 (F := Ideal)) p.1 p.2).trans ?_
  rw [pay6_apply]

theorem acc5_step (n : ℕ) (hn : n + 1 < 8) (h0 : ¬(n + 1) % 4 = 0) (p : Fin 32 × Fin 512) :
    acc5 m c (n + 1) hn p = acc5 m c n (Nat.lt_of_succ_lt hn) p + T5 m c ⟨n + 1, hn⟩ p := by
  unfold acc5 T5
  have e := outsAt0_B m c ⟨n + 1, lt8 hn⟩ h0
  rw [show outsAt0 m c (n + 1) (lt8 hn) = outsAt0 m c (⟨n + 1, lt8 hn⟩ : Fin cfg0.N).val (⟨n + 1, lt8 hn⟩ : Fin cfg0.N).isLt from rfl, e]
  dsimp only
  rw [out0_B_5_eq, iblk1_eq m c ⟨n + 1, lt8 hn⟩, iblk2_eq m c ⟨n + 1, lt8 hn⟩]
  exact tile_corr2 (aX m c) (aW1 m c) (aW2 m c) ⟨n + 1, hn⟩ (iblk m c 0 ⟨n + 1, lt8 hn⟩) (blk0_rows m c (n + 1) hn) _ p.1 p.2

/-- After a core's last tile: the four tile statistics added from zero, in order. -/
theorem acc5_last : (∀ p, acc5 m c 3 (by omega) p = (((0 + T5 m c 0 p) + T5 m c 1 p) + T5 m c 2 p) + T5 m c 3 p)
    ∧ (∀ p, acc5 m c 7 (by omega) p = (((0 + T5 m c 4 p) + T5 m c 5 p) + T5 m c 6 p) + T5 m c 7 p) :=
  Cert.Heb.fold4 (acc5 m c) (T5 m c) (acc5_reset m c) (acc5_step m c)

/-! ## The partial array after the run -/

/-- The partial array: core q's slab holds core q's four tile statistics added from zero. -/
def G5 (j : S2x32x512.Idx) : EReal :=
  if (j 0).val = 0 then (fun p => (((0 + T5 m c 0 p) + T5 m c 1 p) + T5 m c 2 p) + T5 m c 3 p) (⟨(j 1).val, (j 1).isLt⟩, ⟨(j 2).val, (j 2).isLt⟩) else (fun p => (((0 + T5 m c 4 p) + T5 m c 5 p) + T5 m c 6 p) + T5 m c 7 p) (⟨(j 1).val, (j 1).isLt⟩, ⟨(j 2).val, (j 2).isLt⟩)

/-- The window's block index at a point: the core number, and zero on the other axes. -/
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)

attribute [local irreducible] outsAt0 in
/-- What a core's last tile writes back is the core's slab of `G5`. -/
theorem flushed5_eq (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  have h3 : t.val % 4 = 3 := (flush0_5 t).mp hf
  have hN := pt_lt t
  obtain ⟨e0, e1, e2⟩ := idx5 t
  funext y
  show (outsAt0 m c t.val t.isLt).2.2.1 y = G5 m c (((cfg0.win 5).blk t).view.emb y)
  have hy0 : (y 0).val < 1 := (y 0).isLt
  have hy1 : (y 1).val < 32 := (y 1).isLt
  have hy2 : (y 2).val < 512 := (y 2).isLt
  have hy : y = ix3 (0 : Fin 1) (⟨(y 1).val, hy1⟩ : Fin 32) (⟨(y 2).val, hy2⟩ : Fin 512) := by
    funext a; apply Fin.ext
    match a with
    | ⟨0, _⟩ => show (y 0).val = 0; omega
    | ⟨1, _⟩ => rfl
    | ⟨2, _⟩ => rfl
  obtain ⟨n, hn⟩ := t
  have hcases : n = 3 ∨ n = 7 := by dsimp only at h3 hN; omega
  rcases hcases with rfl | rfl
  · dsimp only at e0 e1 e2
    have hemb : ((cfg0.win 5).blk ⟨3, hn⟩).view.emb y = ix3 (0 : Fin 2) (⟨(y 1).val, hy1⟩ : Fin 32) (⟨(y 2).val, hy2⟩ : Fin 512) := by
      funext a; apply Fin.ext
      match a with
      | ⟨0, _⟩ => show win0_5.index ⟨3, hn⟩ (0 : Fin 3) * 1 + 1 * (y 0).val = 0; omega
      | ⟨1, _⟩ => show win0_5.index ⟨3, hn⟩ (1 : Fin 3) * 32 + 1 * (y 1).val = (y 1).val; omega
      | ⟨2, _⟩ => show win0_5.index ⟨3, hn⟩ (2 : Fin 3) * 512 + 1 * (y 2).val = (y 2).val; omega
    rw [hemb]
    refine (congrArg _ hy).trans ?_
    refine ((acc5_last m c).1 ((⟨(y 1).val, hy1⟩ : Fin 32), (⟨(y 2).val, hy2⟩ : Fin 512))).trans ?_
    unfold G5
    rw [if_pos (show (0 : Fin 2).val = 0 from rfl)]
  · dsimp only at e0 e1 e2
    have hemb : ((cfg0.win 5).blk ⟨7, hn⟩).view.emb y = ix3 (1 : Fin 2) (⟨(y 1).val, hy1⟩ : Fin 32) (⟨(y 2).val, hy2⟩ : Fin 512) := by
      funext a; apply Fin.ext
      match a with
      | ⟨0, _⟩ => show win0_5.index ⟨7, hn⟩ (0 : Fin 3) * 1 + 1 * (y 0).val = 1; omega
      | ⟨1, _⟩ => show win0_5.index ⟨7, hn⟩ (1 : Fin 3) * 32 + 1 * (y 1).val = (y 1).val; omega
      | ⟨2, _⟩ => show win0_5.index ⟨7, hn⟩ (2 : Fin 3) * 512 + 1 * (y 2).val = (y 2).val; omega
    rw [hemb]
    refine (congrArg _ hy).trans ?_
    refine ((acc5_last m c).2 ((⟨(y 1).val, hy1⟩ : Fin 32), (⟨(y 2).val, hy2⟩ : Fin 512))).trans ?_
    unfold G5
    rw [if_neg (show ¬((1 : Fin 2).val = 0) from by decide)]

/-- An index of the partial array is in point t's block iff each coordinate is in the block's range. -/
theorem mem_blk5 (t : Fin cfg0.N) (i : S2x32x512.Idx) :
    i ∈ ((cfg0.win 5).blk t).view.set ↔ ∀ a : Fin 3, win0_5.index t a * S1x32x512.size a ≤ (i a).val ∧ (i a).val < win0_5.index t a * S1x32x512.size a + S1x32x512.size a := by
  show i ∈ ((View.whole main_v0_2).slice (win0_5.rect t)).set ↔ _
  rw [View.set_slice_whole, Rect.mem_set_unit]
  exact Iff.rfl

/-- Every index of the partial array lies in the block some core's last tile writes back. -/
theorem cover5 (i : S2x32x512.Idx) : ∃ t : Fin cfg0.N, (cfg0.win 5).flush t = true ∧ i ∈ ((cfg0.win 5).blk t).view.set := by
  have hi0 : (i 0).val < 2 := (i 0).isLt
  have hi1 : (i 1).val < 32 := (i 1).isLt
  have hi2 : (i 2).val < 512 := (i 2).isLt
  refine ⟨⟨4 * (i 0).val + 3, lt8 (by omega)⟩, (flush0_5 _).mpr (by dsimp only; omega), ?_⟩
  rw [mem_blk5]
  obtain ⟨e0, e1, e2⟩ := idx5 ⟨4 * (i 0).val + 3, lt8 (by omega)⟩
  dsimp only at e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 32 ≤ (i 1).val ∧ (i 1).val < win0_5.index _ (1 : Fin 3) * 32 + 32; omega
  | ⟨2, _⟩ => show win0_5.index _ (2 : Fin 3) * 512 ≤ (i 2).val ∧ (i 2).val < win0_5.index _ (2 : Fin 3) * 512 + 512; omega

/-- The partial array after the run. -/
theorem final5 : (dats m 0 c).arrAt 5 cfg0.N = G5 m c :=
  (dats m 0 c).arrAt_eq_of_cover 5 (G5 m c) (fun t hf => flushed5_eq m c t hf) (cover5)

end Cert.KernelIdeal.Fr

end
-- ==== Proof.KI.Val6.lean ====
/-
  The accumulator of x's column sums at the ideal instance. After point n its buffer holds what it held before (zero at a core's first
  tile) plus tile n's statistic — the column sum of x at i, summed over the tile's 2048 rows; after a core's last tile it holds the four tile
  statistics of the core added from zero in order, and that is what is written back to the core's slab of the
  partial array.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- Tile n's statistic. -/
def T6 (n : Fin 8) (p : Fin 2048) : EReal :=
  ∑ r : Fin 2048, cx m c (Cert.Heb.tileRow n r) p

/-- The accumulator's buffer after point n, read at the statistic's index. -/
def acc6 (n : ℕ) (hn : n < 8) (p : Fin 2048) : EReal :=
  (outsAt0 m c n (lt8 hn)).2.2.2.1 (ix3 (0 : Fin 1) (0 : Fin 1) p)

theorem acc6_reset (n : ℕ) (hn : n < 8) (h0 : n % 4 = 0) (p : Fin 2048) :
    acc6 m c n hn p = 0 + T6 m c ⟨n, hn⟩ p := by
  unfold acc6 T6
  have e := outsAt0_A m c ⟨n, lt8 hn⟩ h0
  rw [show outsAt0 m c n (lt8 hn) = outsAt0 m c (⟨n, lt8 hn⟩ : Fin cfg0.N).val (⟨n, lt8 hn⟩ : Fin cfg0.N).isLt from rfl, e]
  dsimp only
  rw [out0_A_6_eq]
  refine (tile_xsum (aX m c) ⟨n, hn⟩ (iblk m c 0 ⟨n, lt8 hn⟩) (blk0_rows m c n hn) (k0_pay7 (F := Ideal)) p).trans ?_
  rw [pay7_apply]

theorem acc6_step (n : ℕ) (hn : n + 1 < 8) (h0 : ¬(n + 1) % 4 = 0) (p : Fin 2048) :
    acc6 m c (n + 1) hn p = acc6 m c n (Nat.lt_of_succ_lt hn) p + T6 m c ⟨n + 1, hn⟩ p := by
  unfold acc6 T6
  have e := outsAt0_B m c ⟨n + 1, lt8 hn⟩ h0
  rw [show outsAt0 m c (n + 1) (lt8 hn) = outsAt0 m c (⟨n + 1, lt8 hn⟩ : Fin cfg0.N).val (⟨n + 1, lt8 hn⟩ : Fin cfg0.N).isLt from rfl, e]
  dsimp only
  rw [out0_B_6_eq]
  exact tile_xsum (aX m c) ⟨n + 1, hn⟩ (iblk m c 0 ⟨n + 1, lt8 hn⟩) (blk0_rows m c (n + 1) hn) _ p

/-- After a core's last tile: the four tile statistics added from zero, in order. -/
theorem acc6_last : (∀ p, acc6 m c 3 (by omega) p = (((0 + T6 m c 0 p) + T6 m c 1 p) + T6 m c 2 p) + T6 m c 3 p)
    ∧ (∀ p, acc6 m c 7 (by omega) p = (((0 + T6 m c 4 p) + T6 m c 5 p) + T6 m c 6 p) + T6 m c 7 p) :=
  Cert.Heb.fold4 (acc6 m c) (T6 m c) (acc6_reset m c) (acc6_step m c)

/-! ## The partial array after the run -/

/-- The partial array: core q's slab holds core q's four tile statistics added from zero. -/
def G6 (j : S2x1x2048.Idx) : EReal :=
  if (j 0).val = 0 then (fun p => (((0 + T6 m c 0 p) + T6 m c 1 p) + T6 m c 2 p) + T6 m c 3 p) ⟨(j 2).val, (j 2).isLt⟩ else (fun p => (((0 + T6 m c 4 p) + T6 m c 5 p) + T6 m c 6 p) + T6 m c 7 p) ⟨(j 2).val, (j 2).isLt⟩

/-- The window's block index at a point: the core number, and zero on the other axes. -/
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

attribute [local irreducible] outsAt0 in
/-- What a core's last tile writes back is the core's slab of `G6`. -/
theorem flushed6_eq (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  have h3 : t.val % 4 = 3 := (flush0_6 t).mp hf
  have hN := pt_lt t
  obtain ⟨e0, e1, e2⟩ := idx6 t
  funext y
  show (outsAt0 m c t.val t.isLt).2.2.2.1 y = G6 m c (((cfg0.win 6).blk t).view.emb y)
  have hy0 : (y 0).val < 1 := (y 0).isLt
  have hy1 : (y 1).val < 1 := (y 1).isLt
  have hy2 : (y 2).val < 2048 := (y 2).isLt
  have hy : y = ix3 (0 : Fin 1) (0 : Fin 1) (⟨(y 2).val, hy2⟩ : Fin 2048) := by
    funext a; apply Fin.ext
    match a with
    | ⟨0, _⟩ => show (y 0).val = 0; omega
    | ⟨1, _⟩ => show (y 1).val = 0; omega
    | ⟨2, _⟩ => rfl
  obtain ⟨n, hn⟩ := t
  have hcases : n = 3 ∨ n = 7 := by dsimp only at h3 hN; omega
  rcases hcases with rfl | rfl
  · dsimp only at e0 e1 e2
    have hemb : ((cfg0.win 6).blk ⟨3, hn⟩).view.emb y = ix3 (0 : Fin 2) (⟨(y 1).val, hy1⟩ : Fin 1) (⟨(y 2).val, hy2⟩ : Fin 2048) := by
      funext a; apply Fin.ext
      match a with
      | ⟨0, _⟩ => show win0_6.index ⟨3, hn⟩ (0 : Fin 3) * 1 + 1 * (y 0).val = 0; omega
      | ⟨1, _⟩ => show win0_6.index ⟨3, hn⟩ (1 : Fin 3) * 1 + 1 * (y 1).val = (y 1).val; omega
      | ⟨2, _⟩ => show win0_6.index ⟨3, hn⟩ (2 : Fin 3) * 2048 + 1 * (y 2).val = (y 2).val; omega
    rw [hemb]
    refine (congrArg _ hy).trans ?_
    refine ((acc6_last m c).1 (⟨(y 2).val, hy2⟩ : Fin 2048)).trans ?_
    unfold G6
    rw [if_pos (show (0 : Fin 2).val = 0 from rfl)]
  · dsimp only at e0 e1 e2
    have hemb : ((cfg0.win 6).blk ⟨7, hn⟩).view.emb y = ix3 (1 : Fin 2) (⟨(y 1).val, hy1⟩ : Fin 1) (⟨(y 2).val, hy2⟩ : Fin 2048) := by
      funext a; apply Fin.ext
      match a with
      | ⟨0, _⟩ => show win0_6.index ⟨7, hn⟩ (0 : Fin 3) * 1 + 1 * (y 0).val = 1; omega
      | ⟨1, _⟩ => show win0_6.index ⟨7, hn⟩ (1 : Fin 3) * 1 + 1 * (y 1).val = (y 1).val; omega
      | ⟨2, _⟩ => show win0_6.index ⟨7, hn⟩ (2 : Fin 3) * 2048 + 1 * (y 2).val = (y 2).val; omega
    rw [hemb]
    refine (congrArg _ hy).trans ?_
    refine ((acc6_last m c).2 (⟨(y 2).val, hy2⟩ : Fin 2048)).trans ?_
    unfold G6
    rw [if_neg (show ¬((1 : Fin 2).val = 0) from by decide)]

/-- An index of the partial array is in point t's block iff each coordinate is in the block's range. -/
theorem mem_blk6 (t : Fin cfg0.N) (i : S2x1x2048.Idx) :
    i ∈ ((cfg0.win 6).blk t).view.set ↔ ∀ a : Fin 3, win0_6.index t a * S1x1x2048.size a ≤ (i a).val ∧ (i a).val < win0_6.index t a * S1x1x2048.size a + S1x1x2048.size a := by
  show i ∈ ((View.whole main_v0_3).slice (win0_6.rect t)).set ↔ _
  rw [View.set_slice_whole, Rect.mem_set_unit]
  exact Iff.rfl

/-- Every index of the partial array lies in the block some core's last tile writes back. -/
theorem cover6 (i : S2x1x2048.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 2048 := (i 2).isLt
  refine ⟨⟨4 * (i 0).val + 3, lt8 (by omega)⟩, (flush0_6 _).mpr (by dsimp only; omega), ?_⟩
  rw [mem_blk6]
  obtain ⟨e0, e1, e2⟩ := idx6 ⟨4 * (i 0).val + 3, lt8 (by omega)⟩
  dsimp only at e0
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 2048 ≤ (i 2).val ∧ (i 2).val < win0_6.index _ (2 : Fin 3) * 2048 + 2048; omega

/-- The partial array after the run. -/
theorem final6 : (dats m 0 c).arrAt 6 cfg0.N = G6 m c :=
  (dats m 0 c).arrAt_eq_of_cover 6 (G6 m c) (fun t hf => flushed6_eq m c t hf) (cover6)

end Cert.KernelIdeal.Fr

end
-- ==== Proof.KI.Val7.lean ====
/-
  The accumulator of the activations' column sums at the ideal instance. After point n its buffer holds what it held before (zero at a core's first
  tile) plus tile n's statistic — the column sum of the activations at h, summed over the tile's 2048 rows; after a core's last tile it holds the four tile
  statistics of the core added from zero in order, and that is what is written back to the core's slab of the
  partial array.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- Tile n's statistic. -/
def T7 (n : Fin 8) (p : Fin 32) : EReal :=
  ∑ r : Fin 2048, Cert.Heb.act (cx m c) (cw1 m c) (Cert.Heb.tileRow n r) p

/-- The accumulator's buffer after point n, read at the statistic's index. -/
def acc7 (n : ℕ) (hn : n < 8) (p : Fin 32) : EReal :=
  (outsAt0 m c n (lt8 hn)).2.2.2.2.1 (ix3 (0 : Fin 1) (0 : Fin 1) p)

theorem acc7_reset (n : ℕ) (hn : n < 8) (h0 : n % 4 = 0) (p : Fin 32) :
    acc7 m c n hn p = 0 + T7 m c ⟨n, hn⟩ p := by
  unfold acc7 T7
  have e := outsAt0_A m c ⟨n, lt8 hn⟩ h0
  rw [show outsAt0 m c n (lt8 hn) = outsAt0 m c (⟨n, lt8 hn⟩ : Fin cfg0.N).val (⟨n, lt8 hn⟩ : Fin cfg0.N).isLt from rfl, e]
  dsimp only
  rw [out0_A_7_eq, iblk1_eq m c ⟨n, lt8 hn⟩]
  refine (tile_asum (aX m c) (aW1 m c) ⟨n, hn⟩ (iblk m c 0 ⟨n, lt8 hn⟩) (blk0_rows m c n hn) (k0_pay8 (F := Ideal)) p).trans ?_
  rw [pay8_apply]

theorem acc7_step (n : ℕ) (hn : n + 1 < 8) (h0 : ¬(n + 1) % 4 = 0) (p : Fin 32) :
    acc7 m c (n + 1) hn p = acc7 m c n (Nat.lt_of_succ_lt hn) p + T7 m c ⟨n + 1, hn⟩ p := by
  unfold acc7 T7
  have e := outsAt0_B m c ⟨n + 1, lt8 hn⟩ h0
  rw [show outsAt0 m c (n + 1) (lt8 hn) = outsAt0 m c (⟨n + 1, lt8 hn⟩ : Fin cfg0.N).val (⟨n + 1, lt8 hn⟩ : Fin cfg0.N).isLt from rfl, e]
  dsimp only
  rw [out0_B_7_eq, iblk1_eq m c ⟨n + 1, lt8 hn⟩]
  exact tile_asum (aX m c) (aW1 m c) ⟨n + 1, hn⟩ (iblk m c 0 ⟨n + 1, lt8 hn⟩) (blk0_rows m c (n + 1) hn) _ p

/-- After a core's last tile: the four tile statistics added from zero, in order. -/
theorem acc7_last : (∀ p, acc7 m c 3 (by omega) p = (((0 + T7 m c 0 p) + T7 m c 1 p) + T7 m c 2 p) + T7 m c 3 p)
    ∧ (∀ p, acc7 m c 7 (by omega) p = (((0 + T7 m c 4 p) + T7 m c 5 p) + T7 m c 6 p) + T7 m c 7 p) :=
  Cert.Heb.fold4 (acc7 m c) (T7 m c) (acc7_reset m c) (acc7_step m c)

/-! ## The partial array after the run -/

/-- The partial array: core q's slab holds core q's four tile statistics added from zero. -/
def G7 (j : S2x1x32.Idx) : EReal :=
  if (j 0).val = 0 then (fun p => (((0 + T7 m c 0 p) + T7 m c 1 p) + T7 m c 2 p) + T7 m c 3 p) ⟨(j 2).val, (j 2).isLt⟩ else (fun p => (((0 + T7 m c 4 p) + T7 m c 5 p) + T7 m c 6 p) + T7 m c 7 p) ⟨(j 2).val, (j 2).isLt⟩

/-- The window's block index at a point: the core number, and zero on the other axes. -/
theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, _)

attribute [local irreducible] outsAt0 in
/-- What a core's last tile writes back is the core's slab of `G7`. -/
theorem flushed7_eq (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  have h3 : t.val % 4 = 3 := (flush0_7 t).mp hf
  have hN := pt_lt t
  obtain ⟨e0, e1, e2⟩ := idx7 t
  funext y
  show (outsAt0 m c t.val t.isLt).2.2.2.2.1 y = G7 m c (((cfg0.win 7).blk t).view.emb y)
  have hy0 : (y 0).val < 1 := (y 0).isLt
  have hy1 : (y 1).val < 1 := (y 1).isLt
  have hy2 : (y 2).val < 32 := (y 2).isLt
  have hy : y = ix3 (0 : Fin 1) (0 : Fin 1) (⟨(y 2).val, hy2⟩ : Fin 32) := by
    funext a; apply Fin.ext
    match a with
    | ⟨0, _⟩ => show (y 0).val = 0; omega
    | ⟨1, _⟩ => show (y 1).val = 0; omega
    | ⟨2, _⟩ => rfl
  obtain ⟨n, hn⟩ := t
  have hcases : n = 3 ∨ n = 7 := by dsimp only at h3 hN; omega
  rcases hcases with rfl | rfl
  · dsimp only at e0 e1 e2
    have hemb : ((cfg0.win 7).blk ⟨3, hn⟩).view.emb y = ix3 (0 : Fin 2) (⟨(y 1).val, hy1⟩ : Fin 1) (⟨(y 2).val, hy2⟩ : Fin 32) := by
      funext a; apply Fin.ext
      match a with
      | ⟨0, _⟩ => show win0_7.index ⟨3, hn⟩ (0 : Fin 3) * 1 + 1 * (y 0).val = 0; omega
      | ⟨1, _⟩ => show win0_7.index ⟨3, hn⟩ (1 : Fin 3) * 1 + 1 * (y 1).val = (y 1).val; omega
      | ⟨2, _⟩ => show win0_7.index ⟨3, hn⟩ (2 : Fin 3) * 32 + 1 * (y 2).val = (y 2).val; omega
    rw [hemb]
    refine (congrArg _ hy).trans ?_
    refine ((acc7_last m c).1 (⟨(y 2).val, hy2⟩ : Fin 32)).trans ?_
    unfold G7
    rw [if_pos (show (0 : Fin 2).val = 0 from rfl)]
  · dsimp only at e0 e1 e2
    have hemb : ((cfg0.win 7).blk ⟨7, hn⟩).view.emb y = ix3 (1 : Fin 2) (⟨(y 1).val, hy1⟩ : Fin 1) (⟨(y 2).val, hy2⟩ : Fin 32) := by
      funext a; apply Fin.ext
      match a with
      | ⟨0, _⟩ => show win0_7.index ⟨7, hn⟩ (0 : Fin 3) * 1 + 1 * (y 0).val = 1; omega
      | ⟨1, _⟩ => show win0_7.index ⟨7, hn⟩ (1 : Fin 3) * 1 + 1 * (y 1).val = (y 1).val; omega
      | ⟨2, _⟩ => show win0_7.index ⟨7, hn⟩ (2 : Fin 3) * 32 + 1 * (y 2).val = (y 2).val; omega
    rw [hemb]
    refine (congrArg _ hy).trans ?_
    refine ((acc7_last m c).2 (⟨(y 2).val, hy2⟩ : Fin 32)).trans ?_
    unfold G7
    rw [if_neg (show ¬((1 : Fin 2).val = 0) from by decide)]

/-- An index of the partial array is in point t's block iff each coordinate is in the block's range. -/
theorem mem_blk7 (t : Fin cfg0.N) (i : S2x1x32.Idx) :
    i ∈ ((cfg0.win 7).blk t).view.set ↔ ∀ a : Fin 3, win0_7.index t a * S1x1x32.size a ≤ (i a).val ∧ (i a).val < win0_7.index t a * S1x1x32.size a + S1x1x32.size a := by
  show i ∈ ((View.whole main_v0_4).slice (win0_7.rect t)).set ↔ _
  rw [View.set_slice_whole, Rect.mem_set_unit]
  exact Iff.rfl

/-- Every index of the partial array lies in the block some core's last tile writes back. -/
theorem cover7 (i : S2x1x32.Idx) : ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 32 := (i 2).isLt
  refine ⟨⟨4 * (i 0).val + 3, lt8 (by omega)⟩, (flush0_7 _).mpr (by dsimp only; omega), ?_⟩
  rw [mem_blk7]
  obtain ⟨e0, e1, e2⟩ := idx7 ⟨4 * (i 0).val + 3, lt8 (by omega)⟩
  dsimp only at e0
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 1 ≤ (i 1).val ∧ (i 1).val < win0_7.index _ (1 : Fin 3) * 1 + 1; omega
  | ⟨2, _⟩ => show win0_7.index _ (2 : Fin 3) * 32 ≤ (i 2).val ∧ (i 2).val < win0_7.index _ (2 : Fin 3) * 32 + 32; omega

/-- The partial array after the run. -/
theorem final7 : (dats m 0 c).arrAt 7 cfg0.N = G7 m c :=
  (dats m 0 c).arrAt_eq_of_cover 7 (G7 m c) (fun t hf => flushed7_eq m c t hf) (cover7)

end Cert.KernelIdeal.Fr

end
-- ==== Proof.KI.Val8.lean ====
/-
  The accumulator of the outputs' column sums at the ideal instance. After point n its buffer holds what it held before (zero at a core's first
  tile) plus tile n's statistic — the column sum of the outputs at o, summed over the tile's 2048 rows; after a core's last tile it holds the four tile
  statistics of the core added from zero in order, and that is what is written back to the core's slab of the
  partial array.
-/
import proofs.«180996_j60825326846529_2_alg».proof.Proof.KI.ValBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-- Tile n's statistic. -/
def T8 (n : Fin 8) (p : Fin 512) : EReal :=
  ∑ r : Fin 2048, Cert.Heb.outv (cx m c) (cw1 m c) (cw2 m c) (Cert.Heb.tileRow n r) p

/-- The accumulator's buffer after point n, read at the statistic's index. -/
def acc8 (n : ℕ) (hn : n < 8) (p : Fin 512) : EReal :=
  (outsAt0 m c n (lt8 hn)).2.2.2.2.2 (ix3 (0 : Fin 1) (0 : Fin 1) p)

theorem acc8_reset (n : ℕ) (hn : n < 8) (h0 : n % 4 = 0) (p : Fin 512) :
    acc8 m c n hn p = 0 + T8 m c ⟨n, hn⟩ p := by
  unfold acc8 T8
  have e := outsAt0_A m c ⟨n, lt8 hn⟩ h0
  rw [show outsAt0 m c n (lt8 hn) = outsAt0 m c (⟨n, lt8 hn⟩ : Fin cfg0.N).val (⟨n, lt8 hn⟩ : Fin cfg0.N).isLt from rfl, e]
  dsimp only
  rw [out0_A_8_eq, iblk1_eq m c ⟨n, lt8 hn⟩, iblk2_eq m c ⟨n, lt8 hn⟩]
  refine (tile_osum (aX m c) (aW1 m c) (aW2 m c) ⟨n, hn⟩ (iblk m c 0 ⟨n, lt8 hn⟩) (blk0_rows m c n hn) (k0_pay9 (F := Ideal)) p).trans ?_
  rw [pay9_apply]

theorem acc8_step (n : ℕ) (hn : n + 1 < 8) (h0 : ¬(n + 1) % 4 = 0) (p : Fin 512) :
    acc8 m c (n + 1) hn p = acc8 m c n (Nat.lt_of_succ_lt hn) p + T8 m c ⟨n + 1, hn⟩ p := by
  unfold acc8 T8
  have e := outsAt0_B m c ⟨n + 1, lt8 hn⟩ h0
  rw [show outsAt0 m c (n + 1) (lt8 hn) = outsAt0 m c (⟨n + 1, lt8 hn⟩ : Fin cfg0.N).val (⟨n + 1, lt8 hn⟩ : Fin cfg0.N).isLt from rfl, e]
  dsimp only
  rw [out0_B_8_eq, iblk1_eq m c ⟨n + 1, lt8 hn⟩, iblk2_eq m c ⟨n + 1, lt8 hn⟩]
  exact tile_osum (aX m c) (aW1 m c) (aW2 m c) ⟨n + 1, hn⟩ (iblk m c 0 ⟨n + 1, lt8 hn⟩) (blk0_rows m c (n + 1) hn) _ p

/-- After a core's last tile: the four tile statistics added from zero, in order. -/
theorem acc8_last : (∀ p, acc8 m c 3 (by omega) p = (((0 + T8 m c 0 p) + T8 m c 1 p) + T8 m c 2 p) + T8 m c 3 p)
    ∧ (∀ p, acc8 m c 7 (by omega) p = (((0 + T8 m c 4 p) + T8 m c 5 p) + T8 m c 6 p) + T8 m c 7 p) :=
  Cert.Heb.fold4 (acc8 m c) (T8 m c) (acc8_reset m c) (acc8_step m c)

/-! ## The partial array after the run -/

/-- The partial array: core q's slab holds core q's four tile statistics added from zero. -/
def G8 (j : S2x1x512.Idx) : EReal :=
  if (j 0).val = 0 then (fun p => (((0 + T8 m c 0 p) + T8 m c 1 p) + T8 m c 2 p) + T8 m c 3 p) ⟨(j 2).val, (j 2).isLt⟩ else (fun p => (((0 + T8 m c 4 p) + T8 m c 5 p) + T8 m c 6 p) + T8 m c 7 p) ⟨(j 2).val, (j 2).isLt⟩

/-- The window's block index at a point: the core number, and zero on the other axes. -/
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)

attribute [local irreducible] outsAt0 in
/-- What a core's last tile writes back is the core's slab of `G8`. -/
theorem flushed8_eq (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after0_8]
  have h3 : t.val % 4 = 3 := (flush0_8 t).mp hf
  have hN := pt_lt t
  obtain ⟨e0, e1, e2⟩ := idx8 t
  funext y
  show (outsAt0 m c t.val t.isLt).2.2.2.2.2 y = G8 m c (((cfg0.win 8).blk t).view.emb y)
  have hy0 : (y 0).val < 1 := (y 0).isLt
  have hy1 : (y 1).val < 1 := (y 1).isLt
  have hy2 : (y 2).val < 512 := (y 2).isLt
  have hy : y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  obtain ⟨n, hn⟩ := t
  have hcases : n = 3 ∨ n = 7 := by dsimp only at h3 hN; omega
  rcases hcases with rfl | rfl
  · dsimp only at e0 e1 e2
    have hemb : ((cfg0.win 8).blk ⟨3, hn⟩).view.emb y = ix3 (0 : Fin 2) (⟨(y 1).val, hy1⟩ : Fin 1) (⟨(y 2).val, hy2⟩ : Fin 512) := by
      funext a; apply Fin.ext
      match a with
      | ⟨0, _⟩ => show win0_8.index ⟨3, hn⟩ (0 : Fin 3) * 1 + 1 * (y 0).val = 0; omega
      | ⟨1, _⟩ => show win0_8.index ⟨3, hn⟩ (1 : Fin 3) * 1 + 1 * (y 1).val = (y 1).val; omega
      | ⟨2, _⟩ => show win0_8.index ⟨3, hn⟩ (2 : Fin 3) * 512 + 1 * (y 2).val = (y 2).val; omega
    rw [hemb]
    refine (congrArg _ hy).trans ?_
    refine ((acc8_last m c).1 (⟨(y 2).val, hy2⟩ : Fin 512)).trans ?_
    unfold G8
    rw [if_pos (show (0 : Fin 2).val = 0 from rfl)]
  · dsimp only at e0 e1 e2
    have hemb : ((cfg0.win 8).blk ⟨7, hn⟩).view.emb y = ix3 (1 : Fin 2) (⟨(y 1).val, hy1⟩ : Fin 1) (⟨(y 2).val, hy2⟩ : Fin 512) := by
      funext a; apply Fin.ext
      match a with
      | ⟨0, _⟩ => show win0_8.index ⟨7, hn⟩ (0 : Fin 3) * 1 + 1 * (y 0).val = 1; omega
      | ⟨1, _⟩ => show win0_8.index ⟨7, hn⟩ (1 : Fin 3) * 1 + 1 * (y 1).val = (y 1).val; omega
      | ⟨2, _⟩ => show win0_8.index ⟨7, hn⟩ (2 : Fin 3) * 512 + 1 * (y 2).val = (y 2).val; omega
    rw [hemb]
    refine (congrArg _ hy).trans ?_
    refine ((acc8_last m c).2 (⟨(y 2).val, hy2⟩ : Fin 512)).trans ?_
    unfold G8
    rw [if_neg (show ¬((1 : Fin 2).val = 0) from by decide)]

/-- An index of the partial array is in point t's block iff each coordinate is in the block's range. -/
theorem mem_blk8 (t : Fin cfg0.N) (i : S2x1x512.Idx) :
    i ∈ ((cfg0.win 8).blk t).view.set ↔ ∀ a : Fin 3, win0_8.index t a * S1x1x512.size a ≤ (i a).val ∧ (i a).val < win0_8.index t a * S1x1x512.size a + S1x1x512.size a := by
  show i ∈ ((View.whole main_v0_5).slice (win0_8.rect t)).set ↔ _
  rw [View.set_slice_whole, Rect.mem_set_unit]
  exact Iff.rfl

/-- Every index of the partial array lies in the block some core's last tile writes back. -/
theorem cover8 (i : S2x1x512.Idx) : ∃ t : Fin cfg0.N, (cfg0.win 8).flush t = true ∧ i ∈ ((cfg0.win 8).blk t).view.set := by
  have hi0 : (i 0).val < 2 := (i 0).isLt
  have hi1 : (i 1).val < 1 := (i 1).isLt
  have hi2 : (i 2).val < 512 := (i 2).isLt
  refine ⟨⟨4 * (i 0).val + 3, lt8 (by omega)⟩, (flush0_8 _).mpr (by dsimp only; omega), ?_⟩
  rw [mem_blk8]
  obtain ⟨e0, e1, e2⟩ := idx8 ⟨4 * (i 0).val + 3, lt8 (by omega)⟩
  dsimp only at e0
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 1 ≤ (i 1).val ∧ (i 1).val < win0_8.index _ (1 : Fin 3) * 1 + 1; omega
  | ⟨2, _⟩ => show win0_8.index _ (2 : Fin 3) * 512 ≤ (i 2).val ∧ (i 2).val < win0_8.index _ (2 : Fin 3) * 512 + 512; omega

/-- The partial array after the run. -/
theorem final8 : (dats m 0 c).arrAt 8 cfg0.N = G8 m c :=
  (dats m 0 c).arrAt_eq_of_cover 8 (G8 m c) (fun t hf => flushed8_eq m c t hf) (cover8)

end Cert.KernelIdeal.Fr

end
-- ==== Proof.KTailHead.lean ====
/-
  The first lines after the grid: the per-core partial statistics summed over the two cores.

  The grid leaves, per core c ∈ {0,1}, partial sums P(c,·,·). The lines that follow add the two cores' parts,
  starting from the zero word, so each statistic at an entry is P(0,·,·) + P(1,·,·); two of the row vectors
  are then also read as columns ([1,a] reshaped to [a,1] keeps the row-major order, so the column's entry i is
  the row's entry i).
-/
import proofs.«180996_j60825326846529_2_alg».proof.Proof.Gen.KernelIdeal.Launch
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The sum over a leading axis of extent two, from the zero word: entry (i,j) is P(0,i,j) + P(1,i,j). -/
theorem coresum_apply {a b : Nat} (P : FVec Ideal ⟨3, ![2, a, b]⟩ .f32)
    (h' : (⟨3, ![2, a, b]⟩ : Shape).ReducesTo [0] ⟨2, ![a, b]⟩)
    (h : (⟨3, ![2, a, b]⟩ : Shape).Reduces [0] ⟨2, ![a, b]⟩) (hu : 0 < S_.numel) (i : Fin a) (j : Fin b) :
    Host.reduceAdd P (constant (F := Ideal) S_ .f32 0x00000000#32) h' hu (ix2 i j)
      = P (ix3 (0 : Fin 2) i j) + P (ix3 (1 : Fin 2) i j) := by
  refine (Ideal.hostReduceAdd_single h' h P
    (constant (F := Ideal) S_ .f32 0x00000000#32 (Shape.Idx.first hu)) (ix2 i j)).trans ?_
  show Ideal.ofBits .f32 0x00000000#32 + ∑ k : Fin 2, P (h.lift (ix2 i j) k) = _
  rw [Ideal.ofBits_zero_f32, zero_add, Fin.sum_univ_two]
  refine congrArg₂ (· + ·) (congrArg P ?_) (congrArg P ?_) <;>
    exact funext fun c => Fin.ext (by match c with | ⟨0, _⟩ => rfl | ⟨1, _⟩ => rfl | ⟨2, _⟩ => rfl)

/-- A row [1,a] read as a column [a,1]: the column's entry (i,0) is the row's entry (0,i). -/
theorem shapeCast_1a_a1_apply {α : Type} {a : Nat} (x : (⟨2, ![1, a]⟩ : Shape).Idx → α)
    (h : (⟨2, ![1, a]⟩ : Shape).ShapeCasts ⟨2, ![a, 1]⟩) (i : Fin a) (z : Fin 1) :
    shapeCast ⟨2, ![a, 1]⟩ x h (ix2 i z) = x (ix2 (0 : Fin 1) i) :=
  shapeCast_apply x h _ _ (by
    have hz : z.val = 0 := by omega
    rw [Shape.rowMajor_val_two, Shape.rowMajor_val_two]
    show 0 * a + i.val = i.val * 1 + z.val
    rw [hz]; omega)

/-- Input–hidden correlation summed over the cores. -/
def kcorr1 (P1 : FVec Ideal S2x2048x32 .f32) : FVec Ideal S2048x32 .f32 :=
  Host.reduceAdd P1 (constant (F := Ideal) S_ .f32 0x00000000#32) reducesTo_S2x2048x32_S2048x32_d0 h_S_

/-- Hidden–output correlation summed over the cores. -/
def kcorr2 (P2 : FVec Ideal S2x32x512 .f32) : FVec Ideal S32x512 .f32 :=
  Host.reduceAdd P2 (constant (F := Ideal) S_ .f32 0x00000000#32) reducesTo_S2x32x512_S32x512_d0 h_S_

/-- Column sums of the batch summed over the cores, as a row. -/
def kxrow (P3 : FVec Ideal S2x1x2048 .f32) : FVec Ideal S1x2048 .f32 :=
  Host.reduceAdd P3 (constant (F := Ideal) S_ .f32 0x00000000#32) reducesTo_S2x1x2048_S1x2048_d0 h_S_

/-- Column sums of the activations summed over the cores, as a row. -/
def karow (P4 : FVec Ideal S2x1x32 .f32) : FVec Ideal S1x32 .f32 :=
  Host.reduceAdd P4 (constant (F := Ideal) S_ .f32 0x00000000#32) reducesTo_S2x1x32_S1x32_d0 h_S_

/-- Column sums of the outputs summed over the cores, as a row. -/
def korow (P5 : FVec Ideal S2x1x512 .f32) : FVec Ideal S1x512 .f32 :=
  Host.reduceAdd P5 (constant (F := Ideal) S_ .f32 0x00000000#32) reducesTo_S2x1x512_S1x512_d0 h_S_

/-- Column sums of the batch summed over the cores, as a column. -/
def kxcol (P3 : FVec Ideal S2x1x2048 .f32) : FVec Ideal S2048x1 .f32 :=
  shapeCast S2048x1 (kxrow P3) shapeCasts_S1x2048_S2048x1

/-- Column sums of the activations summed over the cores, as a column. -/
def kacol (P4 : FVec Ideal S2x1x32 .f32) : FVec Ideal S32x1 .f32 :=
  shapeCast S32x1 (karow P4) shapeCasts_S1x32_S32x1

theorem kcorr1_apply (P1 : FVec Ideal S2x2048x32 .f32) (i : Fin 2048) (h : Fin 32) :
    kcorr1 P1 (ix2 i h) = P1 (ix3 (0 : Fin 2) i h) + P1 (ix3 (1 : Fin 2) i h) :=
  coresum_apply P1 reducesTo_S2x2048x32_S2048x32_d0 (by decide) h_S_ i h

theorem kcorr2_apply (P2 : FVec Ideal S2x32x512 .f32) (h : Fin 32) (o : Fin 512) :
    kcorr2 P2 (ix2 h o) = P2 (ix3 (0 : Fin 2) h o) + P2 (ix3 (1 : Fin 2) h o) :=
  coresum_apply P2 reducesTo_S2x32x512_S32x512_d0 (by decide) h_S_ h o

theorem kxrow_apply (P3 : FVec Ideal S2x1x2048 .f32) (z : Fin 1) (i : Fin 2048) :
    kxrow P3 (ix2 z i) = P3 (ix3 (0 : Fin 2) z i) + P3 (ix3 (1 : Fin 2) z i) :=
  coresum_apply P3 reducesTo_S2x1x2048_S1x2048_d0 (by decide) h_S_ z i

theorem karow_apply (P4 : FVec Ideal S2x1x32 .f32) (z : Fin 1) (h : Fin 32) :
    karow P4 (ix2 z h) = P4 (ix3 (0 : Fin 2) z h) + P4 (ix3 (1 : Fin 2) z h) :=
  coresum_apply P4 reducesTo_S2x1x32_S1x32_d0 (by decide) h_S_ z h

theorem korow_apply (P5 : FVec Ideal S2x1x512 .f32) (z : Fin 1) (o : Fin 512) :
    korow P5 (ix2 z o) = P5 (ix3 (0 : Fin 2) z o) + P5 (ix3 (1 : Fin 2) z o) :=
  coresum_apply P5 reducesTo_S2x1x512_S1x512_d0 (by decide) h_S_ z o

theorem kxcol_apply (P3 : FVec Ideal S2x1x2048 .f32) (i : Fin 2048) (z : Fin 1) :
    kxcol P3 (ix2 i z) = P3 (ix3 (0 : Fin 2) (0 : Fin 1) i) + P3 (ix3 (1 : Fin 2) (0 : Fin 1) i) :=
  (shapeCast_1a_a1_apply (kxrow P3) shapeCasts_S1x2048_S2048x1 i z).trans (kxrow_apply P3 (0 : Fin 1) i)

theorem kacol_apply (P4 : FVec Ideal S2x1x32 .f32) (h : Fin 32) (z : Fin 1) :
    kacol P4 (ix2 h z) = P4 (ix3 (0 : Fin 2) (0 : Fin 1) h) + P4 (ix3 (1 : Fin 2) (0 : Fin 1) h) :=
  (shapeCast_1a_a1_apply (karow P4) shapeCasts_S1x32_S32x1 h z).trans (karow_apply P4 (0 : Fin 1) h)

end Cert.KernelIdeal.Pay

end
-- ==== Proof.KI.Bridge.lean ====
/-
  From the two cores' partial arrays to the specification's statistics.

  Each partial array holds, in core q's slab, the core's four tile statistics added from zero in order. The lines after
  the grid add the two slabs. A tile statistic is a sum over the tile's 2048 rows, and the eight tiles' rows are the
  batch, so the two slabs add up to the sum over the batch: the specification's correlation or column sum.
-/
import proofs.«180996_j60825326846529_2_alg».proof.Proof.KI.Val4
import proofs.«180996_j60825326846529_2_alg».proof.Proof.KI.Val5
import proofs.«180996_j60825326846529_2_alg».proof.Proof.KI.Val6
import proofs.«180996_j60825326846529_2_alg».proof.Proof.KI.Val7
import proofs.«180996_j60825326846529_2_alg».proof.Proof.KI.Val8
import proofs.«180996_j60825326846529_2_alg».proof.Proof.KTailHead
import proofs.«180996_j60825326846529_2_alg».proof.Proof.FoldSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open ValueIdx Cert.KernelIdeal.Pay

/-! ## The slabs of the partial arrays -/

theorem G4_core0 (i : Fin 2048) (h : Fin 32) :
    G4 m c (ix3 (0 : Fin 2) i h) = (((0 + T4 m c 0 (i, h)) + T4 m c 1 (i, h)) + T4 m c 2 (i, h)) + T4 m c 3 (i, h) := by
  unfold G4; exact if_pos rfl
theorem G4_core1 (i : Fin 2048) (h : Fin 32) :
    G4 m c (ix3 (1 : Fin 2) i h) = (((0 + T4 m c 4 (i, h)) + T4 m c 5 (i, h)) + T4 m c 6 (i, h)) + T4 m c 7 (i, h) := by
  unfold G4; exact if_neg (show ¬((1 : Fin 2).val = 0) by decide)

theorem G5_core0 (h : Fin 32) (o : Fin 512) :
    G5 m c (ix3 (0 : Fin 2) h o) = (((0 + T5 m c 0 (h, o)) + T5 m c 1 (h, o)) + T5 m c 2 (h, o)) + T5 m c 3 (h, o) := by
  unfold G5; exact if_pos rfl
theorem G5_core1 (h : Fin 32) (o : Fin 512) :
    G5 m c (ix3 (1 : Fin 2) h o) = (((0 + T5 m c 4 (h, o)) + T5 m c 5 (h, o)) + T5 m c 6 (h, o)) + T5 m c 7 (h, o) := by
  unfold G5; exact if_neg (show ¬((1 : Fin 2).val = 0) by decide)

theorem G6_core0 (z : Fin 1) (i : Fin 2048) :
    G6 m c (ix3 (0 : Fin 2) z i) = (((0 + T6 m c 0 i) + T6 m c 1 i) + T6 m c 2 i) + T6 m c 3 i := by
  unfold G6; exact if_pos rfl
theorem G6_core1 (z : Fin 1) (i : Fin 2048) :
    G6 m c (ix3 (1 : Fin 2) z i) = (((0 + T6 m c 4 i) + T6 m c 5 i) + T6 m c 6 i) + T6 m c 7 i := by
  unfold G6; exact if_neg (show ¬((1 : Fin 2).val = 0) by decide)

theorem G7_core0 (z : Fin 1) (h : Fin 32) :
    G7 m c (ix3 (0 : Fin 2) z h) = (((0 + T7 m c 0 h) + T7 m c 1 h) + T7 m c 2 h) + T7 m c 3 h := by
  unfold G7; exact if_pos rfl
theorem G7_core1 (z : Fin 1) (h : Fin 32) :
    G7 m c (ix3 (1 : Fin 2) z h) = (((0 + T7 m c 4 h) + T7 m c 5 h) + T7 m c 6 h) + T7 m c 7 h := by
  unfold G7; exact if_neg (show ¬((1 : Fin 2).val = 0) by decide)

theorem G8_core0 (z : Fin 1) (o : Fin 512) :
    G8 m c (ix3 (0 : Fin 2) z o) = (((0 + T8 m c 0 o) + T8 m c 1 o) + T8 m c 2 o) + T8 m c 3 o := by
  unfold G8; exact if_pos rfl
theorem G8_core1 (z : Fin 1) (o : Fin 512) :
    G8 m c (ix3 (1 : Fin 2) z o) = (((0 + T8 m c 4 o) + T8 m c 5 o) + T8 m c 6 o) + T8 m c 7 o := by
  unfold G8; exact if_neg (show ¬((1 : Fin 2).val = 0) by decide)

/-! ## The statistics after the cores are added -/

/-- The input–hidden correlation. -/
theorem bridge_corr1 : kcorr1 (G4 m c) = fun j => Cert.Heb.corr1 (cx m c) (cw1 m c) (j 0) (j 1) := by
  funext j
  obtain ⟨i, h, rfl⟩ : ∃ (i : Fin 2048) (h : Fin 32), j = ix2 i h := ⟨j 0, j 1, eq_ix2 j⟩
  rw [kcorr1_apply, G4_core0, G4_core1]
  show _ = Cert.Heb.corr1 (cx m c) (cw1 m c) i h
  unfold T4 Cert.Heb.corr1
  exact Cert.Heb.cores_batch (fun b => cx m c b i * Cert.Heb.act (cx m c) (cw1 m c) b h)

/-- The hidden–output correlation. -/
theorem bridge_corr2 : kcorr2 (G5 m c) = fun j => Cert.Heb.corr2 (cx m c) (cw1 m c) (cw2 m c) (j 0) (j 1) := by
  funext j
  obtain ⟨h, o, rfl⟩ : ∃ (h : Fin 32) (o : Fin 512), j = ix2 h o := ⟨j 0, j 1, eq_ix2 j⟩
  rw [kcorr2_apply, G5_core0, G5_core1]
  show _ = Cert.Heb.corr2 (cx m c) (cw1 m c) (cw2 m c) h o
  unfold T5 Cert.Heb.corr2
  exact Cert.Heb.cores_batch (fun b => Cert.Heb.act (cx m c) (cw1 m c) b h * Cert.Heb.outv (cx m c) (cw1 m c) (cw2 m c) b o)

/-- The column sums of the batch, as a column. -/
theorem bridge_xcol : kxcol (G6 m c) = fun j => Cert.Heb.xsum (cx m c) (j 0) := by
  funext j
  obtain ⟨i, z, rfl⟩ : ∃ (i : Fin 2048) (z : Fin 1), j = ix2 i z := ⟨j 0, j 1, eq_ix2 j⟩
  rw [kxcol_apply, G6_core0, G6_core1]
  show _ = Cert.Heb.xsum (cx m c) i
  unfold T6 Cert.Heb.xsum
  exact Cert.Heb.cores_batch (fun b => cx m c b i)

/-- The column sums of the activations, as a row. -/
theorem bridge_arow : karow (G7 m c) = fun j => Cert.Heb.asum (cx m c) (cw1 m c) (j 1) := by
  funext j
  obtain ⟨z, h, rfl⟩ : ∃ (z : Fin 1) (h : Fin 32), j = ix2 z h := ⟨j 0, j 1, eq_ix2 j⟩
  rw [karow_apply, G7_core0, G7_core1]
  show _ = Cert.Heb.asum (cx m c) (cw1 m c) h
  unfold T7 Cert.Heb.asum
  exact Cert.Heb.cores_batch (fun b => Cert.Heb.act (cx m c) (cw1 m c) b h)

/-- The column sums of the activations, as a column. -/
theorem bridge_acol : kacol (G7 m c) = fun j => Cert.Heb.asum (cx m c) (cw1 m c) (j 0) := by
  funext j
  obtain ⟨h, z, rfl⟩ : ∃ (h : Fin 32) (z : Fin 1), j = ix2 h z := ⟨j 0, j 1, eq_ix2 j⟩
  rw [kacol_apply, G7_core0, G7_core1]
  show _ = Cert.Heb.asum (cx m c) (cw1 m c) h
  unfold T7 Cert.Heb.asum
  exact Cert.Heb.cores_batch (fun b => Cert.Heb.act (cx m c) (cw1 m c) b h)

/-- The column sums of the outputs, as a row. -/
theorem bridge_orow : korow (G8 m c) = fun j => Cert.Heb.osum (cx m c) (cw1 m c) (cw2 m c) (j 1) := by
  funext j
  obtain ⟨z, o, rfl⟩ : ∃ (z : Fin 1) (o : Fin 512), j = ix2 z o := ⟨j 0, j 1, eq_ix2 j⟩
  rw [korow_apply, G8_core0, G8_core1]
  show _ = Cert.Heb.osum (cx m c) (cw1 m c) (cw2 m c) o
  unfold T8 Cert.Heb.osum
  exact Cert.Heb.cores_batch (fun b => Cert.Heb.outv (cx m c) (cw1 m c) (cw2 m c) b o)

end Cert.KernelIdeal.Fr

end
-- ==== Proof.RefTail.lean ====
/-
  The reference program's last stages as functions of the batch statistics.

  The updated first weight matrix is w1 + (B·d + a·corr1 + b·xsum + c·asum)ᵀ, with a, b, c, d the four planes of the
  first 65536 coefficient rows and B the batch size as its f32 word, divided row by row by its Euclidean norm; the
  second likewise from the last 16384 coefficient rows and corr2, asum, osum. Each of the program's two last results
  is that function of the coefficient array, the weight matrix and three statistics arrays.
-/
import proofs.«180996_j60825326846529_2_alg».proof.Proof.Gen.ReferenceIdeal.Read

noncomputable section

namespace Cert.ReferenceIdeal.RefValue

open Cert.ReferenceIdeal Cert.ReferenceIdeal.Gen Cert.ReferenceIdeal.Read Idealize.ShloMosaic

variable {F : FTy → Type} [FloatOps F]

/-- The first weight matrix after the update, before normalisation, from the coefficient array, the input–hidden
    correlation [2048,32], the column of batch sums [2048,1] and the row of activation sums [1,32]. -/
def updW1 (H : (⟨S81920x4, .f32⟩ : BufTy).Contents (Elt F)) (W1 : (⟨S32x2048, .f32⟩ : BufTy).Contents (Elt F))
    (C : (⟨S2048x32, .f32⟩ : BufTy).Contents (Elt F)) (xc : (⟨S2048x1, .f32⟩ : BufTy).Contents (Elt F))
    (ar : (⟨S1x32, .f32⟩ : BufTy).Contents (Elt F)) : (⟨S32x2048, .f32⟩ : BufTy).Contents (Elt F) :=
  addf W1 (transpose S32x2048 [1, 0] (addf (addf (addf (mulf (broadcastInDim S2048x32 ![] bcast_S_S2048x32 (constant S_ .f32 0x46800000#32)) (shapeCast _ (extractStridedSlice S2048x32x1 ![0, 0, 3] (shapeCast _ (extractStridedSlice S65536x4 ![0, 0] H slices_S81920x4_S65536x4_0_0) shapeCasts_S65536x4_S2048x32x4) slices_S2048x32x4_S2048x32x1_0_0_3) shapeCasts_S2048x32x1_S2048x32)) (mulf (shapeCast _ (extractStridedSlice S2048x32x1 ![0, 0, 0] (shapeCast _ (extractStridedSlice S65536x4 ![0, 0] H slices_S81920x4_S65536x4_0_0) shapeCasts_S65536x4_S2048x32x4) slices_S2048x32x4_S2048x32x1_0_0_0) shapeCasts_S2048x32x1_S2048x32) C)) (mulf (shapeCast _ (extractStridedSlice S2048x32x1 ![0, 0, 1] (shapeCast _ (extractStridedSlice S65536x4 ![0, 0] H slices_S81920x4_S65536x4_0_0) shapeCasts_S65536x4_S2048x32x4) slices_S2048x32x4_S2048x32x1_0_0_1) shapeCasts_S2048x32x1_S2048x32) (broadcastInDim S2048x32 ![0, 1] bcast_S2048x1_S2048x32_0_1 xc))) (mulf (shapeCast _ (extractStridedSlice S2048x32x1 ![0, 0, 2] (shapeCast _ (extractStridedSlice S65536x4 ![0, 0] H slices_S81920x4_S65536x4_0_0) shapeCasts_S65536x4_S2048x32x4) slices_S2048x32x4_S2048x32x1_0_0_2) shapeCasts_S2048x32x1_S2048x32) (broadcastInDim S2048x32 ![0, 1] bcast_S1x32_S2048x32_0_1 ar))) transposes_S2048x32_S32x2048_1_0)

/-- The first weight matrix updated and each row divided by its Euclidean norm. -/
def tailW1 (H : (⟨S81920x4, .f32⟩ : BufTy).Contents (Elt F)) (W1 : (⟨S32x2048, .f32⟩ : BufTy).Contents (Elt F))
    (C : (⟨S2048x32, .f32⟩ : BufTy).Contents (Elt F)) (xc : (⟨S2048x1, .f32⟩ : BufTy).Contents (Elt F))
    (ar : (⟨S1x32, .f32⟩ : BufTy).Contents (Elt F)) : (⟨S32x2048, .f32⟩ : BufTy).Contents (Elt F) :=
  Host.divf (updW1 H W1 C xc ar) (broadcastInDim S32x2048 ![0, 1] bcast_S32x1_S32x2048_0_1 (Host.sqrt (broadcastInDim S32x1 ![0] bcast_S32_S32x1_0 (Host.reduceAdd (mulf (updW1 H W1 C xc ar) (updW1 H W1 C xc ar)) (constant S_ .f32 0x00000000#32) reducesTo_S32x2048_S32_d1 h_S_))))

/-- The second weight matrix after the update, before normalisation, from the coefficient array, the hidden–output
    correlation [32,512], the column of activation sums [32,1] and the row of output sums [1,512]. -/
def updW2 (H : (⟨S81920x4, .f32⟩ : BufTy).Contents (Elt F)) (W2 : (⟨S512x32, .f32⟩ : BufTy).Contents (Elt F))
    (C : (⟨S32x512, .f32⟩ : BufTy).Contents (Elt F)) (ac : (⟨S32x1, .f32⟩ : BufTy).Contents (Elt F))
    (orow : (⟨S1x512, .f32⟩ : BufTy).Contents (Elt F)) : (⟨S512x32, .f32⟩ : BufTy).Contents (Elt F) :=
  addf W2 (transpose S512x32 [1, 0] (addf (addf (addf (mulf (broadcastInDim S32x512 ![] bcast_S_S32x512 (constant S_ .f32 0x46800000#32)) (shapeCast _ (extractStridedSlice S32x512x1 ![0, 0, 3] (shapeCast _ (extractStridedSlice S16384x4 ![65536, 0] H slices_S81920x4_S16384x4_65536_0) shapeCasts_S16384x4_S32x512x4) slices_S32x512x4_S32x512x1_0_0_3) shapeCasts_S32x512x1_S32x512)) (mulf (shapeCast _ (extractStridedSlice S32x512x1 ![0, 0, 0] (shapeCast _ (extractStridedSlice S16384x4 ![65536, 0] H slices_S81920x4_S16384x4_65536_0) shapeCasts_S16384x4_S32x512x4) slices_S32x512x4_S32x512x1_0_0_0) shapeCasts_S32x512x1_S32x512) C)) (mulf (shapeCast _ (extractStridedSlice S32x512x1 ![0, 0, 1] (shapeCast _ (extractStridedSlice S16384x4 ![65536, 0] H slices_S81920x4_S16384x4_65536_0) shapeCasts_S16384x4_S32x512x4) slices_S32x512x4_S32x512x1_0_0_1) shapeCasts_S32x512x1_S32x512) (broadcastInDim S32x512 ![0, 1] bcast_S32x1_S32x512_0_1 ac))) (mulf (shapeCast _ (extractStridedSlice S32x512x1 ![0, 0, 2] (shapeCast _ (extractStridedSlice S16384x4 ![65536, 0] H slices_S81920x4_S16384x4_65536_0) shapeCasts_S16384x4_S32x512x4) slices_S32x512x4_S32x512x1_0_0_2) shapeCasts_S32x512x1_S32x512) (broadcastInDim S32x512 ![0, 1] bcast_S1x512_S32x512_0_1 orow))) transposes_S32x512_S512x32_1_0)

/-- The second weight matrix updated and each row divided by its Euclidean norm. -/
def tailW2 (H : (⟨S81920x4, .f32⟩ : BufTy).Contents (Elt F)) (W2 : (⟨S512x32, .f32⟩ : BufTy).Contents (Elt F))
    (C : (⟨S32x512, .f32⟩ : BufTy).Contents (Elt F)) (ac : (⟨S32x1, .f32⟩ : BufTy).Contents (Elt F))
    (orow : (⟨S1x512, .f32⟩ : BufTy).Contents (Elt F)) : (⟨S512x32, .f32⟩ : BufTy).Contents (Elt F) :=
  Host.divf (updW2 H W2 C ac orow) (broadcastInDim S512x32 ![0, 1] bcast_S512x1_S512x32_0_1 (Host.sqrt (broadcastInDim S512x1 ![0] bcast_S512_S512x1_0 (Host.reduceAdd (mulf (updW2 H W2 C ac orow) (updW2 H W2 C ac orow)) (constant S_ .f32 0x00000000#32) reducesTo_S512x32_S512_d1 h_S_))))

/-- The program's second result is the normalised update of the first weight matrix at its three statistics stages. -/
theorem val_main_v69_tail (X : (⟨S16384x2048, .f32⟩ : BufTy).Contents (Elt F)) (W1 : (⟨S32x2048, .f32⟩ : BufTy).Contents (Elt F))
    (H : (⟨S81920x4, .f32⟩ : BufTy).Contents (Elt F)) :
    val_main_v69 (F := F) X W1 H
      = tailW1 H W1 (val_main_v17 (F := F) X W1) (val_main_v29 (F := F) X) (val_main_v36 (F := F) X W1) := rfl

/-- The program's third result is the normalised update of the second weight matrix at its three statistics stages. -/
theorem val_main_v72_tail (X : (⟨S16384x2048, .f32⟩ : BufTy).Contents (Elt F)) (W1 : (⟨S32x2048, .f32⟩ : BufTy).Contents (Elt F))
    (W2 : (⟨S512x32, .f32⟩ : BufTy).Contents (Elt F)) (H : (⟨S81920x4, .f32⟩ : BufTy).Contents (Elt F)) :
    val_main_v72 (F := F) X W1 W2 H
      = tailW2 H W2 (val_main_v40 (F := F) X W1 W2) (val_main_v52 (F := F) X W1) (val_main_v59 (F := F) X W1 W2) := rfl

end Cert.ReferenceIdeal.RefValue

end
-- ==== Proof.KTailW1.lean ====
/-
  The lines after the grid, first weight matrix.

  After the grid the program sums the per-core statistics, forms the ABCD update of w1 from the coefficient
  table, and divides each row by its Euclidean norm. Read as one function of what the lines find — the
  coefficient table, w1, and the three summed statistics — this is exactly the update-and-normalise function
  that the reference applies to its own statistics: the same operations in the same order, so the two terms
  coincide once the intermediate buffers are substituted away.
-/
import proofs.«180996_j60825326846529_2_alg».proof.Proof.KTailHead
import proofs.«180996_j60825326846529_2_alg».proof.Proof.RefTail
import Idealize.ShloMosaic.Lib.StableHlo.Run

noncomputable section

namespace Cert.KernelIdeal.Pay

open Cert.KernelIdeal Cert.KernelIdeal.Gen Idealize.ShloMosaic Idealize.ShloMosaic.StableHlo Idealize.SL.Sem

set_option maxRecDepth 8192 in
set_option maxHeartbeats 8000000 in
/-- The normalised first weight matrix the lines after the grid leave, as the shared tail of the summed statistics. -/
theorem ktail_w1 (W : Valuation τ sig (Elt Ideal)) :
    StableHlo.after
        ([hostOps1, hostOps1_1, hostOps1_2, hostOps1_3, hostOps1_4] : List (List (HloOp τ sig (Elt Ideal)))).flatten W
        (Proc.devRef .tc main_v54)
      = Cert.ReferenceIdeal.RefValue.tailW1 (F := Ideal) (W (Proc.devRef .tc main_arg3)) (W (Proc.devRef .tc main_arg1))
          (kcorr1 (W (Proc.devRef .tc main_v0_1))) (kxcol (W (Proc.devRef .tc main_v0_3)))
          (karow (W (Proc.devRef .tc main_v0_4))) := by
  simp only [hostOps1, hostOps1_1, hostOps1_2, hostOps1_3, hostOps1_4, List.flatten_cons, List.flatten_nil,
    List.cons_append, List.nil_append, List.append_nil]
  after_results_simp
  rfl

set_option maxRecDepth 8192 in
set_option maxHeartbeats 8000000 in
/-- The lines after the grid do not write the first output of the grid (the outputs). -/
theorem ktail_out (W : Valuation τ sig (Elt Ideal)) :
    StableHlo.after
        ([hostOps1, hostOps1_1, hostOps1_2, hostOps1_3, hostOps1_4] : List (List (HloOp τ sig (Elt Ideal)))).flatten W
        (Proc.devRef .tc main_v0_0)
      = W (Proc.devRef .tc main_v0_0) := by
  simp only [hostOps1, hostOps1_1, hostOps1_2, hostOps1_3, hostOps1_4, List.flatten_cons, List.flatten_nil,
    List.cons_append, List.nil_append, List.append_nil]
  after_results_simp <;> rfl

end Cert.KernelIdeal.Pay

end
-- ==== Proof.KTailW2.lean ====
/-
  The lines after the grid, second weight matrix.

  The same reading for w2: the ABCD update from the second block of the coefficient table and the hidden–output
  statistics, then each row divided by its Euclidean norm — term for term the update-and-normalise function the
  reference applies to its own statistics.
-/
import proofs.«180996_j60825326846529_2_alg».proof.Proof.KTailHead
import proofs.«180996_j60825326846529_2_alg».proof.Proof.RefTail
import Idealize.ShloMosaic.Lib.StableHlo.Run

noncomputable section

namespace Cert.KernelIdeal.Pay

open Cert.KernelIdeal Cert.KernelIdeal.Gen Idealize.ShloMosaic Idealize.ShloMosaic.StableHlo Idealize.SL.Sem

set_option maxRecDepth 8192 in
set_option maxHeartbeats 8000000 in
/-- The normalised second weight matrix the lines after the grid leave, as the shared tail of the summed statistics. -/
theorem ktail_w2 (W : Valuation τ sig (Elt Ideal)) :
    StableHlo.after
        ([hostOps1, hostOps1_1, hostOps1_2, hostOps1_3, hostOps1_4] : List (List (HloOp τ sig (Elt Ideal)))).flatten W
        (Proc.devRef .tc main_v57)
      = Cert.ReferenceIdeal.RefValue.tailW2 (F := Ideal) (W (Proc.devRef .tc main_arg3)) (W (Proc.devRef .tc main_arg2))
          (kcorr2 (W (Proc.devRef .tc main_v0_2))) (kacol (W (Proc.devRef .tc main_v0_4)))
          (korow (W (Proc.devRef .tc main_v0_5))) := by
  simp only [hostOps1, hostOps1_1, hostOps1_2, hostOps1_3, hostOps1_4, List.flatten_cons, List.flatten_nil,
    List.cons_append, List.nil_append, List.append_nil]
  after_results_simp
  rfl

end Cert.KernelIdeal.Pay

end
-- ==== Proof.KI.Final.lean ====
/-
  The idealized kernel's run, with its three results named.

  After the region the out array holds the specification's outputs, and the five partial arrays hold each core's
  four tile statistics added from zero; the later host lines sum the two cores — which gives the batch sums of the
  specification — and then apply the shared tail (coefficient slices, ABCD combination, row normalisation) to them.
  So the run ends with the out array at `G3` and the two updated weight arrays at the shared tail of the
  specification's statistics, the four argument arrays unchanged.
-/
import proofs.«180996_j60825326846529_2_alg».proof.Proof.KI.Frame
import proofs.«180996_j60825326846529_2_alg».proof.Proof.KI.Val3
import proofs.«180996_j60825326846529_2_alg».proof.Proof.KI.Bridge
import proofs.«180996_j60825326846529_2_alg».proof.Proof.KTailW1
import proofs.«180996_j60825326846529_2_alg».proof.Proof.KTailW2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

open ValueIdx Cert.KernelIdeal.Pay

local notation "opss" => ([hostOps1, hostOps1_1, hostOps1_2, hostOps1_3, hostOps1_4] : List (List (HloOp τ sig (Elt Ideal))))

/-- The buffer contents the later lines start from: the region's arrays at their final contents, the rest as launched. -/
abbrev Wexit : Valuation τ sig (Elt Ideal) :=
  Pipeline.withArrays (cfgs 0).spec c (V0 m c) fun w => (dats m 0 c).arrAt w (cfgs 0).N

theorem Wexit_arg3 : Wexit m c (Proc.devRef .tc main_arg3) = V m c main_arg3 :=
  Pipeline.withArrays_of_ne _ c (V0 m c) _ main_arg3 (by exact (by decide : ∀ w, Pipeline.arrRef spec0 w ≠ main_arg3))
theorem Wexit_arg1 : Wexit m c (Proc.devRef .tc main_arg1) = V m c main_arg1 :=
  (Pipeline.withArrays_arr spec0 launch0.win.arr_inj c _ _ 1).trans (((dats m 0 c).arrAt_in 1 rfl _).trans (A_eq m c 1))
theorem Wexit_arg2 : Wexit m c (Proc.devRef .tc main_arg2) = V m c main_arg2 :=
  (Pipeline.withArrays_arr spec0 launch0.win.arr_inj c _ _ 2).trans (((dats m 0 c).arrAt_in 2 rfl _).trans (A_eq m c 2))
theorem Wexit_v0_0 : Wexit m c (Proc.devRef .tc main_v0_0) = G3 m c :=
  (Pipeline.withArrays_arr spec0 launch0.win.arr_inj c _ _ 3).trans (final3 m c)
theorem Wexit_v0_1 : Wexit m c (Proc.devRef .tc main_v0_1) = G4 m c :=
  (Pipeline.withArrays_arr spec0 launch0.win.arr_inj c _ _ 4).trans (final4 m c)
theorem Wexit_v0_2 : Wexit m c (Proc.devRef .tc main_v0_2) = G5 m c :=
  (Pipeline.withArrays_arr spec0 launch0.win.arr_inj c _ _ 5).trans (final5 m c)
theorem Wexit_v0_3 : Wexit m c (Proc.devRef .tc main_v0_3) = G6 m c :=
  (Pipeline.withArrays_arr spec0 launch0.win.arr_inj c _ _ 6).trans (final6 m c)
theorem Wexit_v0_4 : Wexit m c (Proc.devRef .tc main_v0_4) = G7 m c :=
  (Pipeline.withArrays_arr spec0 launch0.win.arr_inj c _ _ 7).trans (final7 m c)
theorem Wexit_v0_5 : Wexit m c (Proc.devRef .tc main_v0_5) = G8 m c :=
  (Pipeline.withArrays_arr spec0 launch0.win.arr_inj c _ _ 8).trans (final8 m c)

/-- The first updated weight array after the later lines: the shared tail at the specification's statistics. -/
theorem tail_w1 : Pipeline.afterTail₀ cfgs (dats m) 0 (V0 m) opss c main_v54
    = Cert.ReferenceIdeal.RefValue.tailW1 (F := Ideal) (V m c main_arg3) (V m c main_arg1)
        (fun j => Cert.Heb.corr1 (cx m c) (cw1 m c) (j 0) (j 1)) (fun j => Cert.Heb.xsum (cx m c) (j 0))
        (fun j => Cert.Heb.asum (cx m c) (cw1 m c) (j 1)) := by
  unfold Pipeline.afterTail₀
  refine (ktail_w1 (Wexit m c)).trans ?_
  rw [Wexit_arg3, Wexit_arg1, Wexit_v0_1, Wexit_v0_3, Wexit_v0_4, bridge_corr1, bridge_xcol, bridge_arow]

/-- The second updated weight array after the later lines. -/
theorem tail_w2 : Pipeline.afterTail₀ cfgs (dats m) 0 (V0 m) opss c main_v57
    = Cert.ReferenceIdeal.RefValue.tailW2 (F := Ideal) (V m c main_arg3) (V m c main_arg2)
        (fun j => Cert.Heb.corr2 (cx m c) (cw1 m c) (cw2 m c) (j 0) (j 1)) (fun j => Cert.Heb.asum (cx m c) (cw1 m c) (j 0))
        (fun j => Cert.Heb.osum (cx m c) (cw1 m c) (cw2 m c) (j 1)) := by
  unfold Pipeline.afterTail₀
  refine (ktail_w2 (Wexit m c)).trans ?_
  rw [Wexit_arg3, Wexit_arg2, Wexit_v0_2, Wexit_v0_4, Wexit_v0_5, bridge_corr2, bridge_acol, bridge_orow]

/-- The idealized kernel's run with its results named. -/
theorem value_run : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v54) = Cert.ReferenceIdeal.RefValue.tailW1 (F := Ideal) (V m c main_arg3) (V m c main_arg1)
          (fun j => Cert.Heb.corr1 (cx m c) (cw1 m c) (j 0) (j 1)) (fun j => Cert.Heb.xsum (cx m c) (j 0))
          (fun j => Cert.Heb.asum (cx m c) (cw1 m c) (j 1))
      ∧ r.2.mem ((c.tc : Thread nD τ).loc main_v57) = Cert.ReferenceIdeal.RefValue.tailW2 (F := Ideal) (V m c main_arg3) (V m c main_arg2)
          (fun j => Cert.Heb.corr2 (cx m c) (cw1 m c) (cw2 m c) (j 0) (j 1)) (fun j => Cert.Heb.asum (cx m c) (cw1 m c) (j 0))
          (fun j => Cert.Heb.osum (cx m c) (cw1 m c) (cw2 m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 3).trans (final3 m c),
     ((h c).2 main_v54 (Pipeline.mem_restRefs_of main_v54 (by decide) (by decide))).trans (tail_w1 m c),
     ((h c).2 main_v57 (Pipeline.mem_restRefs_of main_v57 (by decide) (by decide))).trans (tail_w2 m c),
     ((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c))),
     ((h c).2 main_arg3 (Pipeline.mem_restRefs_of main_arg3 (by decide) (by decide))).trans (W_main_arg3 m (dats m) c)⟩) (run_main m ρ)

end Cert.KernelIdeal.Fr

end
-- ==== Proof.K.Kit.lean ====
/-
  The launch side of the Hebbian kernel's run, shared by the two control cases of its body.

  @main is one pipelined region (grid 2 × 4: core c, tile j; point t = 4c + j) followed by host lines that combine
  the per-core partial statistics. Here: the buffer contents as the region finds them, the region followed by the
  later lines, what those lines may touch (they allocate nothing and write none of the region's nine arrays), each
  window's block at a point, the condition "first tile of a core" (t % 4 = 0) under which the body resets its
  accumulators, and the staging buffers the body is called with.
-/
import proofs.«180996_j60825326846529_2_alg».proof.Proof.Gen.Kernel.Launch
import proofs.«180996_j60825326846529_2_alg».proof.Proof.Gen.Kernel.Skeleton
import proofs.«180996_j60825326846529_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 8000000 in
/-- No line of this stretch writes one of the region's arrays: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_fresh : (hostOps1_1 : List (HloOp τ sig (Elt F))).Forall fun op => op.fresh = ∅ := by
  simp only [List.Forall]; repeat' constructor

/-- No line of this stretch writes one of the region's arrays: each writes its own result buffer only. -/
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_fresh : (hostOps1_2 : List (HloOp τ sig (Elt F))).Forall fun op => op.fresh = ∅ := by
  simp only [List.Forall]; repeat' constructor

/-- No line of this stretch writes one of the region's arrays: each writes its own result buffer only. -/
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_fresh : (hostOps1_3 : List (HloOp τ sig (Elt F))).Forall fun op => op.fresh = ∅ := by
  simp only [List.Forall]; repeat' constructor

/-- No line of this stretch writes one of the region's arrays: each writes its own result buffer only. -/
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_fresh : (hostOps1_4 : List (HloOp τ sig (Elt F))).Forall fun op => op.fresh = ∅ := by
  simp only [List.Forall]; repeat' constructor

/-- No line of this stretch writes one of the region's arrays: each writes its own result buffer only. -/
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the region's arrays and the buffers that bypass it only. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the region. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the tile coordinate is zero. -/
abbrev cond0_0 (i : grid0.Coords) : Prop := (Scalar.cmpi .ne (Scalar.extui (Scalar.cmpi .eq (BitVec.ofNat 32 (i 1).val) 0#32)) 0#32) = 1#1
/-- It holds at the first tile of each core — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers the body is called with -/

/-- One staging buffer of output window 3, through which its contents are stated. -/
abbrev VO0_3 : View sig .tc .vmem S2048x512 .f32 := (Memref.whole cc0_stg3_0 : Memref sig .tc .vmem S2048x512 .f32).view
/-- One staging buffer of output window 4, through which its contents are stated. -/
abbrev VO0_4 : View sig .tc .vmem S1x2048x32 .f32 := (Memref.whole cc0_stg4_0 : Memref sig .tc .vmem S1x2048x32 .f32).view
/-- One staging buffer of output window 5, through which its contents are stated. -/
abbrev VO0_5 : View sig .tc .vmem S1x32x512 .f32 := (Memref.whole cc0_stg5_0 : Memref sig .tc .vmem S1x32x512 .f32).view
/-- One staging buffer of output window 6, through which its contents are stated. -/
abbrev VO0_6 : View sig .tc .vmem S1x1x2048 .f32 := (Memref.whole cc0_stg6_0 : Memref sig .tc .vmem S1x1x2048 .f32).view
/-- One staging buffer of output window 7, through which its contents are stated. -/
abbrev VO0_7 : View sig .tc .vmem S1x1x32 .f32 := (Memref.whole cc0_stg7_0 : Memref sig .tc .vmem S1x1x32 .f32).view
/-- One staging buffer of output window 8, through which its contents are stated. -/
abbrev VO0_8 : View sig .tc .vmem S1x1x512 .f32 := (Memref.whole cc0_stg8_0 : Memref sig .tc .vmem S1x1x512 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)

end Cert.Kernel.Fr

end
-- ==== Proof.K.RunA.lean ====
/-
  The body of the Hebbian kernel run once, whole, in the case "first tile of a core: the accumulators are reset before they are added to":
  on whole staging buffers holding the three input blocks, the body runs to its end
  without a fault, leaves the inputs as they were and each of the six output buffers with a list of stored pieces
  written into it. The lists are found by running the body symbolically; they are this definition's witness.
-/
import proofs.«180996_j60825326846529_2_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) :
    Σ' (L3 : List (View.Piece (Elt F) S2048x512 .f32)) (L4 : List (View.Piece (Elt F) S1x2048x32 .f32)) (L5 : List (View.Piece (Elt F) S1x32x512 .f32)) (L6 : List (View.Piece (Elt F) S1x1x2048 .f32)) (L7 : List (View.Piece (Elt F) S1x1x32 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__hebbian_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__hebbian_kernel_eq_skeleton]; unfold cc0__hebbian_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.Kernel.Fr

end
-- ==== Proof.K.RunB.lean ====
/-
  The body of the Hebbian kernel run once, whole, in the case "a later tile of a core: the accumulators hold what the tile before left":
  on whole staging buffers holding the three input blocks and the five accumulators' running contents, the body runs to its end
  without a fault, leaves the inputs as they were and each of the six output buffers with a list of stored pieces
  written into it. The lists are found by running the body symbolically; they are this definition's witness.
-/
import proofs.«180996_j60825326846529_2_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) :
    Σ' (L3 : List (View.Piece (Elt F) S2048x512 .f32)) (L4 : List (View.Piece (Elt F) S1x2048x32 .f32)) (L5 : List (View.Piece (Elt F) S1x32x512 .f32)) (L6 : List (View.Piece (Elt F) S1x1x2048 .f32)) (L7 : List (View.Piece (Elt F) S1x1x32 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__hebbian_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__hebbian_kernel_eq_skeleton]; unfold cc0__hebbian_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.Kernel.Fr

end
-- ==== Proof.K.Outs.lean ====
/-
  The Hebbian kernel's region, point by point.

  A point t = 4c + j runs the body on tile j of core c. Every output buffer is stored whole by the body, so what
  each holds after the point is the read-back of the stored pieces. At the first tile of a core (t % 4 = 0) the
  accumulators are reset before they are added to; at a later tile they start from what the tile before left: the
  five accumulators are written back only after a core's last tile (t % 4 = 3), so between tiles of one core their
  staging buffers keep their contents. `outsAt0` is this recursion; the region's proof data state the inputs'
  buffers at their blocks and the outputs' at `outsAt0`; the body obligation is the case's run at each point; the
  run of @main is the region followed by the later host lines, and the four argument arrays end as launched.
-/
import proofs.«180996_j60825326846529_2_alg».proof.Proof.K.RunA
import proofs.«180996_j60825326846529_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stored pieces for output window 3 tile its block, so they cover it. -/
theorem cover0_A_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S2048x512.Idx) :
    ∃ pc ∈ (kernelRun0_A c i arg2 harg2 arg3 harg3 arg4 harg4 arg5 harg5 arg6 harg6 arg7 harg7 arg8 harg8 arg9 harg9 arg10 harg10 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 x0 x1 x2).1 S2048x512.size (by sl_kernel_rfl) y

/-- What case A leaves in output window 3's staging buffer: its pieces read back. -/
def out0_A_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S2048x512 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 x0 x1 x2).1)

/-- Case A's stored pieces for output window 4 tile its block, so they cover it. -/
theorem cover0_A_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x2048x32.Idx) :
    ∃ pc ∈ (kernelRun0_A c i arg2 harg2 arg3 harg3 arg4 harg4 arg5 harg5 arg6 harg6 arg7 harg7 arg8 harg8 arg9 harg9 arg10 harg10 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.1 S1x2048x32.size (by sl_kernel_rfl) y

/-- What case A leaves in output window 4's staging buffer: its pieces read back. -/
def out0_A_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x2048x32 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 x0 x1 x2).2.1)

/-- Case A's stored pieces for output window 5 tile its block, so they cover it. -/
theorem cover0_A_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x32x512.Idx) :
    ∃ pc ∈ (kernelRun0_A c i arg2 harg2 arg3 harg3 arg4 harg4 arg5 harg5 arg6 harg6 arg7 harg7 arg8 harg8 arg9 harg9 arg10 harg10 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.1 S1x32x512.size (by sl_kernel_rfl) y

/-- What case A leaves in output window 5's staging buffer: its pieces read back. -/
def out0_A_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x32x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 x0 x1 x2).2.2.1)

/-- Case A's stored pieces for output window 6 tile its block, so they cover it. -/
theorem cover0_A_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x2048.Idx) :
    ∃ pc ∈ (kernelRun0_A c i arg2 harg2 arg3 harg3 arg4 harg4 arg5 harg5 arg6 harg6 arg7 harg7 arg8 harg8 arg9 harg9 arg10 harg10 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.1 S1x1x2048.size (by sl_kernel_rfl) y

/-- What case A leaves in output window 6's staging buffer: its pieces read back. -/
def out0_A_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2).2.2.2.1)

/-- Case A's stored pieces for output window 7 tile its block, so they cover it. -/
theorem cover0_A_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x32.Idx) :
    ∃ pc ∈ (kernelRun0_A c i arg2 harg2 arg3 harg3 arg4 harg4 arg5 harg5 arg6 harg6 arg7 harg7 arg8 harg8 arg9 harg9 arg10 harg10 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.2.1 S1x1x32.size (by sl_kernel_rfl) y

/-- What case A leaves in output window 7's staging buffer: its pieces read back. -/
def out0_A_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x32 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2).2.2.2.2.1)

/-- Case A's stored pieces for output window 8 tile its block, so they cover it. -/
theorem cover0_A_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) (y : S1x1x512.Idx) :
    ∃ pc ∈ (kernelRun0_A c i arg2 harg2 arg3 harg3 arg4 harg4 arg5 harg5 arg6 harg6 arg7 harg7 arg8 harg8 arg9 harg9 arg10 harg10 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.2.2.2.1 S1x1x512.size (by sl_kernel_rfl) y

/-- What case A leaves in output window 8's staging buffer: its pieces read back. -/
def out0_A_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : cond0_0 i)
    (x0 : Vec F S2048x2048 .f32) (x1 : Vec F S32x2048 .f32) (x2 : Vec F S512x32 .f32) : Vec F S1x1x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2).2.2.2.2.2.1)

/-- Case B's stored pieces for output window 3 tile its block, so they cover it. -/
theorem cover0_B_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S2048x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).1 S2048x512.size (by sl_kernel_rfl) y

/-- What case B leaves in output window 3's staging buffer: its pieces read back. -/
def out0_B_3 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S2048x512 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 x0 x1 x2 xo4 xo5 xo6 xo7 xo8).1)

/-- Case B's stored pieces for output window 4 tile its block, so they cover it. -/
theorem cover0_B_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x2048x32.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.1 S1x2048x32.size (by sl_kernel_rfl) y

/-- What case B leaves in output window 4's staging buffer: its pieces read back. -/
def out0_B_4 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x2048x32 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 x0 x1 x2 xo4 xo5 xo6 xo7 xo8).2.1)

/-- Case B's stored pieces for output window 5 tile its block, so they cover it. -/
theorem cover0_B_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x32x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.1 S1x32x512.size (by sl_kernel_rfl) y

/-- What case B leaves in output window 5's staging buffer: its pieces read back. -/
def out0_B_5 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x32x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 x0 x1 x2 xo4 xo5 xo6 xo7 xo8).2.2.1)

/-- Case B's stored pieces for output window 6 tile its block, so they cover it. -/
theorem cover0_B_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x2048.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.1 S1x1x2048.size (by sl_kernel_rfl) y

/-- What case B leaves in output window 6's staging buffer: its pieces read back. -/
def out0_B_6 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.1)

/-- Case B's stored pieces for output window 7 tile its block, so they cover it. -/
theorem cover0_B_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x32.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1 S1x1x32.size (by sl_kernel_rfl) y

/-- What case B leaves in output window 7's staging buffer: its pieces read back. -/
def out0_B_7 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x32 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.2.1)

/-- Case B's stored pieces for output window 8 tile its block, so they cover it. -/
theorem cover0_B_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) (y : S1x1x512.Idx) :
    ∃ pc ∈ (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1 S1x1x512.size (by sl_kernel_rfl) y

/-- What case B leaves in output window 8's staging buffer: its pieces read back. -/
def out0_B_8 (c : Dev nD) (i : grid0.Coords) (arg2 : Memref sig .tc .vmem S2048x2048 .f32) (harg2 : arg2.IsWhole) (arg3 : Memref sig .tc .vmem S32x2048 .f32) (harg3 : arg3.IsWhole) (arg4 : Memref sig .tc .vmem S512x32 .f32) (harg4 : arg4.IsWhole) (arg5 : Memref sig .tc .vmem S2048x512 .f32) (harg5 : arg5.IsWhole) (arg6 : Memref sig .tc .vmem S1x2048x32 .f32) (harg6 : arg6.IsWhole) (arg7 : Memref sig .tc .vmem S1x32x512 .f32) (harg7 : arg7.IsWhole) (arg8 : Memref sig .tc .vmem S1x1x2048 .f32) (harg8 : arg8.IsWhole) (arg9 : Memref sig .tc .vmem S1x1x32 .f32) (harg9 : arg9.IsWhole) (arg10 : Memref sig .tc .vmem S1x1x512 .f32) (harg10 : arg10.IsWhole) (hc0 : ¬cond0_0 i)
    (x0 : Vec F S2048x2048 .f32) (x1 : Vec F S32x2048 .f32) (x2 : Vec F S512x32 .f32) (xo4 : Vec F S1x2048x32 .f32) (xo5 : Vec F S1x32x512 .f32) (xo6 : Vec F S1x1x2048 .f32) (xo7 : Vec F S1x1x32 .f32) (xo8 : Vec F S1x1x512 .f32) : Vec F S1x1x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 xo4 xo5 xo6 xo7 xo8).2.2.2.2.2.1)

/-! ## What the outputs hold after each point -/

/-- The accumulation: the six output buffers after the body at position `n`. -/
def outsAt0 (c : Dev nD) : (n : ℕ) → n < cfg0.N → Vec F S2048x512 .f32 × Vec F S1x2048x32 .f32 × Vec F S1x32x512 .f32 × Vec F S1x1x2048 .f32 × Vec F S1x1x32 .f32 × Vec F S1x1x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩),
        out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a first tile: that case's contents. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t),
        out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a later tile: that case's contents, over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
        out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` each input's buffer at its block
    and the outputs' at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
    | ⟨7, _⟩ => (outsAt0 m c t.val t.isLt).2.2.2.2.1
    | ⟨8, _⟩ => (outsAt0 m c t.val t.isLt).2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]
theorem after0_7 (c : Dev nD) (t : Fin cfg0.N) : (dats m 0 c).after 7 t = (outsAt0 m c t.val t.isLt).2.2.2.2.1 := by dsimp only [dats]
theorem after0_8 (c : Dev nD) (t : Fin cfg0.N) : (dats m 0 c).after 8 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile accumulator window 4's buffer holds what the body left at the point before: it was not written back between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile accumulator window 5's buffer holds what the body left at the point before: it was not written back between. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later tile accumulator window 6's buffer holds what the body left at the point before: it was not written back between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]
/-- At a later tile accumulator window 7's buffer holds what the body left at the point before: it was not written back between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]
/-- At a later tile accumulator window 8's buffer holds what the body left at the point before: it was not written back between. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.2.2 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

end Cert.Kernel.Fr

end
-- ==== Proof.K.BodyDefs.lean ====
/-
  What the body of the Hebbian kernel is called with at a point, and what it returns: the region invariant, what
  the core owes, and each of the nine windows' current staging buffers at the proof data's contents before and
  after the point.
-/
import proofs.«180996_j60825326846529_2_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

end Cert.Kernel.Fr

end
-- ==== Proof.K.BodyA.lean ====
/-
  The body obligation at a core's first tile: the reset case's run applies from any accumulator contents, and each
  output buffer ends at the read-back of the pieces that run stored.
-/
import proofs.«180996_j60825326846529_2_alg».proof.Proof.K.BodyDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 8 := lt_of_lt_of_eq t.isLt (show cfg0.N = 8 from N_0)
  rw [outsAt0_A m c t h0]
  dsimp only
  unfold out0_A_3 out0_A_4 out0_A_5 out0_A_6 out0_A_7 out0_A_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ ((hcond0_0 t).mpr h0) (iblk m c 0 t) (iblk m c 1 t) (iblk m c 2 t)).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H5]
  · unfold owns; iexists _; isplitr
    swap; · iexact H5
    ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H6]
  · unfold owns; iexists _; isplitr
    swap; · iexact H6
    ipureintro; exact View.read_writes_of_cover _ _ _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  isplitl [H7]
  · unfold owns; iexists _; isplitr
    swap; · iexact H7
    ipureintro; exact View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))
  unfold owns; iexists _; isplitr
  swap; · iexact H8
  ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t))

end Cert.Kernel.Fr

end
-- ==== Proof.K.BodyB.lean ====
/-
  The body obligation at a later tile of a core: the accumulators' buffers hold what the tile before left (they were
  not written back between), the accumulating case's run applies, and each output buffer ends at the read-back of
  the pieces that run stored.
-/
import proofs.«180996_j60825326846529_2_alg».proof.Proof.K.BodyDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_body_B (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 8 := lt_of_lt_of_eq t.isLt (show cfg0.N = 8 from N_0)
  rw [outsAt0_B m c t h0]
  dsimp only
  simp only [before0_4_B m c t h0, before0_5_B m c t h0, before0_6_B m c t h0, before0_7_B m c t h0, before0_8_B m c t h0]
  unfold out0_B_3 out0_B_4 out0_B_5 out0_B_6 out0_B_7 out0_B_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ (fun h => h0 ((hcond0_0 t).mp h)) (iblk m c 0 t) (iblk m c 1 t) (iblk m c 2 t) _ _ _ _ _).2.2.2.2.2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H4]
  · unfold owns; iexists _; isplitr
    swap; · iexact H4
    ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H5]
  · unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H6]
  · unfold owns; iexists _; isplitr
    swap; · iexact H6
    ipureintro; exact View.read_writes_of_cover _ _ _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  isplitl [H7]
  · unfold owns; iexists _; isplitr
    swap; · iexact H7
    ipureintro; exact View.read_writes_of_cover _ _ _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  unfold owns; iexists _; isplitr
  swap; · iexact H8
  ipureintro; exact View.read_writes_of_cover _ _ _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

end Cert.Kernel.Fr

end
-- ==== Proof.K.Body.lean ====
/-
  The body obligation of the Hebbian kernel's region, at every point: the first-tile case or the later-tile case.
-/
import proofs.«180996_j60825326846529_2_alg».proof.Proof.K.BodyA
import proofs.«180996_j60825326846529_2_alg».proof.Proof.K.BodyB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_body_A m c t h0
  · exact sound_body_B m c t h0

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Frame.lean ====
/-
  The run of @main and the frame claim: the region, with the body obligation discharged, followed by the later
  host lines; every array of the region ends at what the proof data give, every other buffer as the later lines
  leave it, and the four argument arrays end as launched.
-/
import proofs.«180996_j60825326846529_2_alg».proof.Proof.K.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- No later host line writes the coefficient array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 8000000 in
set_option backward.isDefEq.respectTransparency.types false in
/-- From any memory with zero counters every weakly fair execution of @main terminates, every array of the region
    ends at what the proof data give and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The frame: @main runs to the end and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c))),
     ((h c).2 main_arg3 (Pipeline.mem_restRefs_of main_arg3 (by decide) (by decide))).trans (W_main_arg3 m (dats m) c)⟩) (run_main m ρ)

end Cert.Kernel.Fr

end
-- ==== Proof.RefAct.lean ====
/-
  The reference program's first two stages read at an index.

  With x(b,k), w1(h,k), w2(o,h) the coordinate functions of the three argument arrays, the stage holding the
  hidden activations is max(Σ_k x(b,k)·w1(h,k), 0) and the stage holding the outputs is
  1 / (1 + exp(−Σ_h act(b,h)·w2(o,h))) − 0.4, which is the logistic by its definition.
-/
import proofs.«180996_j60825326846529_2_alg».proof.Proof.Spec
import proofs.«180996_j60825326846529_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The coordinate function of the batch. -/
abbrev xs (X : FVec Ideal S16384x2048 .f32) : Fin 16384 → Fin 2048 → EReal := fun b k => X (ix2 b k)
/-- The coordinate function of the first weight matrix. -/
abbrev ws1 (W1 : FVec Ideal S32x2048 .f32) : Fin 32 → Fin 2048 → EReal := fun h k => W1 (ix2 h k)
/-- The coordinate function of the second weight matrix. -/
abbrev ws2 (W2 : FVec Ideal S512x32 .f32) : Fin 512 → Fin 32 → EReal := fun o h => W2 (ix2 o h)

/-- The f32 word of 1.0 is 1. -/
theorem ofBits_one_f32 : Ideal.ofBits .f32 0x3F800000#32 = 1 := by
  simp [Ideal.ofBits, Ideal.ieee, -EReal.coe_mul]; norm_num

theorem lidx_v1 (b : Fin 16384) (h : Fin 32) (k : Fin 2048) : lidx_main_v1 (ix2 b h) k = ix2 b k :=
  funext fun a => Fin.ext (by match a with | ⟨0, _⟩ => rfl | ⟨1, _⟩ => rfl)
theorem ridx_v1 (b : Fin 16384) (h : Fin 32) (k : Fin 2048) : idx_main_v0 (ridx_main_v1 (ix2 b h) k) = ix2 h k :=
  funext fun a => Fin.ext (by match a with | ⟨0, _⟩ => rfl | ⟨1, _⟩ => rfl)

/-- The activations stage at (b, h). -/
theorem ref_act (X : FVec Ideal S16384x2048 .f32) (W1 : FVec Ideal S32x2048 .f32) (b : Fin 16384) (h : Fin 32) :
    val_main_v2 (F := Ideal) X W1 (ix2 b h) = Cert.Heb.act (xs X) (ws1 W1) b h := by
  rw [val_main_v2_apply, val_main_v1_apply, val_main_call0_v0_apply, val_main_call0_cst_apply]
  simp only [val_main_v0_apply, lidx_v1, ridx_v1, Ideal.maximumf_def, Ideal.ofBits_def, Ideal.ofBits_zero_f32]
  rfl

theorem lidx_v4 (b : Fin 16384) (o : Fin 512) (k : Fin 32) : lidx_main_v4 (ix2 b o) k = ix2 b k :=
  funext fun a => Fin.ext (by match a with | ⟨0, _⟩ => rfl | ⟨1, _⟩ => rfl)
theorem ridx_v4 (b : Fin 16384) (o : Fin 512) (k : Fin 32) : idx_main_v3 (ridx_main_v4 (ix2 b o) k) = ix2 o k :=
  funext fun a => Fin.ext (by match a with | ⟨0, _⟩ => rfl | ⟨1, _⟩ => rfl)

/-- The outputs stage at (b, o). -/
theorem ref_out (X : FVec Ideal S16384x2048 .f32) (W1 : FVec Ideal S32x2048 .f32) (W2 : FVec Ideal S512x32 .f32)
    (b : Fin 16384) (o : Fin 512) :
    val_main_v12 (F := Ideal) X W1 W2 (ix2 b o) = Cert.Heb.outv (xs X) (ws1 W1) (ws2 W2) b o := by
  rw [val_main_v12_apply, val_main_v10_apply, val_main_v9_apply, val_main_cst_0_apply, val_main_v8_apply, val_main_v7_apply,
    val_main_cst_apply, val_main_v6_apply, val_main_v5_apply, val_main_v4_apply, val_main_v11_apply, val_main_cst_1_apply]
  simp only [val_main_v3_apply, lidx_v4, ridx_v4, ref_act, Ideal.subf_def, Ideal.hostDivf_def, Ideal.addf_def,
    Ideal.hostUnary_exp_def, Ideal.hostNegf_def, Ideal.negf_def, Ideal.ofBits_def, ofBits_one_f32]
  rfl

end Cert.ReferenceIdeal.RefValue

end
-- ==== Proof.RefSums.lean ====
/-
  The reference program's batch statistics of the first layer read at an index.

  The input–hidden correlation Σ_b x(b,i)·act(b,h) is a contraction over the batch axis; the column sums of the
  batch and of the activations are float sums from the zero word, which is 0, so each is the plain sum over the batch.
-/
import proofs.«180996_j60825326846529_2_alg».proof.Proof.Spec
import proofs.«180996_j60825326846529_2_alg».proof.Proof.Gen.ReferenceIdeal.Read
import proofs.«180996_j60825326846529_2_alg».proof.Proof.RefAct

noncomputable section

namespace Cert.ReferenceIdeal.RefValue

open Cert.ReferenceIdeal Cert.ReferenceIdeal.Gen Cert.ReferenceIdeal.Read Idealize.ShloMosaic Idealize.ShloMosaic.ValueIdx

theorem lidx_v17 (i : Fin 2048) (h : Fin 32) (k : Fin 16384) : lidx_main_v17 (ix2 i h) k = ix2 k i :=
  funext fun a => Fin.ext (by match a with | ⟨0, _⟩ => rfl | ⟨1, _⟩ => rfl)
theorem ridx_v17 (i : Fin 2048) (h : Fin 32) (k : Fin 16384) : ridx_main_v17 (ix2 i h) k = ix2 k h :=
  funext fun a => Fin.ext (by match a with | ⟨0, _⟩ => rfl | ⟨1, _⟩ => rfl)

/-- The input–hidden correlation stage at (i, h). -/
theorem ref_corr1 (X : FVec Ideal S16384x2048 .f32) (W1 : FVec Ideal S32x2048 .f32) (i : Fin 2048) (h : Fin 32) :
    val_main_v17 (F := Ideal) X W1 (ix2 i h) = Cert.Heb.corr1 (xs X) (ws1 W1) i h := by
  rw [val_main_v17_apply]
  simp only [lidx_v17, ridx_v17, ref_act]
  rfl

/-- The input–hidden correlation stage as a whole array. -/
theorem ref_corr1_eq (X : FVec Ideal S16384x2048 .f32) (W1 : FVec Ideal S32x2048 .f32) :
    val_main_v17 (F := Ideal) X W1 = fun j => Cert.Heb.corr1 (xs X) (ws1 W1) (j 0) (j 1) := by
  funext j
  obtain ⟨p, q, rfl⟩ : ∃ (p : Fin 2048) (q : Fin 32), j = ix2 p q := ⟨j 0, j 1, eq_ix2 j⟩
  exact ref_corr1 X W1 p q

theorem idx_v28 (i : Fin 2048) (z : Fin 1) (k : Fin 16384) : idx_main_v28 (idx_main_v29 (ix2 i z)) k = ix2 k i :=
  funext fun a => Fin.ext (by match a with | ⟨0, _⟩ => rfl | ⟨1, _⟩ => rfl)

/-- The column sums of the batch, the keepdims column [2048,1], at (i, 0). -/
theorem ref_xsum (X : FVec Ideal S16384x2048 .f32) (i : Fin 2048) (z : Fin 1) :
    val_main_v29 (F := Ideal) X (ix2 i z) = Cert.Heb.xsum (xs X) i := by
  rw [val_main_v29_apply, val_main_v28_apply, val_main_cst_3_apply]
  simp only [idx_v28, Ideal.ofBits_def, Ideal.ofBits_zero_f32, zero_add]
  rfl

/-- The column sums of the batch as a whole array. -/
theorem ref_xsum_eq (X : FVec Ideal S16384x2048 .f32) :
    val_main_v29 (F := Ideal) X = fun j => Cert.Heb.xsum (xs X) (j 0) := by
  funext j
  obtain ⟨p, q, rfl⟩ : ∃ (p : Fin 2048) (q : Fin 1), j = ix2 p q := ⟨j 0, j 1, eq_ix2 j⟩
  exact ref_xsum X p q

theorem idx_v35 (z : Fin 1) (h : Fin 32) (k : Fin 16384) : idx_main_v35 (idx_main_v36 (ix2 z h)) k = ix2 k h :=
  funext fun a => Fin.ext (by match a with | ⟨0, _⟩ => rfl | ⟨1, _⟩ => rfl)

/-- The column sums of the activations, the row [1,32], at (0, h). -/
theorem ref_asum_row (X : FVec Ideal S16384x2048 .f32) (W1 : FVec Ideal S32x2048 .f32) (z : Fin 1) (h : Fin 32) :
    val_main_v36 (F := Ideal) X W1 (ix2 z h) = Cert.Heb.asum (xs X) (ws1 W1) h := by
  rw [val_main_v36_apply, val_main_v35_apply, val_main_cst_4_apply]
  simp only [idx_v35, ref_act, Ideal.ofBits_def, Ideal.ofBits_zero_f32, zero_add]
  rfl

/-- The row of column sums of the activations as a whole array. -/
theorem ref_asum_row_eq (X : FVec Ideal S16384x2048 .f32) (W1 : FVec Ideal S32x2048 .f32) :
    val_main_v36 (F := Ideal) X W1 = fun j => Cert.Heb.asum (xs X) (ws1 W1) (j 1) := by
  funext j
  obtain ⟨p, q, rfl⟩ : ∃ (p : Fin 1) (q : Fin 32), j = ix2 p q := ⟨j 0, j 1, eq_ix2 j⟩
  exact ref_asum_row X W1 p q

theorem idx_v51 (h : Fin 32) (z : Fin 1) (k : Fin 16384) : idx_main_v51 (idx_main_v52 (ix2 h z)) k = ix2 k h :=
  funext fun a => Fin.ext (by match a with | ⟨0, _⟩ => rfl | ⟨1, _⟩ => rfl)

/-- The column sums of the activations, the keepdims column [32,1], at (h, 0). -/
theorem ref_asum_col (X : FVec Ideal S16384x2048 .f32) (W1 : FVec Ideal S32x2048 .f32) (h : Fin 32) (z : Fin 1) :
    val_main_v52 (F := Ideal) X W1 (ix2 h z) = Cert.Heb.asum (xs X) (ws1 W1) h := by
  rw [val_main_v52_apply, val_main_v51_apply, val_main_cst_6_apply]
  simp only [idx_v51, ref_act, Ideal.ofBits_def, Ideal.ofBits_zero_f32, zero_add]
  rfl

/-- The column of column sums of the activations as a whole array. -/
theorem ref_asum_col_eq (X : FVec Ideal S16384x2048 .f32) (W1 : FVec Ideal S32x2048 .f32) :
    val_main_v52 (F := Ideal) X W1 = fun j => Cert.Heb.asum (xs X) (ws1 W1) (j 0) := by
  funext j
  obtain ⟨p, q, rfl⟩ : ∃ (p : Fin 32) (q : Fin 1), j = ix2 p q := ⟨j 0, j 1, eq_ix2 j⟩
  exact ref_asum_col X W1 p q

end Cert.ReferenceIdeal.RefValue

end
-- ==== Proof.RefOut.lean ====
/-
  The reference program's batch statistics of the second layer read at an index.

  The hidden–output correlation Σ_b act(b,h)·out(b,o) is a contraction over the batch axis, and the column sums of the
  outputs are a float sum from the zero word. The two first stages are also stated as whole arrays.
-/
import proofs.«180996_j60825326846529_2_alg».proof.Proof.Spec
import proofs.«180996_j60825326846529_2_alg».proof.Proof.Gen.ReferenceIdeal.Read
import proofs.«180996_j60825326846529_2_alg».proof.Proof.RefAct

noncomputable section

namespace Cert.ReferenceIdeal.RefValue

open Cert.ReferenceIdeal Cert.ReferenceIdeal.Gen Cert.ReferenceIdeal.Read Idealize.ShloMosaic Idealize.ShloMosaic.ValueIdx

/-- The activations stage as a whole array. -/
theorem ref_act_eq (X : FVec Ideal S16384x2048 .f32) (W1 : FVec Ideal S32x2048 .f32) :
    val_main_v2 (F := Ideal) X W1 = fun j => Cert.Heb.act (xs X) (ws1 W1) (j 0) (j 1) := by
  funext j
  obtain ⟨p, q, rfl⟩ : ∃ (p : Fin 16384) (q : Fin 32), j = ix2 p q := ⟨j 0, j 1, eq_ix2 j⟩
  exact ref_act X W1 p q

/-- The outputs stage as a whole array. -/
theorem ref_out_eq (X : FVec Ideal S16384x2048 .f32) (W1 : FVec Ideal S32x2048 .f32) (W2 : FVec Ideal S512x32 .f32) :
    val_main_v12 (F := Ideal) X W1 W2 = fun j => Cert.Heb.outv (xs X) (ws1 W1) (ws2 W2) (j 0) (j 1) := by
  funext j
  obtain ⟨p, q, rfl⟩ : ∃ (p : Fin 16384) (q : Fin 512), j = ix2 p q := ⟨j 0, j 1, eq_ix2 j⟩
  exact ref_out X W1 W2 p q

theorem lidx_v40 (h : Fin 32) (o : Fin 512) (k : Fin 16384) : lidx_main_v40 (ix2 h o) k = ix2 k h :=
  funext fun a => Fin.ext (by match a with | ⟨0, _⟩ => rfl | ⟨1, _⟩ => rfl)
theorem ridx_v40 (h : Fin 32) (o : Fin 512) (k : Fin 16384) : ridx_main_v40 (ix2 h o) k = ix2 k o :=
  funext fun a => Fin.ext (by match a with | ⟨0, _⟩ => rfl | ⟨1, _⟩ => rfl)

/-- The hidden–output correlation stage at (h, o). -/
theorem ref_corr2 (X : FVec Ideal S16384x2048 .f32) (W1 : FVec Ideal S32x2048 .f32) (W2 : FVec Ideal S512x32 .f32)
    (h : Fin 32) (o : Fin 512) :
    val_main_v40 (F := Ideal) X W1 W2 (ix2 h o) = Cert.Heb.corr2 (xs X) (ws1 W1) (ws2 W2) h o := by
  rw [val_main_v40_apply]
  simp only [lidx_v40, ridx_v40, ref_act, ref_out]
  rfl

/-- The hidden–output correlation stage as a whole array. -/
theorem ref_corr2_eq (X : FVec Ideal S16384x2048 .f32) (W1 : FVec Ideal S32x2048 .f32) (W2 : FVec Ideal S512x32 .f32) :
    val_main_v40 (F := Ideal) X W1 W2 = fun j => Cert.Heb.corr2 (xs X) (ws1 W1) (ws2 W2) (j 0) (j 1) := by
  funext j
  obtain ⟨p, q, rfl⟩ : ∃ (p : Fin 32) (q : Fin 512), j = ix2 p q := ⟨j 0, j 1, eq_ix2 j⟩
  exact ref_corr2 X W1 W2 p q

theorem idx_v58 (z : Fin 1) (o : Fin 512) (k : Fin 16384) : idx_main_v58 (idx_main_v59 (ix2 z o)) k = ix2 k o :=
  funext fun a => Fin.ext (by match a with | ⟨0, _⟩ => rfl | ⟨1, _⟩ => rfl)

/-- The column sums of the outputs, the row [1,512], at (0, o). -/
theorem ref_osum (X : FVec Ideal S16384x2048 .f32) (W1 : FVec Ideal S32x2048 .f32) (W2 : FVec Ideal S512x32 .f32)
    (z : Fin 1) (o : Fin 512) :
    val_main_v59 (F := Ideal) X W1 W2 (ix2 z o) = Cert.Heb.osum (xs X) (ws1 W1) (ws2 W2) o := by
  rw [val_main_v59_apply, val_main_v58_apply, val_main_cst_7_apply]
  simp only [idx_v58, ref_out, Ideal.ofBits_def, Ideal.ofBits_zero_f32, zero_add]
  rfl

/-- The row of column sums of the outputs as a whole array. -/
theorem ref_osum_eq (X : FVec Ideal S16384x2048 .f32) (W1 : FVec Ideal S32x2048 .f32) (W2 : FVec Ideal S512x32 .f32) :
    val_main_v59 (F := Ideal) X W1 W2 = fun j => Cert.Heb.osum (xs X) (ws1 W1) (ws2 W2) (j 1) := by
  funext j
  obtain ⟨p, q, rfl⟩ : ∃ (p : Fin 1) (q : Fin 512), j = ix2 p q := ⟨j 0, j 1, eq_ix2 j⟩
  exact ref_osum X W1 W2 p q

end Cert.ReferenceIdeal.RefValue

end
-- ==== Proof.RefFinal.lean ====
/-
  The reference program's three results from the specification's quantities: the outputs are the specification's
  outputs, and each updated weight matrix is the normalised update applied to the specification's statistics.
-/
import proofs.«180996_j60825326846529_2_alg».proof.Proof.Spec
import proofs.«180996_j60825326846529_2_alg».proof.Proof.Gen.ReferenceIdeal.Read
import proofs.«180996_j60825326846529_2_alg».proof.Proof.RefSums
import proofs.«180996_j60825326846529_2_alg».proof.Proof.RefOut
import proofs.«180996_j60825326846529_2_alg».proof.Proof.RefTail

noncomputable section

namespace Cert.ReferenceIdeal.RefValue

open Cert.ReferenceIdeal Cert.ReferenceIdeal.Gen Cert.ReferenceIdeal.Read Idealize.ShloMosaic Idealize.ShloMosaic.ValueIdx

/-- The first result: the outputs. -/
theorem ref_out_all (X : FVec Ideal S16384x2048 .f32) (W1 : FVec Ideal S32x2048 .f32) (W2 : FVec Ideal S512x32 .f32) :
    val_main_v12 (F := Ideal) X W1 W2 = fun j => Cert.Heb.outv (xs X) (ws1 W1) (ws2 W2) (j 0) (j 1) :=
  ref_out_eq X W1 W2

/-- The second result: the first weight matrix updated from the specification's statistics and normalised. -/
theorem ref_w1 (X : FVec Ideal S16384x2048 .f32) (W1 : FVec Ideal S32x2048 .f32) (H : FVec Ideal S81920x4 .f32) :
    val_main_v69 (F := Ideal) X W1 H
      = tailW1 (F := Ideal) H W1 (fun j => Cert.Heb.corr1 (xs X) (ws1 W1) (j 0) (j 1))
          (fun j => Cert.Heb.xsum (xs X) (j 0)) (fun j => Cert.Heb.asum (xs X) (ws1 W1) (j 1)) := by
  rw [val_main_v69_tail, ref_corr1_eq, ref_xsum_eq, ref_asum_row_eq]

/-- The third result: the second weight matrix updated from the specification's statistics and normalised. -/
theorem ref_w2 (X : FVec Ideal S16384x2048 .f32) (W1 : FVec Ideal S32x2048 .f32) (W2 : FVec Ideal S512x32 .f32)
    (H : FVec Ideal S81920x4 .f32) :
    val_main_v72 (F := Ideal) X W1 W2 H
      = tailW2 (F := Ideal) H W2 (fun j => Cert.Heb.corr2 (xs X) (ws1 W1) (ws2 W2) (j 0) (j 1))
          (fun j => Cert.Heb.asum (xs X) (ws1 W1) (j 0)) (fun j => Cert.Heb.osum (xs X) (ws1 W1) (ws2 W2) (j 1)) := by
  rw [val_main_v72_tail, ref_corr2_eq, ref_asum_col_eq, ref_osum_eq]

end Cert.ReferenceIdeal.RefValue

end
-- ==== Proof.Claims.lean ====
/-
  The five claims of the Hebbian layer's certificate.

  Both programs, at the ideal instance, end with the same three arrays. The outputs are max(x·w1ᵀ, 0) passed through
  the second projection and the logistic — one function of the extended reals on both sides, whether written as
  1/(1 + exp(−s)) or as the logistic — less the 0.4 word. The updated weight matrices are one shared chain of
  operations (coefficient planes, the ABCD combination, division of each row by its Euclidean norm) applied to the
  batch statistics: two correlations and three column sums, each a sum over the 16384 rows of the batch. The reference
  takes each sum in one contraction or reduction; the kernel takes it tile by tile, 2 cores × 4 tiles × 2048 rows,
  each core adding its tiles to a running total started at zero, the two totals then added. These are sums in a
  commutative monoid, so the two arrangements are equal by reindexing alone: no finiteness of any value is used.
-/
import proofs.«180996_j60825326846529_2_alg».proof.Defs
import proofs.«180996_j60825326846529_2_alg».proof.Proof.KI.Final
import proofs.«180996_j60825326846529_2_alg».proof.Proof.K.Frame
import proofs.«180996_j60825326846529_2_alg».proof.Proof.RefFinal
import proofs.«180996_j60825326846529_2_alg».proof.Proof.Gen.Pre_finite_inputs

noncomputable section

open Idealize.ShloMosaic Idealize.ShloMosaic.TcCoe Idealize.SL.Sem

namespace Cert.Proof.HebClaims

open Cert.ReferenceIdeal.RefValue

/-- The reference's outputs stage, at the kernel's argument arrays, is the array the kernel's out window ends at:
    both are the specification's outputs index by index. -/
theorem out_eq (m : (ℓ : Loc Cert.KernelIdeal.nD Cert.KernelIdeal.τ Cert.KernelIdeal.sig) → Buf (Elt Ideal) ℓ)
    (c : Dev Cert.KernelIdeal.nD) :
    Cert.ReferenceIdeal.Read.val_main_v12 (F := Ideal) (Cert.KernelIdeal.Fr.V m c Cert.KernelIdeal.main_arg0)
        (Cert.KernelIdeal.Fr.V m c Cert.KernelIdeal.main_arg1) (Cert.KernelIdeal.Fr.V m c Cert.KernelIdeal.main_arg2)
      = Cert.KernelIdeal.Fr.G3 m c :=
  (ref_out_all _ _ _).trans rfl

/-- The reference's updated first weight matrix, at the kernel's argument arrays. -/
theorem w1_eq (m : (ℓ : Loc Cert.KernelIdeal.nD Cert.KernelIdeal.τ Cert.KernelIdeal.sig) → Buf (Elt Ideal) ℓ)
    (c : Dev Cert.KernelIdeal.nD) :
    Cert.ReferenceIdeal.Read.val_main_v69 (F := Ideal) (Cert.KernelIdeal.Fr.V m c Cert.KernelIdeal.main_arg0)
        (Cert.KernelIdeal.Fr.V m c Cert.KernelIdeal.main_arg1) (Cert.KernelIdeal.Fr.V m c Cert.KernelIdeal.main_arg3)
      = tailW1 (F := Ideal) (Cert.KernelIdeal.Fr.V m c Cert.KernelIdeal.main_arg3) (Cert.KernelIdeal.Fr.V m c Cert.KernelIdeal.main_arg1)
          (fun j => Cert.Heb.corr1 (Cert.KernelIdeal.Fr.cx m c) (Cert.KernelIdeal.Fr.cw1 m c) (j 0) (j 1))
          (fun j => Cert.Heb.xsum (Cert.KernelIdeal.Fr.cx m c) (j 0))
          (fun j => Cert.Heb.asum (Cert.KernelIdeal.Fr.cx m c) (Cert.KernelIdeal.Fr.cw1 m c) (j 1)) :=
  ref_w1 _ _ _

/-- The reference's updated second weight matrix, at the kernel's argument arrays. -/
theorem w2_eq (m : (ℓ : Loc Cert.KernelIdeal.nD Cert.KernelIdeal.τ Cert.KernelIdeal.sig) → Buf (Elt Ideal) ℓ)
    (c : Dev Cert.KernelIdeal.nD) :
    Cert.ReferenceIdeal.Read.val_main_v72 (F := Ideal) (Cert.KernelIdeal.Fr.V m c Cert.KernelIdeal.main_arg0)
        (Cert.KernelIdeal.Fr.V m c Cert.KernelIdeal.main_arg1) (Cert.KernelIdeal.Fr.V m c Cert.KernelIdeal.main_arg2)
        (Cert.KernelIdeal.Fr.V m c Cert.KernelIdeal.main_arg3)
      = tailW2 (F := Ideal) (Cert.KernelIdeal.Fr.V m c Cert.KernelIdeal.main_arg3) (Cert.KernelIdeal.Fr.V m c Cert.KernelIdeal.main_arg2)
          (fun j => Cert.Heb.corr2 (Cert.KernelIdeal.Fr.cx m c) (Cert.KernelIdeal.Fr.cw1 m c) (Cert.KernelIdeal.Fr.cw2 m c) (j 0) (j 1))
          (fun j => Cert.Heb.asum (Cert.KernelIdeal.Fr.cx m c) (Cert.KernelIdeal.Fr.cw1 m c) (j 0))
          (fun j => Cert.Heb.osum (Cert.KernelIdeal.Fr.cx m c) (Cert.KernelIdeal.Fr.cw1 m c) (Cert.KernelIdeal.Fr.cw2 m c) (j 1)) :=
  ref_w2 _ _ _ _

/-- The kernel as printed runs and leaves its arguments unchanged. -/
theorem frame_k : Cert.frame_Kernel := fun m ρ _ => Cert.Kernel.Fr.frame m ρ
/-- So does the kernel at the ideal instance. -/
theorem frame_ki : Cert.frame_KernelIdeal := fun m ρ _ => Cert.KernelIdeal.Fr.frame m ρ
/-- So does the reference at the ideal instance: its run's post with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- At the ideal instance, from memories agreeing on the four arguments, the kernel ends with the specification's
    outputs and the two normalised weight updates of the specification's batch statistics, and the reference ends
    with the same three arrays. -/
theorem algebraic : Cert.algebraic_KernelIdeal_ReferenceIdeal := by
  intro m ρ m' ρ' _ hagree
  refine ⟨fun c => Cert.KernelIdeal.Fr.G3 m c,
    fun c => tailW1 (F := Ideal) (Cert.KernelIdeal.Fr.V m c Cert.KernelIdeal.main_arg3) (Cert.KernelIdeal.Fr.V m c Cert.KernelIdeal.main_arg1)
      (fun j => Cert.Heb.corr1 (Cert.KernelIdeal.Fr.cx m c) (Cert.KernelIdeal.Fr.cw1 m c) (j 0) (j 1))
      (fun j => Cert.Heb.xsum (Cert.KernelIdeal.Fr.cx m c) (j 0))
      (fun j => Cert.Heb.asum (Cert.KernelIdeal.Fr.cx m c) (Cert.KernelIdeal.Fr.cw1 m c) (j 1)),
    fun c => tailW2 (F := Ideal) (Cert.KernelIdeal.Fr.V m c Cert.KernelIdeal.main_arg3) (Cert.KernelIdeal.Fr.V m c Cert.KernelIdeal.main_arg2)
      (fun j => Cert.Heb.corr2 (Cert.KernelIdeal.Fr.cx m c) (Cert.KernelIdeal.Fr.cw1 m c) (Cert.KernelIdeal.Fr.cw2 m c) (j 0) (j 1))
      (fun j => Cert.Heb.asum (Cert.KernelIdeal.Fr.cx m c) (Cert.KernelIdeal.Fr.cw1 m c) (j 0))
      (fun j => Cert.Heb.osum (Cert.KernelIdeal.Fr.cx m c) (Cert.KernelIdeal.Fr.cw1 m c) (Cert.KernelIdeal.Fr.cw2 m c) (j 1)),
    Cert.KernelIdeal.Fr.value_run m ρ, ?_⟩
  refine (θ_run Cert.ReferenceIdeal.defs _ _).mono (fun _ h c => ?_) (Cert.ReferenceIdeal.Value.run (F := Ideal) m' ρ')
  obtain ⟨h12, h69, h72, ha⟩ := h c
  obtain ⟨e0, e1, e2, e3⟩ := hagree c
  refine ⟨h12.trans ?_, h69.trans ?_, h72.trans ?_, ha⟩
  · refine (Cert.ReferenceIdeal.Read.val_main_v12_eq (F := Ideal) _ _ _).trans ?_
    rw [e0, e1, e2]
    exact out_eq m c
  · refine (Cert.ReferenceIdeal.Read.val_main_v69_eq (F := Ideal) m' c).trans ?_
    rw [e0, e1, e3]
    exact w1_eq m c
  · refine (Cert.ReferenceIdeal.Read.val_main_v72_eq (F := Ideal) m' c).trans ?_
    rw [e0, e1, e2, e3]
    exact w2_eq m c

end Cert.Proof.HebClaims

end
-- ==== Proof.lean ====
/-
  The certificate of the Hebbian layer: a two-layer forward pass (relu, then logistic less 0.4) and the ABCD update of
  both weight matrices from batch statistics, each row of the result divided by its Euclidean norm.

  The law that joins the two sides: every batch statistic — the two correlations and the three column sums — is a sum
  over the 16384 rows of the batch in a commutative monoid (the extended reals under addition). The reference takes it
  in one contraction or reduction; the kernel tiles it 2 cores × 4 tiles × 2048 rows, each core adding its tiles to a
  total started at zero and the two totals added afterwards. The two arrangements are equal by reindexing; no value is
  assumed finite. The logistic is one function of the extended reals on both sides, 1/(1 + exp(−s)) by definition, and
  the chain from the statistics to the normalised weight matrices is the same sequence of operations in both programs.
  The frames of the three programs are their runs with the results dropped; the idealization rewrote no operation.
-/
import proofs.«180996_j60825326846529_2_alg».proof.Defs
import proofs.«180996_j60825326846529_2_alg».proof.Proof.Gen.Kernel
import proofs.«180996_j60825326846529_2_alg».proof.Proof.Gen.Kernel.Skeleton
import proofs.«180996_j60825326846529_2_alg».proof.Proof.Gen.Kernel.Launch
import proofs.«180996_j60825326846529_2_alg».proof.Proof.Gen.Kernel.Points
import proofs.«180996_j60825326846529_2_alg».proof.Proof.Gen.KernelIdeal
import proofs.«180996_j60825326846529_2_alg».proof.Proof.Gen.KernelIdeal.Skeleton
import proofs.«180996_j60825326846529_2_alg».proof.Proof.Gen.KernelIdeal.Launch
import proofs.«180996_j60825326846529_2_alg».proof.Proof.Gen.KernelIdeal.Points
import proofs.«180996_j60825326846529_2_alg».proof.Proof.Gen.ReferenceIdeal
import proofs.«180996_j60825326846529_2_alg».proof.Proof.Gen.Pre_finite_inputs
import proofs.«180996_j60825326846529_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.HebClaims.frame_k, Cert.Proof.HebClaims.frame_ki, Cert.Proof.HebClaims.frame_ri,
    Cert.Proof.HebClaims.preserves, Cert.Proof.HebClaims.algebraic⟩

end Cert.Proof

end
